-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  IdealRules.named_const.Statement Cert.KernelIdeal.κ "inv_sqrt_key" .f32 0x3E3504F3#32 ((2097152 / 11863283 : ℝ) : EReal)
  ∧ IdealRules.named_const.Statement Cert.KernelIdeal.κ "inv_sqrt_key" .f32 0x3E3504F3#32 ((2097152 / 11863283 : ℝ) : EReal)
  ∧ IdealRules.named_const.Statement Cert.KernelIdeal.κ "inv_sqrt_key" .f32 0x3E3504F3#32 ((2097152 / 11863283 : ℝ) : EReal)
  ∧ IdealRules.named_const.Statement Cert.KernelIdeal.κ "inv_sqrt_key" .f32 0x3E3504F3#32 ((2097152 / 11863283 : ℝ) : EReal)
  ∧ IdealRules.named_const.Statement Cert.KernelIdeal.κ "inv_sqrt_key" .f32 0x3E3504F3#32 ((2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8x512 : Shape := ⟨3, ![2048, 8, 512]⟩
abbrev S32x512 : Shape := ⟨2, ![32, 512]⟩
abbrev S32 : Shape := ⟨1, ![32]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S128x512 : Shape := ⟨2, ![128, 512]⟩
abbrev S128 : Shape := ⟨1, ![128]⟩
abbrev S2048x512 : Shape := ⟨2, ![2048, 512]⟩
abbrev S2048 : Shape := ⟨1, ![2048]⟩
abbrev S512x2048 : Shape := ⟨2, ![512, 2048]⟩
abbrev S_ : Shape := ⟨0, ![]⟩

class Facts : Prop where
  bcast_S_S2048x8x512 : S_.BroadcastsInDim S2048x8x512 (![] : Fin 0 → Fin S2048x8x512.rank)
  reducesTo_S2048x8x512_S_d0_1_2 : S2048x8x512.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_

variable [Facts]

def fn_part6 {F : FTy → Type} [FloatOps F] (main_arg21 : FVec F S512 .f32) (main_v98 : IVec S_ 1) (main_v101 : IVec S512x2048 1) (main_c_39 : IVec S_ 1) : IVec S_ 1 :=
  let main_v102 : IVec S_ 1 := (fun x v => Host.reduce IntOp.andi x v reducesTo_S512x2048_S_d0_1 h_S_) main_v101 main_c_39
  let main_v103 : IVec S_ 1 := andi main_v98 main_v102
  let main_v104 : FVec F S512 .f32 := Host.absf main_arg21
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  main_v108

def fn_part5 {F : FTy → Type} [FloatOps F] (main_arg18 : FVec F S2048x512 .f32) (main_arg19 : FVec F S2048 .f32) (main_arg20 : FVec F S512x2048 .f32) (main_arg21 : FVec F S512 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S2048x512 .f32 := Host.absf main_arg18
  let main_cst_34 : FVec F S_ .f32 := constant S_ .f32 0x7F800000#32
  let main_v90 : FVec F S2048x512 .f32 := broadcastInDim S2048x512 ![] bcast_S_S2048x512 main_cst_34
  let main_v91 : IVec S2048x512 1 := cmpf .olt main_v89 main_v90
  let main_c_35 : IVec S_ 1 := constantI S_ 1 1#1
  let main_v92 : IVec S_ 1 := (fun x v => Host.reduce IntOp.andi x v reducesTo_S2048x512_S_d0_1 h_S_) main_v91 main_c_35
  let main_v93 : IVec S_ 1 := andi main_v88 main_v92
  let main_v94 : FVec F S2048 .f32 := Host.absf main_arg19
  let main_cst_36 : FVec F S_ .f32 := constant S_ .f32 0x7F800000#32
  let main_v95 : FVec F S2048 .f32 := broadcastInDim S2048 ![] bcast_S_S2048 main_cst_36
  let main_v96 : IVec S2048 1 := cmpf .olt main_v94 main_v95
  let main_c_37 : IVec S_ 1 := constantI S_ 1 1#1
  let main_v97 : IVec S_ 1 := (fun x v => Host.reduce IntOp.andi x v reducesTo_S2048_S_d0 h_S_) main_v96 main_c_37
  let main_v98 : IVec S_ 1 := andi main_v93 main_v97
  let main_v99 : FVec F S512x2048 .f32 := Host.absf main_arg20
  let main_cst_38 : FVec F S_ .f32 := constant S_ .f32 0x7F800000#32
  let main_v100 : FVec F S512x2048 .f32 := broadcastInDim S512x2048 ![] bcast_S_S512x2048 main_cst_38
  let main_v101 : IVec S512x2048 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S128x512 .f32) (main_arg15 : FVec F S128 .f32) (main_arg16 : FVec F S128x512 .f32) (main_arg17 : FVec F S128 .f32) (main_arg18 : FVec F S2048x512 .f32) (main_arg19 : FVec F S2048 .f32) (main_arg20 : FVec F S512x2048 .f32) (main_arg21 : FVec F S512 .f32) (main_v63 : IVec S_ 1) (main_v67 : IVec S_ 1) : IVec S_ 1 :=
  let main_v68 : IVec S_ 1 := andi main_v63 main_v67
  let main_v69 : FVec F S128x512 .f32 := Host.absf main_arg14
  let main_cst_26 : FVec F S_ .f32 := constant S_ .f32 0x7F800000#32
  let main_v70 : FVec F S128x512 .f32 := broadcastInDim S128x512 ![] bcast_S_S128x512 main_cst_26
  let main_v71 : IVec S128x512 1 := cmpf .olt main_v69 main_v70
  let main_c_27 : IVec S_ 1 := constantI S_ 1 1#1
  let main_v72 : IVec S_ 1 := (fun x v => Host.reduce IntOp.andi x v reducesTo_S128x512_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x512 .f32 := Host.absf main_arg16
  let main_cst_30 : FVec F S_ .f32 := constant S_ .f32 0x7F800000#32
  let main_v80 : FVec F S128x512 .f32 := broadcastInDim S128x512 ![] bcast_S_S128x512 main_cst_30
  let main_v81 : IVec S128x512 1 := cmpf .olt main_v79 main_v80
  let main_c_31 : IVec S_ 1 := constantI S_ 1 1#1
  let main_v82 : IVec S_ 1 := (fun x v => Host.reduce IntOp.andi x v reducesTo_S128x512_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S512 .f32) (main_arg12 : FVec F S1024x512 .f32) (main_arg13 : FVec F S1024 .f32) (main_arg14 : FVec F S128x512 .f32) (main_arg15 : FVec F S128 .f32) (main_arg16 : FVec F S128x512 .f32) (main_arg17 : FVec F S128 .f32) (main_arg18 : FVec F S2048x512 .f32) (main_arg19 : FVec F S2048 .f32) (main_arg20 : FVec F S512x2048 .f32) (main_arg21 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S1024x512 .f32 := Host.absf main_arg12
  let main_cst_22 : FVec F S_ .f32 := constant S_ .f32 0x7F800000#32
  let main_v60 : FVec F S1024x512 .f32 := broadcastInDim S1024x512 ![] bcast_S_S1024x512 main_cst_22
  let main_v61 : IVec S1024x512 1 := cmpf .olt main_v59 main_v60
  let main_c_23 : IVec S_ 1 := constantI S_ 1 1#1
  let main_v62 : IVec S_ 1 := (fun x v => Host.reduce IntOp.andi x v reducesTo_S1024x512_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S512 .f32) (main_arg8 : FVec F S512x512 .f32) (main_arg9 : FVec F S512 .f32) (main_arg10 : FVec F S512x512 .f32) (main_arg11 : FVec F S512 .f32) (main_arg12 : FVec F S1024x512 .f32) (main_arg13 : FVec F S1024 .f32) (main_arg14 : FVec F S128x512 .f32) (main_arg15 : FVec F S128 .f32) (main_arg16 : FVec F S128x512 .f32) (main_arg17 : FVec F S128 .f32) (main_arg18 : FVec F S2048x512 .f32) (main_arg19 : FVec F S2048 .f32) (main_arg20 : FVec F S512x2048 .f32) (main_arg21 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S32x512 .f32) (main_arg5 : FVec F S32 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S1024x512 .f32) (main_arg13 : FVec F S1024 .f32) (main_arg14 : FVec F S128x512 .f32) (main_arg15 : FVec F S128 .f32) (main_arg16 : FVec F S128x512 .f32) (main_arg17 : FVec F S128 .f32) (main_arg18 : FVec F S2048x512 .f32) (main_arg19 : FVec F S2048 .f32) (main_arg20 : FVec F S512x2048 .f32) (main_arg21 : FVec F S512 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x512 .f32 := Host.absf main_arg4
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S2048x8x512 .f32) (main_arg1 : FVec F S2048x8x512 .f32) (main_arg2 : FVec F S32x512 .f32) (main_arg3 : FVec F S32 .f32) (main_arg4 : FVec F S32x512 .f32) (main_arg5 : FVec F S32 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S1024x512 .f32) (main_arg13 : FVec F S1024 .f32) (main_arg14 : FVec F S128x512 .f32) (main_arg15 : FVec F S128 .f32) (main_arg16 : FVec F S128x512 .f32) (main_arg17 : FVec F S128 .f32) (main_arg18 : FVec F S2048x512 .f32) (main_arg19 : FVec F S2048 .f32) (main_arg20 : FVec F S512x2048 .f32) (main_arg21 : FVec F S512 .f32) : IVec S_ 1 :=
  let main_v0 : FVec F S2048x8x512 .f32 := Host.absf main_arg0
  let main_cst : FVec F S_ .f32 := constant S_ .f32 0x7F800000#32
  let main_v1 : FVec F S2048x8x512 .f32 := broadcastInDim S2048x8x512 ![] bcast_S_S2048x8x512 main_cst
  let main_v2 : IVec S2048x8x512 1 := cmpf .olt main_v0 main_v1
  let main_c : IVec S_ 1 := constantI S_ 1 1#1
  let main_v3 : IVec S_ 1 := (fun x v => Host.reduce IntOp.andi x v reducesTo_S2048x8x512_S_d0_1_2 h_S_) main_v2 main_c
  let main_v4 : FVec F S2048x8x512 .f32 := Host.absf main_arg1
  let main_cst_0 : FVec F S_ .f32 := constant S_ .f32 0x7F800000#32
  let main_v5 : FVec F S2048x8x512 .f32 := broadcastInDim S2048x8x512 ![] bcast_S_S2048x8x512 main_cst_0
  let main_v6 : IVec S2048x8x512 1 := cmpf .olt main_v4 main_v5
  let main_c_1 : IVec S_ 1 := constantI S_ 1 1#1
  let main_v7 : IVec S_ 1 := (fun x v => Host.reduce IntOp.andi x v reducesTo_S2048x8x512_S_d0_1_2 h_S_) main_v6 main_c_1
  let main_v8 : IVec S_ 1 := andi main_v3 main_v7
  let main_v9 : FVec F S32x512 .f32 := Host.absf main_arg2
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S2048x8x512 : Shape := ⟨3, ![2048, 8, 512]⟩
abbrev S32x512 : Shape := ⟨2, ![32, 512]⟩
abbrev S32 : Shape := ⟨1, ![32]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S128x512 : Shape := ⟨2, ![128, 512]⟩
abbrev S128 : Shape := ⟨1, ![128]⟩
abbrev S2048x512 : Shape := ⟨2, ![2048, 512]⟩
abbrev S2048 : Shape := ⟨1, ![2048]⟩
abbrev S512x2048 : Shape := ⟨2, ![512, 2048]⟩
abbrev S64x8x512 : Shape := ⟨3, ![64, 8, 512]⟩
abbrev S64x16x512 : Shape := ⟨3, ![64, 16, 512]⟩
abbrev S512x32 : Shape := ⟨2, ![512, 32]⟩
abbrev S1x32 : Shape := ⟨2, ![1, 32]⟩
abbrev S64x8x32 : Shape := ⟨3, ![64, 8, 32]⟩
abbrev S1024x32 : Shape := ⟨2, ![1024, 32]⟩
abbrev S64x16x32 : Shape := ⟨3, ![64, 16, 32]⟩
abbrev S1x512 : Shape := ⟨2, ![1, 512]⟩
abbrev S64x8x1x32 : Shape := ⟨4, ![64, 8, 1, 32]⟩
abbrev S64x1x16x32 : Shape := ⟨4, ![64, 1, 16, 32]⟩
abbrev S64x8x16x32 : Shape := ⟨4, ![64, 8, 16, 32]⟩
abbrev S64x8x16 : Shape := ⟨3, ![64, 8, 16]⟩
abbrev S64x8 : Shape := ⟨2, ![64, 8]⟩
abbrev S64x8x1 : Shape := ⟨3, ![64, 8, 1]⟩
abbrev S64x512 : Shape := ⟨2, ![64, 512]⟩
abbrev S64x1x512 : Shape := ⟨3, ![64, 1, 512]⟩
abbrev S512x1024 : Shape := ⟨2, ![512, 1024]⟩
abbrev S1x1024 : Shape := ⟨2, ![1, 1024]⟩
abbrev S64x8x1024 : Shape := ⟨3, ![64, 8, 1024]⟩
abbrev S512x128 : Shape := ⟨2, ![512, 128]⟩
abbrev S1x128 : Shape := ⟨2, ![1, 128]⟩
abbrev S64x8x128 : Shape := ⟨3, ![64, 8, 128]⟩
abbrev S1x2048 : Shape := ⟨2, ![1, 2048]⟩
abbrev S64x8x2048 : Shape := ⟨3, ![64, 8, 2048]⟩
abbrev S64x1x8x32 : Shape := ⟨4, ![64, 1, 8, 32]⟩
abbrev S64x8x8x32 : Shape := ⟨4, ![64, 8, 8, 32]⟩
abbrev S64x8x8 : Shape := ⟨3, ![64, 8, 8]⟩
abbrev S1x1x512 : Shape := ⟨3, ![1, 1, 512]⟩

abbrev nBuf : Space → Nat
  | .hbm => 34
  | .vmem => 28
  | .smem => 0
  | _ => 0

abbrev bufTy : (tb : Table) → Fin (tcTables nBuf tb) → BufTy
  | .hbm, ⟨0, _⟩ => ⟨S2048x8x512, .f32⟩
  | .hbm, ⟨1, _⟩ => ⟨S2048x8x512, .f32⟩
  | .hbm, ⟨2, _⟩ => ⟨S32x512, .f32⟩
  | .hbm, ⟨3, _⟩ => ⟨S32, .f32⟩
  | .hbm, ⟨4, _⟩ => ⟨S32x512, .f32⟩
  | .hbm, ⟨5, _⟩ => ⟨S32, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S1024x512, .f32⟩
  | .hbm, ⟨13, _⟩ => ⟨S1024, .f32⟩
  | .hbm, ⟨14, _⟩ => ⟨S128x512, .f32⟩
  | .hbm, ⟨15, _⟩ => ⟨S128, .f32⟩
  | .hbm, ⟨16, _⟩ => ⟨S128x512, .f32⟩
  | .hbm, ⟨17, _⟩ => ⟨S128, .f32⟩
  | .hbm, ⟨18, _⟩ => ⟨S2048x512, .f32⟩
  | .hbm, ⟨19, _⟩ => ⟨S2048, .f32⟩
  | .hbm, ⟨20, _⟩ => ⟨S512x2048, .f32⟩
  | .hbm, ⟨21, _⟩ => ⟨S512, .f32⟩
  | .hbm, ⟨22, _⟩ => ⟨S32x512, .bf16⟩
  | .hbm, ⟨23, _⟩ => ⟨S32x512, .bf16⟩
  | .hbm, ⟨24, _⟩ => ⟨S512x512, .bf16⟩
  | .hbm, ⟨25, _⟩ => ⟨S512x512, .bf16⟩
  | .hbm, ⟨26, _⟩ => ⟨S512x512, .bf16⟩
  | .hbm, ⟨27, _⟩ => ⟨S1024x512, .bf16⟩
  | .hbm, ⟨28, _⟩ => ⟨S128x512, .bf16⟩
  | .hbm, ⟨29, _⟩ => ⟨S128x512, .bf16⟩
  | .hbm, ⟨30, _⟩ => ⟨S2048x512, .bf16⟩
  | .hbm, ⟨31, _⟩ => ⟨S512x2048, .bf16⟩
  | .hbm, ⟨32, _⟩ => ⟨S2048x8x512, .f32⟩
  | .hbm, ⟨33, _⟩ => ⟨S2048x8x512, .f32⟩
  | .local _ .vmem, ⟨0, _⟩ => ⟨S64x8x512, .f32⟩
  | .local _ .vmem, ⟨1, _⟩ => ⟨S64x8x512, .f32⟩
  | .local _ .vmem, ⟨2, _⟩ => ⟨S64x8x512, .f32⟩
  | .local _ .vmem, ⟨3, _⟩ => ⟨S64x8x512, .f32⟩
  | .local _ .vmem, ⟨4, _⟩ => ⟨S32x512, .bf16⟩
  | .local _ .vmem, ⟨5, _⟩ => ⟨S32, .f32⟩
  | .local _ .vmem, ⟨6, _⟩ => ⟨S32x512, .bf16⟩
  | .local _ .vmem, ⟨7, _⟩ => ⟨S32, .f32⟩
  | .local _ .vmem, ⟨8, _⟩ => ⟨S512x512, .bf16⟩
  | .local _ .vmem, ⟨9, _⟩ => ⟨S512, .f32⟩
  | .local _ .vmem, ⟨10, _⟩ => ⟨S512x512, .bf16⟩
  | .local _ .vmem, ⟨11, _⟩ => ⟨S512, .f32⟩
  | .local _ .vmem, ⟨12, _⟩ => ⟨S512x512, .bf16⟩
  | .local _ .vmem, ⟨13, _⟩ => ⟨S512, .f32⟩
  | .local _ .vmem, ⟨14, _⟩ => ⟨S1024x512, .bf16⟩
  | .local _ .vmem, ⟨15, _⟩ => ⟨S1024, .f32⟩
  | .local _ .vmem, ⟨16, _⟩ => ⟨S128x512, .bf16⟩
  | .local _ .vmem, ⟨17, _⟩ => ⟨S128, .f32⟩
  | .local _ .vmem, ⟨18, _⟩ => ⟨S128x512, .bf16⟩
  | .local _ .vmem, ⟨19, _⟩ => ⟨S128, .f32⟩
  | .local _ .vmem, ⟨20, _⟩ => ⟨S2048x512, .bf16⟩
  | .local _ .vmem, ⟨21, _⟩ => ⟨S2048, .f32⟩
  | .local _ .vmem, ⟨22, _⟩ => ⟨S512x2048, .bf16⟩
  | .local _ .vmem, ⟨23, _⟩ => ⟨S512, .f32⟩
  | .local _ .vmem, ⟨24, _⟩ => ⟨S64x8x512, .f32⟩
  | .local _ .vmem, ⟨25, _⟩ => ⟨S64x8x512, .f32⟩
  | .local _ .vmem, ⟨26, _⟩ => ⟨S64x8x512, .f32⟩
  | .local _ .vmem, ⟨27, _⟩ => ⟨S64x8x512, .f32⟩
  | _, _ => ⟨S2048x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10_0 : Ref sig .tc := ⟨.hbm, 32, rfl⟩
abbrev main_v10_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg22_1 : Ref sig .tc := ⟨.vmem, 25, rfl⟩
abbrev cc0_stg23_0 : Ref sig .tc := ⟨.vmem, 26, rfl⟩
abbrev cc0_stg23_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem22_1 : DmaSem sig := 25
abbrev cc0_sem23_0 : DmaSem sig := 26
abbrev cc0_sem23_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2048x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x2048 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S64x8x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x8x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  bitsLt_bf16_f32 : FTy.bits .bf16 < FTy.bits .f32
  inb_S64x8x512_S64x8x512_0_0_0 : ∀ a, (![0, 0, 0] : Fin 3 → Nat) a + S64x8x512.size a ≤ S64x8x512.size a
  h_S64x8x512 : 0 < S64x8x512.numel
  concatenates_S64x8x512_S64x8x512_S64x16x512_d1 : Shape.Concatenates [S64x8x512, S64x8x512] S64x16x512 1
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32_S32_0 : ∀ a, (![0] : Fin 1 → Nat) a + S32.size a ≤ S32.size a
  h_S32 : 0 < S32.numel
  shapeCasts_S64x8x512_S512x512 : S64x8x512.ShapeCasts S512x512
  shapeCasts_S32_S1x32 : S32.ShapeCasts S1x32
  broadcasts_S1x32_S512x32 : S1x32.Broadcasts S512x32
  shapeCasts_S512x32_S64x8x32 : S512x32.ShapeCasts S64x8x32
  shapeCasts_S64x16x512_S1024x512 : S64x16x512.ShapeCasts S1024x512
  broadcasts_S1x32_S1024x32 : S1x32.Broadcasts S1024x32
  shapeCasts_S1024x32_S64x16x32 : S1024x32.ShapeCasts S64x16x32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  shapeCasts_S1024x512_S64x16x512 : S1024x512.ShapeCasts S64x16x512
  shapeCasts_S64x8x32_S64x8x1x32 : S64x8x32.ShapeCasts S64x8x1x32
  shapeCasts_S64x16x32_S64x1x16x32 : S64x16x32.ShapeCasts S64x1x16x32
  broadcasts_S64x8x1x32_S64x8x16x32 : S64x8x1x32.Broadcasts S64x8x16x32
  broadcasts_S64x1x16x32_S64x8x16x32 : S64x1x16x32.Broadcasts S64x8x16x32
  reduces_S64x8x16x32_S64x8x16 : S64x8x16x32.Reduces [3] S64x8x16
  reduces_S64x8x16_S64x8 : S64x8x16.Reduces [2] S64x8
  shapeCasts_S64x8_S64x8x1 : S64x8.ShapeCasts S64x8x1
  broadcasts_S64x8x1_S64x8x16 : S64x8x1.Broadcasts S64x8x16
  broadcasts_S1x512_S512x512 : S1x512.Broadcasts S512x512
  shapeCasts_S512x512_S64x8x512 : S512x512.ShapeCasts S64x8x512
  reduces_S64x8x512_S64x512 : S64x8x512.Reduces [1] S64x512
  shapeCasts_S64x512_S64x1x512 : S64x512.ShapeCasts S64x1x512
  broadcasts_S64x1x512_S64x8x512 : S64x1x512.Broadcasts S64x8x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S64x8x1024 : S512x1024.ShapeCasts S64x8x1024
  slices_S64x8x1024_o0_0_0_S64x8x512 : S64x8x1024.Slices ![0, 0, 0] S64x8x512
  slices_S64x8x1024_o0_0_512_S64x8x512 : S64x8x1024.Slices ![0, 0, 512] S64x8x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  shapeCasts_S512x128_S64x8x128 : S512x128.ShapeCasts S64x8x128
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  shapeCasts_S512x2048_S64x8x2048 : S512x2048.ShapeCasts S64x8x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  slices_S64x8x128_o0_0_0_S64x8x32 : S64x8x128.Slices ![0, 0, 0] S64x8x32
  slices_S64x8x2048_o0_0_0_S64x8x512 : S64x8x2048.Slices ![0, 0, 0] S64x8x512
  shapeCasts_S64x8x32_S64x1x8x32 : S64x8x32.ShapeCasts S64x1x8x32
  broadcasts_S64x8x1x32_S64x8x8x32 : S64x8x1x32.Broadcasts S64x8x8x32
  broadcasts_S64x1x8x32_S64x8x8x32 : S64x1x8x32.Broadcasts S64x8x8x32
  reduces_S64x8x8x32_S64x8x8 : S64x8x8x32.Reduces [3] S64x8x8
  reduces_S64x8x8_S64x8 : S64x8x8.Reduces [2] S64x8
  broadcasts_S64x8x1_S64x8x8 : S64x8x1.Broadcasts S64x8x8
  slices_S64x8x128_o0_0_32_S64x8x32 : S64x8x128.Slices ![0, 0, 32] S64x8x32
  slices_S64x8x2048_o0_0_512_S64x8x512 : S64x8x2048.Slices ![0, 0, 512] S64x8x512
  slices_S64x8x128_o0_0_64_S64x8x32 : S64x8x128.Slices ![0, 0, 64] S64x8x32
  slices_S64x8x2048_o0_0_1024_S64x8x512 : S64x8x2048.Slices ![0, 0, 1024] S64x8x512
  slices_S64x8x128_o0_0_96_S64x8x32 : S64x8x128.Slices ![0, 0, 96] S64x8x32
  slices_S64x8x2048_o0_0_1536_S64x8x512 : S64x8x2048.Slices ![0, 0, 1536] S64x8x512
  concatenates_S64x8x512_S64x8x512_S64x8x512_S64x8x512_S64x8x2048_d2 : Shape.Concatenates [S64x8x512, S64x8x512, S64x8x512, S64x8x512] S64x8x2048 2
  shapeCasts_S64x8x2048_S512x2048 : S64x8x2048.ShapeCasts S512x2048
  shapeCasts_S512_S1x1x512 : S512.ShapeCasts S1x1x512
  broadcasts_S1x1x512_S64x8x512 : S1x1x512.Broadcasts S64x8x512
  dot_S512x512_S32x512_S512x32_1_1_0_0_n_n_wf : DotDims.WF S512x512 S32x512 S512x32 [1] [1] [0] [0] [] []
  dot_S1024x512_S32x512_S1024x32_1_1_0_0_n_n_wf : DotDims.WF S1024x512 S32x512 S1024x32 [1] [1] [0] [0] [] []
  dot_S1024x512_S512x512_S1024x512_1_1_0_0_n_n_wf : DotDims.WF S1024x512 S512x512 S1024x512 [1] [1] [0] [0] [] []
  dot_S64x8x16_S64x16x512_S64x8x512_2_1_1_2_0_0_wf : DotDims.WF S64x8x16 S64x16x512 S64x8x512 [2] [1] [1] [2] [0] [0]
  dot_S512x512_S512x512_S512x512_1_1_0_0_n_n_wf : DotDims.WF S512x512 S512x512 S512x512 [1] [1] [0] [0] [] []
  dot_S512x512_S1024x512_S512x1024_1_1_0_0_n_n_wf : DotDims.WF S512x512 S1024x512 S512x1024 [1] [1] [0] [0] [] []
  dot_S512x512_S128x512_S512x128_1_1_0_0_n_n_wf : DotDims.WF S512x512 S128x512 S512x128 [1] [1] [0] [0] [] []
  dot_S512x512_S2048x512_S512x2048_1_1_0_0_n_n_wf : DotDims.WF S512x512 S2048x512 S512x2048 [1] [1] [0] [0] [] []
  dot_S64x8x8_S64x8x512_S64x8x512_2_1_1_2_0_0_wf : DotDims.WF S64x8x8 S64x8x512 S64x8x512 [2] [1] [1] [2] [0] [0]
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8x512.size a ≤ S2048x8x512.size a
  hwx0_0 : ∀ i : grid0.Coords, EltTy.bits .f32 = 32 ∨ (Rect.block (s := S2048x8x512) S64x8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8x512.size a ≤ S2048x8x512.size a
  hwx0_1 : ∀ i : grid0.Coords, EltTy.bits .f32 = 32 ∨ (Rect.block (s := S2048x8x512) S64x8x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .bf16 = 32 ∨ (Rect.block (s := S32x512) S32x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x512.size a
  hwx0_4 : ∀ i : grid0.Coords, EltTy.bits .bf16 = 32 ∨ (Rect.block (s := S32x512) S32x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x512.size a ≤ S1024x512.size a
  hwx0_12 : ∀ i : grid0.Coords, EltTy.bits .bf16 = 32 ∨ (Rect.block (s := S1024x512) S1024x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024.size a ≤ S1024.size a
  hwx0_13 : ∀ i : grid0.Coords, EltTy.bits .f32 = 32 ∨ (Rect.block (s := S1024) S1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x512.size a ≤ S128x512.size a
  hwx0_14 : ∀ i : grid0.Coords, EltTy.bits .bf16 = 32 ∨ (Rect.block (s := S128x512) S128x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x512.size a ≤ S128x512.size a
  hwx0_16 : ∀ i : grid0.Coords, EltTy.bits .bf16 = 32 ∨ (Rect.block (s := S128x512) S128x512.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128.size a ≤ S128.size a
  hwx0_17 : ∀ i : grid0.Coords, EltTy.bits .f32 = 32 ∨ (Rect.block (s := S128) S128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S2048x512.size a ≤ S2048x512.size a
  hwx0_18 : ∀ i : grid0.Coords, EltTy.bits .bf16 = 32 ∨ (Rect.block (s := S2048x512) S2048x512.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S2048.size a ≤ S2048.size a
  hwx0_19 : ∀ i : grid0.Coords, EltTy.bits .f32 = 32 ∨ (Rect.block (s := S2048) S2048.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S512x2048.size a ≤ S512x2048.size a
  hwx0_20 : ∀ i : grid0.Coords, EltTy.bits .bf16 = 32 ∨ (Rect.block (s := S512x2048) S512x2048.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S512.size a ≤ S512.size a
  hwx0_21 : ∀ i : grid0.Coords, EltTy.bits .f32 = 32 ∨ (Rect.block (s := S512) S512.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S64x8x512.size a ≤ S2048x8x512.size a
  hwx0_22 : ∀ i : grid0.Coords, EltTy.bits .f32 = 32 ∨ (Rect.block (s := S2048x8x512) S64x8x512.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S64x8x512.size a ≤ S2048x8x512.size a
  hwx0_23 : ∀ i : grid0.Coords, EltTy.bits .f32 = 32 ∨ (Rect.block (s := S2048x8x512) S64x8x512.size (cc0_transform_23 i) (hinb0_23 i)).WholeWords (EltTy.packing .f32)

variable [Facts₀]

def dot_S512x512_S32x512_S512x32_1_1_0_0_n_n : DotDims S512x512 S32x512 S512x32 where
  lhsContracting := [1]
  rhsContracting := [1]
  lhsNonContracting := [0]
  rhsNonContracting := [0]
  lhsBatch := []
  rhsBatch := []
  wf := dot_S512x512_S32x512_S512x32_1_1_0_0_n_n_wf
def dot_S1024x512_S32x512_S1024x32_1_1_0_0_n_n : DotDims S1024x512 S32x512 S1024x32 where
  lhsContracting := [1]
  rhsContracting := [1]
  lhsNonContracting := [0]
  rhsNonContracting := [0]
  lhsBatch := []
  rhsBatch := []
  wf := dot_S1024x512_S32x512_S1024x32_1_1_0_0_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S64x8x16_S64x16x512_S64x8x512_2_1_1_2_0_0 : DotDims S64x8x16 S64x16x512 S64x8x512 where
  lhsContracting := [2]
  rhsContracting := [1]
  lhsNonContracting := [1]
  rhsNonContracting := [2]
  lhsBatch := [0]
  rhsBatch := [0]
  wf := dot_S64x8x16_S64x16x512_S64x8x512_2_1_1_2_0_0_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x512_S128x512_S512x128_1_1_0_0_n_n : DotDims S512x512 S128x512 S512x128 where
  lhsContracting := [1]
  rhsContracting := [1]
  lhsNonContracting := [0]
  rhsNonContracting := [0]
  lhsBatch := []
  rhsBatch := []
  wf := dot_S512x512_S128x512_S512x128_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S64x8x8_S64x8x512_S64x8x512_2_1_1_2_0_0 : DotDims S64x8x8 S64x8x512 S64x8x512 where
  lhsContracting := [2]
  rhsContracting := [1]
  lhsNonContracting := [1]
  rhsNonContracting := [2]
  lhsBatch := [0]
  rhsBatch := [0]
  wf := dot_S64x8x8_S64x8x512_S64x8x512_2_1_1_2_0_0_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_arg0) S64x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1024x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S128x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v7) S128x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v8) S2048x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S2048.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v9) S512x2048.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v10_0) S64x8x512.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v10_1) S64x8x512.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S2048x8x512 : Shape := ⟨3, ![2048, 8, 512]⟩
abbrev S32x512 : Shape := ⟨2, ![32, 512]⟩
abbrev S32 : Shape := ⟨1, ![32]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S128x512 : Shape := ⟨2, ![128, 512]⟩
abbrev S128 : Shape := ⟨1, ![128]⟩
abbrev S2048x512 : Shape := ⟨2, ![2048, 512]⟩
abbrev S2048 : Shape := ⟨1, ![2048]⟩
abbrev S512x2048 : Shape := ⟨2, ![512, 2048]⟩
abbrev S2048x16x512 : Shape := ⟨3, ![2048, 16, 512]⟩
abbrev S2048x8x32 : Shape := ⟨3, ![2048, 8, 32]⟩
abbrev S1x1x32 : Shape := ⟨3, ![1, 1, 32]⟩
abbrev S2048x8x1x32 : Shape := ⟨4, ![2048, 8, 1, 32]⟩
abbrev S2048x1x8x32 : Shape := ⟨4, ![2048, 1, 8, 32]⟩
abbrev S2048x16x32 : Shape := ⟨3, ![2048, 16, 32]⟩
abbrev S2048x16x1x32 : Shape := ⟨4, ![2048, 16, 1, 32]⟩
abbrev S2048x1x16x32 : Shape := ⟨4, ![2048, 1, 16, 32]⟩
abbrev S1x1x512 : Shape := ⟨3, ![1, 1, 512]⟩
abbrev S2048x16x1x512 : Shape := ⟨4, ![2048, 16, 1, 512]⟩
abbrev S2048x1x16x512 : Shape := ⟨4, ![2048, 1, 16, 512]⟩
abbrev S2048x1x8x16 : Shape := ⟨4, ![2048, 1, 8, 16]⟩
abbrev S_ : Shape := ⟨0, ![]⟩
abbrev S2048x1x8 : Shape := ⟨3, ![2048, 1, 8]⟩
abbrev S2048x1x8x1 : Shape := ⟨4, ![2048, 1, 8, 1]⟩
abbrev S2048x1x8x512 : Shape := ⟨4, ![2048, 1, 8, 512]⟩
abbrev S2048x8x1x512 : Shape := ⟨4, ![2048, 8, 1, 512]⟩
abbrev S2048x1x512 : Shape := ⟨3, ![2048, 1, 512]⟩
abbrev S2048x8x1024 : Shape := ⟨3, ![2048, 8, 1024]⟩
abbrev S1x1x1024 : Shape := ⟨3, ![1, 1, 1024]⟩
abbrev S2048x8x128 : Shape := ⟨3, ![2048, 8, 128]⟩
abbrev S1x1x128 : Shape := ⟨3, ![1, 1, 128]⟩
abbrev S2048x8x4x32 : Shape := ⟨4, ![2048, 8, 4, 32]⟩
abbrev S2048x4x8x32 : Shape := ⟨4, ![2048, 4, 8, 32]⟩
abbrev S2048x8x2048 : Shape := ⟨3, ![2048, 8, 2048]⟩
abbrev S1x1x2048 : Shape := ⟨3, ![1, 1, 2048]⟩
abbrev S2048x8x4x512 : Shape := ⟨4, ![2048, 8, 4, 512]⟩
abbrev S2048x4x8x512 : Shape := ⟨4, ![2048, 4, 8, 512]⟩
abbrev S2048x4x8x8 : Shape := ⟨4, ![2048, 4, 8, 8]⟩
abbrev S2048x4x8 : Shape := ⟨3, ![2048, 4, 8]⟩
abbrev S2048x4x8x1 : Shape := ⟨4, ![2048, 4, 8, 1]⟩

abbrev nBuf : Space → Nat
  | .hbm => 144
  | .vmem => 0
  | .smem => 0
  | _ => 0

abbrev hbmTy0_0 (i : Nat) : BufTy := match i % 128 with
  | 0 => ⟨S2048x8x512, .f32⟩
  | 1 => ⟨S2048x8x512, .f32⟩
  | 2 => ⟨S32x512, .f32⟩
  | 3 => ⟨S32, .f32⟩
  | 4 => ⟨S32x512, .f32⟩
  | 5 => ⟨S32, .f32⟩
  | 6 => ⟨S512x512, .f32⟩
  | 7 => ⟨S512, .f32⟩
  | 8 => ⟨S512x512, .f32⟩
  | 9 => ⟨S512, .f32⟩
  | 10 => ⟨S512x512, .f32⟩
  | 11 => ⟨S512, .f32⟩
  | 12 => ⟨S1024x512, .f32⟩
  | 13 => ⟨S1024, .f32⟩
  | 14 => ⟨S128x512, .f32⟩
  | 15 => ⟨S128, .f32⟩
  | 16 => ⟨S128x512, .f32⟩
  | 17 => ⟨S128, .f32⟩
  | 18 => ⟨S2048x512, .f32⟩
  | 19 => ⟨S2048, .f32⟩
  | 20 => ⟨S512x2048, .f32⟩
  | 21 => ⟨S512, .f32⟩
  | 22 => ⟨S2048x16x512, .f32⟩
  | 23 => ⟨S2048x8x32, .f32⟩
  | 24 => ⟨S1x1x32, .f32⟩
  | 25 => ⟨S2048x8x32, .f32⟩
  | 26 => ⟨S2048x8x32, .f32⟩
  | 27 => ⟨S2048x8x1x32, .f32⟩
  | 28 => ⟨S2048x1x8x32, .f32⟩
  | 29 => ⟨S2048x16x32, .f32⟩
  | 30 => ⟨S1x1x32, .f32⟩
  | 31 => ⟨S2048x16x32, .f32⟩
  | 32 => ⟨S2048x16x32, .f32⟩
  | 33 => ⟨S2048x16x1x32, .f32⟩
  | 34 => ⟨S2048x1x16x32, .f32⟩
  | 35 => ⟨S2048x16x512, .f32⟩
  | 36 => ⟨S1x1x512, .f32⟩
  | 37 => ⟨S2048x16x512, .f32⟩
  | 38 => ⟨S2048x16x512, .f32⟩
  | 39 => ⟨S2048x16x1x512, .f32⟩
  | 40 => ⟨S2048x1x16x512, .f32⟩
  | 41 => ⟨S2048x1x8x16, .f32⟩
  | 42 => ⟨S_, .f32⟩
  | 43 => ⟨S2048x1x8x16, .f32⟩
  | 44 => ⟨S2048x1x8x16, .f32⟩
  | 45 => ⟨S_, .f32⟩
  | 46 => ⟨S2048x1x8, .f32⟩
  | 47 => ⟨S_, .f32⟩
  | 48 => ⟨S2048x1x8, .f32⟩
  | 49 => ⟨S2048x1x8, .f32⟩
  | 50 => ⟨S2048x1x8x1, .f32⟩
  | 51 => ⟨S2048x1x8x16, .f32⟩
  | 52 => ⟨S2048x1x8x16, .f32⟩
  | 53 => ⟨S2048x1x8x16, .f32⟩
  | 54 => ⟨S_, .f32⟩
  | 55 => ⟨S2048x1x8, .f32⟩
  | 56 => ⟨S2048x1x8x1, .f32⟩
  | 57 => ⟨S2048x1x8x16, .f32⟩
  | 58 => ⟨S2048x1x8x16, .f32⟩
  | 59 => ⟨S2048x1x8x512, .f32⟩
  | 60 => ⟨S2048x8x1x512, .f32⟩
  | 61 => ⟨S2048x8x512, .f32⟩
  | 62 => ⟨S2048x8x512, .f32⟩
  | 63 => ⟨S1x1x512, .f32⟩
  | 64 => ⟨S2048x8x512, .f32⟩
  | 65 => ⟨S2048x8x512, .f32⟩
  | 66 => ⟨S2048x8x512, .f32⟩
  | 67 => ⟨S1x1x512, .f32⟩
  | 68 => ⟨S2048x8x512, .f32⟩
  | 69 => ⟨S2048x8x512, .f32⟩
  | 70 => ⟨S_, .f32⟩
  | 71 => ⟨S2048x8x512, .f32⟩
  | 72 => ⟨S2048x8x512, .f32⟩
  | 73 => ⟨S_, .f32⟩
  | 74 => ⟨S2048x512, .f32⟩
  | 75 => ⟨S2048x1x512, .f32⟩
  | 76 => ⟨S_, .f32⟩
  | 77 => ⟨S2048x1x512, .f32⟩
  | 78 => ⟨S2048x1x512, .f32⟩
  | 79 => ⟨S2048x8x512, .f32⟩
  | 80 => ⟨S2048x8x512, .f32⟩
  | 81 => ⟨S2048x8x512, .f32⟩
  | 82 => ⟨S2048x8x1024, .f32⟩
  | 83 => ⟨S1x1x1024, .f32⟩
  | 84 => ⟨S2048x8x1024, .f32⟩
  | 85 => ⟨S2048x8x1024, .f32⟩
  | 86 => ⟨S2048x8x1024, .f32⟩
  | 87 => ⟨S2048x8x1024, .f32⟩
  | 88 => ⟨S_, .f32⟩
  | 89 => ⟨S2048x8x1024, .f32⟩
  | 90 => ⟨S2048x8x1024, .f32⟩
  | 91 => ⟨S_, .f32⟩
  | 92 => ⟨S2048x8x1024, .f32⟩
  | 93 => ⟨S2048x8x1024, .f32⟩
  | 94 => ⟨S2048x8x512, .f32⟩
  | 95 => ⟨S2048x8x512, .f32⟩
  | 96 => ⟨S2048x8x512, .f32⟩
  | 97 => ⟨S2048x8x512, .f32⟩
  | 98 => ⟨S2048x8x512, .f32⟩
  | 99 => ⟨S2048x8x512, .f32⟩
  | 100 => ⟨S2048x8x128, .f32⟩
  | 101 => ⟨S1x1x128, .f32⟩
  | 102 => ⟨S2048x8x128, .f32⟩
  | 103 => ⟨S2048x8x128, .f32⟩
  | 104 => ⟨S2048x8x4x32, .f32⟩
  | 105 => ⟨S2048x4x8x32, .f32⟩
  | 106 => ⟨S2048x8x128, .f32⟩
  | 107 => ⟨S1x1x128, .f32⟩
  | 108 => ⟨S2048x8x128, .f32⟩
  | 109 => ⟨S2048x8x128, .f32⟩
  | 110 => ⟨S2048x8x4x32, .f32⟩
  | 111 => ⟨S2048x4x8x32, .f32⟩
  | 112 => ⟨S2048x8x2048, .f32⟩
  | 113 => ⟨S1x1x2048, .f32⟩
  | 114 => ⟨S2048x8x2048, .f32⟩
  | 115 => ⟨S2048x8x2048, .f32⟩
  | 116 => ⟨S2048x8x4x512, .f32⟩
  | 117 => ⟨S2048x4x8x512, .f32⟩
  | 118 => ⟨S2048x4x8x8, .f32⟩
  | 119 => ⟨S_, .f32⟩
  | 120 => ⟨S2048x4x8x8, .f32⟩
  | 121 => ⟨S2048x4x8x8, .f32⟩
  | 122 => ⟨S_, .f32⟩
  | 123 => ⟨S2048x4x8, .f32⟩
  | 124 => ⟨S_, .f32⟩
  | 125 => ⟨S2048x4x8, .f32⟩
  | 126 => ⟨S2048x4x8, .f32⟩
  | 127 => ⟨S2048x4x8x1, .f32⟩
  | _ => ⟨S2048x8x512, .f32⟩

abbrev hbmTy0_1 (i : Nat) : BufTy := match i % 128 with
  | 0 => ⟨S2048x4x8x8, .f32⟩
  | 1 => ⟨S2048x4x8x8, .f32⟩
  | 2 => ⟨S2048x4x8x8, .f32⟩
  | 3 => ⟨S_, .f32⟩
  | 4 => ⟨S2048x4x8, .f32⟩
  | 5 => ⟨S2048x4x8x1, .f32⟩
  | 6 => ⟨S2048x4x8x8, .f32⟩
  | 7 => ⟨S2048x4x8x8, .f32⟩
  | 8 => ⟨S2048x4x8x512, .f32⟩
  | 9 => ⟨S2048x8x4x512, .f32⟩
  | 10 => ⟨S2048x8x2048, .f32⟩
  | 11 => ⟨S2048x8x512, .f32⟩
  | 12 => ⟨S1x1x512, .f32⟩
  | 13 => ⟨S2048x8x512, .f32⟩
  | 14 => ⟨S2048x8x512, .f32⟩
  | 15 => ⟨S2048x8x512, .f32⟩
  | _ => ⟨S2048x8x512, .f32⟩

abbrev hbmTy (i : Nat) : BufTy := match i / 128 with
  | 0 => hbmTy0_0 i
  | 1 => hbmTy0_1 i
  | _ => ⟨S2048x8x512, .f32⟩

abbrev bufTy : (tb : Table) → Fin (tcTables nBuf tb) → BufTy
  | .hbm, ⟨i, _⟩ => hbmTy i
  | _, _ => ⟨S2048x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_v21 : Ref sig .tc := ⟨.hbm, 44, rfl⟩
abbrev main_cst_0 : Ref sig .tc := ⟨.hbm, 45, rfl⟩
abbrev main_v22 : Ref sig .tc := ⟨.hbm, 46, rfl⟩
abbrev main_cst_1 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_2 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call0_cst : Ref sig .tc := ⟨.hbm, 70, rfl⟩
abbrev main_call0_v0 : Ref sig .tc := ⟨.hbm, 71, rfl⟩
abbrev main_v44 : Ref sig .tc := ⟨.hbm, 72, rfl⟩
abbrev main_cst_3 : Ref sig .tc := ⟨.hbm, 73, rfl⟩
abbrev main_v45 : Ref sig .tc := ⟨.hbm, 74, rfl⟩
abbrev main_v46 : Ref sig .tc := ⟨.hbm, 75, rfl⟩
abbrev main_cst_4 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_5 : Ref sig .tc := ⟨.hbm, 88, rfl⟩
abbrev main_v58 : Ref sig .tc := ⟨.hbm, 89, rfl⟩
abbrev main_v59 : Ref sig .tc := ⟨.hbm, 90, rfl⟩
abbrev main_cst_6 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_7 : Ref sig .tc := ⟨.hbm, 119, rfl⟩
abbrev main_v87 : Ref sig .tc := ⟨.hbm, 120, rfl⟩
abbrev main_v88 : Ref sig .tc := ⟨.hbm, 121, rfl⟩
abbrev main_cst_8 : Ref sig .tc := ⟨.hbm, 122, rfl⟩
abbrev main_v89 : Ref sig .tc := ⟨.hbm, 123, rfl⟩
abbrev main_cst_9 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_10 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩

abbrev nD : Nat := 1
abbrev τ : Topo := Topo.v7x

variable {F : FTy → Type} [FloatOps F]

class Facts₀ : Prop where
  concatenates_S2048x8x512_S2048x8x512_S2048x16x512_d1 : Shape.Concatenates [S2048x8x512, S2048x8x512] S2048x16x512 1
  bcast_S32_S1x1x32_2 : S32.BroadcastsInDim S1x1x32 (![2] : Fin 1 → Fin S1x1x32.rank)
  bcast_S1x1x32_S2048x8x32_0_1_2 : S1x1x32.BroadcastsInDim S2048x8x32 (![0, 1, 2] : Fin 3 → Fin S2048x8x32.rank)
  shapeCasts_S2048x8x32_S2048x8x1x32 : S2048x8x32.ShapeCasts S2048x8x1x32
  transposes_S2048x8x1x32_S2048x1x8x32_0_2_1_3 : S2048x8x1x32.Transposes [0, 2, 1, 3] S2048x1x8x32
  bcast_S1x1x32_S2048x16x32_0_1_2 : S1x1x32.BroadcastsInDim S2048x16x32 (![0, 1, 2] : Fin 3 → Fin S2048x16x32.rank)
  shapeCasts_S2048x16x32_S2048x16x1x32 : S2048x16x32.ShapeCasts S2048x16x1x32
  transposes_S2048x16x1x32_S2048x1x16x32_0_2_1_3 : S2048x16x1x32.Transposes [0, 2, 1, 3] S2048x1x16x32
  bcast_S512_S1x1x512_2 : S512.BroadcastsInDim S1x1x512 (![2] : Fin 1 → Fin S1x1x512.rank)
  bcast_S1x1x512_S2048x16x512_0_1_2 : S1x1x512.BroadcastsInDim S2048x16x512 (![0, 1, 2] : Fin 3 → Fin S2048x16x512.rank)
  shapeCasts_S2048x16x512_S2048x16x1x512 : S2048x16x512.ShapeCasts S2048x16x1x512
  transposes_S2048x16x1x512_S2048x1x16x512_0_2_1_3 : S2048x16x1x512.Transposes [0, 2, 1, 3] S2048x1x16x512
  bcast_S_S2048x1x8x16 : S_.BroadcastsInDim S2048x1x8x16 (![] : Fin 0 → Fin S2048x1x8x16.rank)
  reducesTo_S2048x1x8x16_S2048x1x8_d3 : S2048x1x8x16.ReducesTo [3] S2048x1x8
  h_S_ : 0 < S_.numel
  bcast_S_S2048x1x8 : S_.BroadcastsInDim S2048x1x8 (![] : Fin 0 → Fin S2048x1x8.rank)
  bcast_S2048x1x8_S2048x1x8x1_0_1_2 : S2048x1x8.BroadcastsInDim S2048x1x8x1 (![0, 1, 2] : Fin 3 → Fin S2048x1x8x1.rank)
  bcast_S2048x1x8x1_S2048x1x8x16_0_1_2_3 : S2048x1x8x1.BroadcastsInDim S2048x1x8x16 (![0, 1, 2, 3] : Fin 4 → Fin S2048x1x8x16.rank)
  transposes_S2048x1x8x512_S2048x8x1x512_0_2_1_3 : S2048x1x8x512.Transposes [0, 2, 1, 3] S2048x8x1x512
  shapeCasts_S2048x8x1x512_S2048x8x512 : S2048x8x1x512.ShapeCasts S2048x8x512
  bcast_S1x1x512_S2048x8x512_0_1_2 : S1x1x512.BroadcastsInDim S2048x8x512 (![0, 1, 2] : Fin 3 → Fin S2048x8x512.rank)
  bcast_S_S2048x8x512 : S_.BroadcastsInDim S2048x8x512 (![] : Fin 0 → Fin S2048x8x512.rank)
  reducesTo_S2048x8x512_S2048x512_d1 : S2048x8x512.ReducesTo [1] S2048x512
  bcast_S2048x512_S2048x1x512_0_2 : S2048x512.BroadcastsInDim S2048x1x512 (![0, 2] : Fin 2 → Fin S2048x1x512.rank)
  bcast_S_S2048x1x512 : S_.BroadcastsInDim S2048x1x512 (![] : Fin 0 → Fin S2048x1x512.rank)
  bcast_S2048x1x512_S2048x8x512_0_1_2 : S2048x1x512.BroadcastsInDim S2048x8x512 (![0, 1, 2] : Fin 3 → Fin S2048x8x512.rank)
  bcast_S1024_S1x1x1024_2 : S1024.BroadcastsInDim S1x1x1024 (![2] : Fin 1 → Fin S1x1x1024.rank)
  bcast_S1x1x1024_S2048x8x1024_0_1_2 : S1x1x1024.BroadcastsInDim S2048x8x1024 (![0, 1, 2] : Fin 3 → Fin S2048x8x1024.rank)
  bcast_S_S2048x8x1024 : S_.BroadcastsInDim S2048x8x1024 (![] : Fin 0 → Fin S2048x8x1024.rank)
  slices_S2048x8x1024_S2048x8x512_0_0_0 : S2048x8x1024.Slices ![0, 0, 0] S2048x8x512
  slices_S2048x8x1024_S2048x8x512_0_0_512 : S2048x8x1024.Slices ![0, 0, 512] S2048x8x512
  bcast_S128_S1x1x128_2 : S128.BroadcastsInDim S1x1x128 (![2] : Fin 1 → Fin S1x1x128.rank)
  bcast_S1x1x128_S2048x8x128_0_1_2 : S1x1x128.BroadcastsInDim S2048x8x128 (![0, 1, 2] : Fin 3 → Fin S2048x8x128.rank)
  shapeCasts_S2048x8x128_S2048x8x4x32 : S2048x8x128.ShapeCasts S2048x8x4x32
  transposes_S2048x8x4x32_S2048x4x8x32_0_2_1_3 : S2048x8x4x32.Transposes [0, 2, 1, 3] S2048x4x8x32
  bcast_S2048_S1x1x2048_2 : S2048.BroadcastsInDim S1x1x2048 (![2] : Fin 1 → Fin S1x1x2048.rank)
  bcast_S1x1x2048_S2048x8x2048_0_1_2 : S1x1x2048.BroadcastsInDim S2048x8x2048 (![0, 1, 2] : Fin 3 → Fin S2048x8x2048.rank)
  shapeCasts_S2048x8x2048_S2048x8x4x512 : S2048x8x2048.ShapeCasts S2048x8x4x512
  transposes_S2048x8x4x512_S2048x4x8x512_0_2_1_3 : S2048x8x4x512.Transposes [0, 2, 1, 3] S2048x4x8x512
  bcast_S_S2048x4x8x8 : S_.BroadcastsInDim S2048x4x8x8 (![] : Fin 0 → Fin S2048x4x8x8.rank)
  reducesTo_S2048x4x8x8_S2048x4x8_d3 : S2048x4x8x8.ReducesTo [3] S2048x4x8
  bcast_S_S2048x4x8 : S_.BroadcastsInDim S2048x4x8 (![] : Fin 0 → Fin S2048x4x8.rank)
  bcast_S2048x4x8_S2048x4x8x1_0_1_2 : S2048x4x8.BroadcastsInDim S2048x4x8x1 (![0, 1, 2] : Fin 3 → Fin S2048x4x8x1.rank)
  bcast_S2048x4x8x1_S2048x4x8x8_0_1_2_3 : S2048x4x8x1.BroadcastsInDim S2048x4x8x8 (![0, 1, 2, 3] : Fin 4 → Fin S2048x4x8x8.rank)
  transposes_S2048x4x8x512_S2048x8x4x512_0_2_1_3 : S2048x4x8x512.Transposes [0, 2, 1, 3] S2048x8x4x512
  shapeCasts_S2048x8x4x512_S2048x8x2048 : S2048x8x4x512.ShapeCasts S2048x8x2048
  dot_S2048x8x512_S32x512_S2048x8x32_2_1_01_0_n_n_wf : DotDims.WF S2048x8x512 S32x512 S2048x8x32 [2] [1] [0, 1] [0] [] []
  dot_S2048x16x512_S32x512_S2048x16x32_2_1_01_0_n_n_wf : DotDims.WF S2048x16x512 S32x512 S2048x16x32 [2] [1] [0, 1] [0] [] []
  dot_S2048x16x512_S512x512_S2048x16x512_2_1_01_0_n_n_wf : DotDims.WF S2048x16x512 S512x512 S2048x16x512 [2] [1] [0, 1] [0] [] []
  dot_S2048x1x8x32_S2048x1x16x32_S2048x1x8x16_3_3_2_2_01_01_wf : DotDims.WF S2048x1x8x32 S2048x1x16x32 S2048x1x8x16 [3] [3] [2] [2] [0, 1] [0, 1]
  dot_S2048x1x8x16_S2048x1x16x512_S2048x1x8x512_3_2_2_3_01_01_wf : DotDims.WF S2048x1x8x16 S2048x1x16x512 S2048x1x8x512 [3] [2] [2] [3] [0, 1] [0, 1]
  dot_S2048x8x512_S512x512_S2048x8x512_2_1_01_0_n_n_wf : DotDims.WF S2048x8x512 S512x512 S2048x8x512 [2] [1] [0, 1] [0] [] []
  dot_S2048x8x512_S1024x512_S2048x8x1024_2_1_01_0_n_n_wf : DotDims.WF S2048x8x512 S1024x512 S2048x8x1024 [2] [1] [0, 1] [0] [] []
  dot_S2048x8x512_S128x512_S2048x8x128_2_1_01_0_n_n_wf : DotDims.WF S2048x8x512 S128x512 S2048x8x128 [2] [1] [0, 1] [0] [] []
  dot_S2048x8x512_S2048x512_S2048x8x2048_2_1_01_0_n_n_wf : DotDims.WF S2048x8x512 S2048x512 S2048x8x2048 [2] [1] [0, 1] [0] [] []
  dot_S2048x4x8x32_S2048x4x8x32_S2048x4x8x8_3_3_2_2_01_01_wf : DotDims.WF S2048x4x8x32 S2048x4x8x32 S2048x4x8x8 [3] [3] [2] [2] [0, 1] [0, 1]
  dot_S2048x4x8x8_S2048x4x8x512_S2048x4x8x512_3_2_2_3_01_01_wf : DotDims.WF S2048x4x8x8 S2048x4x8x512 S2048x4x8x512 [3] [2] [2] [3] [0, 1] [0, 1]
  dot_S2048x8x2048_S512x2048_S2048x8x512_2_1_01_0_n_n_wf : DotDims.WF S2048x8x2048 S512x2048 S2048x8x512 [2] [1] [0, 1] [0] [] []

variable [Facts₀]

def dot_S2048x8x512_S32x512_S2048x8x32_2_1_01_0_n_n : DotDims S2048x8x512 S32x512 S2048x8x32 where
  lhsContracting := [2]
  rhsContracting := [1]
  lhsNonContracting := [0, 1]
  rhsNonContracting := [0]
  lhsBatch := []
  rhsBatch := []
  wf := dot_S2048x8x512_S32x512_S2048x8x32_2_1_01_0_n_n_wf
def dot_S2048x16x512_S32x512_S2048x16x32_2_1_01_0_n_n : DotDims S2048x16x512 S32x512 S2048x16x32 where
  lhsContracting := [2]
  rhsContracting := [1]
  lhsNonContracting := [0, 1]
  rhsNonContracting := [0]
  lhsBatch := []
  rhsBatch := []
  wf := dot_S2048x16x512_S32x512_S2048x16x32_2_1_01_0_n_n_wf
def dot_S2048x16x512_S512x512_S2048x16x512_2_1_01_0_n_n : DotDims S2048x16x512 S512x512 S2048x16x512 where
  lhsContracting := [2]
  rhsContracting := [1]
  lhsNonContracting := [0, 1]
  rhsNonContracting := [0]
  lhsBatch := []
  rhsBatch := []
  wf := dot_S2048x16x512_S512x512_S2048x16x512_2_1_01_0_n_n_wf
def dot_S2048x1x8x32_S2048x1x16x32_S2048x1x8x16_3_3_2_2_01_01 : DotDims S2048x1x8x32 S2048x1x16x32 S2048x1x8x16 where
  lhsContracting := [3]
  rhsContracting := [3]
  lhsNonContracting := [2]
  rhsNonContracting := [2]
  lhsBatch := [0, 1]
  rhsBatch := [0, 1]
  wf := dot_S2048x1x8x32_S2048x1x16x32_S2048x1x8x16_3_3_2_2_01_01_wf
def dot_S2048x1x8x16_S2048x1x16x512_S2048x1x8x512_3_2_2_3_01_01 : DotDims S2048x1x8x16 S2048x1x16x512 S2048x1x8x512 where
  lhsContracting := [3]
  rhsContracting := [2]
  lhsNonContracting := [2]
  rhsNonContracting := [3]
  lhsBatch := [0, 1]
  rhsBatch := [0, 1]
  wf := dot_S2048x1x8x16_S2048x1x16x512_S2048x1x8x512_3_2_2_3_01_01_wf
def dot_S2048x8x512_S512x512_S2048x8x512_2_1_01_0_n_n : DotDims S2048x8x512 S512x512 S2048x8x512 where
  lhsContracting := [2]
  rhsContracting := [1]
  lhsNonContracting := [0, 1]
  rhsNonContracting := [0]
  lhsBatch := []
  rhsBatch := []
  wf := dot_S2048x8x512_S512x512_S2048x8x512_2_1_01_0_n_n_wf
def dot_S2048x8x512_S1024x512_S2048x8x1024_2_1_01_0_n_n : DotDims S2048x8x512 S1024x512 S2048x8x1024 where
  lhsContracting := [2]
  rhsContracting := [1]
  lhsNonContracting := [0, 1]
  rhsNonContracting := [0]
  lhsBatch := []
  rhsBatch := []
  wf := dot_S2048x8x512_S1024x512_S2048x8x1024_2_1_01_0_n_n_wf
def dot_S2048x8x512_S128x512_S2048x8x128_2_1_01_0_n_n : DotDims S2048x8x512 S128x512 S2048x8x128 where
  lhsContracting := [2]
  rhsContracting := [1]
  lhsNonContracting := [0, 1]
  rhsNonContracting := [0]
  lhsBatch := []
  rhsBatch := []
  wf := dot_S2048x8x512_S128x512_S2048x8x128_2_1_01_0_n_n_wf
def dot_S2048x8x512_S2048x512_S2048x8x2048_2_1_01_0_n_n : DotDims S2048x8x512 S2048x512 S2048x8x2048 where
  lhsContracting := [2]
  rhsContracting := [1]
  lhsNonContracting := [0, 1]
  rhsNonContracting := [0]
  lhsBatch := []
  rhsBatch := []
  wf := dot_S2048x8x512_S2048x512_S2048x8x2048_2_1_01_0_n_n_wf
def dot_S2048x4x8x32_S2048x4x8x32_S2048x4x8x8_3_3_2_2_01_01 : DotDims S2048x4x8x32 S2048x4x8x32 S2048x4x8x8 where
  lhsContracting := [3]
  rhsContracting := [3]
  lhsNonContracting := [2]
  rhsNonContracting := [2]
  lhsBatch := [0, 1]
  rhsBatch := [0, 1]
  wf := dot_S2048x4x8x32_S2048x4x8x32_S2048x4x8x8_3_3_2_2_01_01_wf
def dot_S2048x4x8x8_S2048x4x8x512_S2048x4x8x512_3_2_2_3_01_01 : DotDims S2048x4x8x8 S2048x4x8x512 S2048x4x8x512 where
  lhsContracting := [3]
  rhsContracting := [2]
  lhsNonContracting := [2]
  rhsNonContracting := [3]
  lhsBatch := [0, 1]
  rhsBatch := [0, 1]
  wf := dot_S2048x4x8x8_S2048x4x8x512_S2048x4x8x512_3_2_2_3_01_01_wf
def dot_S2048x8x2048_S512x2048_S2048x8x512_2_1_01_0_n_n : DotDims S2048x8x2048 S512x2048 S2048x8x512 where
  lhsContracting := [2]
  rhsContracting := [1]
  lhsNonContracting := [0, 1]
  rhsNonContracting := [0]
  lhsBatch := []
  rhsBatch := []
  wf := dot_S2048x8x2048_S512x2048_S2048x8x512_2_1_01_0_n_n_wf

class Facts : Prop extends Facts₀ where

variable [Facts]
-- ==== Proof.AttnSpec.lean ====
/-
  The common value of the two programs for ONE batch element, as plain functions over coordinates.

  A batch element carries eight input rows `hs` and eight memory rows `me`, each of 512 numbers. The memory rows are
  rewritten by a gated update whose candidate comes from one head of attention over the sixteen rows `hs ++ me`
  (queries from the memory rows, keys of width 32, values of width 512); the input rows then read the NEW memory rows
  through four heads of attention (keys of width 32, values of width 512 per head) and an output projection, added to
  the input rows. Every attention weight is a softmax of the scaled scores: the score divided by the key-width root
  `D`, shifted by the row maximum, exponentiated, normalised by the row sum.

  Nothing here mentions a program: the kernel and the reference are each shown to compute these functions.
-/
import Idealize.ShloMosaic.PureOps.Ideal
import Idealize.ShloMosaic.PureOps.Ideal.Laws
import Idealize.ShloMosaic.Lib.ValueIdx

noncomputable section

namespace Cert.Spec

open Idealize.ShloMosaic

/-- The divisor of every score: the square root of the key width 32, as the single-precision number both texts carry. -/
def D : EReal := Ideal.ofBits .f32 0x40B504F3#32

/-- The number of input rows a mean is taken over, as the single-precision number both texts carry. -/
def eight : EReal := Ideal.ofBits .f32 0x41000000#32

/-- A row times a matrix given by rows, plus a bias: `y o = (∑ i, x i · W o i) + b o`. -/
def lin {I O : ℕ} (x : Fin I → EReal) (W : Fin O → Fin I → EReal) (b : Fin O → EReal) (o : Fin O) : EReal :=
  (∑ i : Fin I, x i * W o i) + b o

/-- The largest entry of a row, from `-∞`. -/
def rowMax {n : ℕ} (s : Fin n → EReal) : EReal := (Finset.univ : Finset (Fin n)).fold max ⊥ s

/-- The softmax weights of a row of scores. -/
def smx {n : ℕ} (s : Fin n → EReal) (t : Fin n) : EReal :=
  Ideal.div (Ideal.exp (s t - rowMax s)) (∑ u : Fin n, Ideal.exp (s u - rowMax s))

/-- Scaled scores of queries against keys of width `K`. -/
def score {M N K : ℕ} (q : Fin M → Fin K → EReal) (k : Fin N → Fin K → EReal) (s : Fin M) (t : Fin N) : EReal :=
  Ideal.div (∑ o : Fin K, q s o * k t o) D

/-- Attention: each query row's softmax weights over the key rows, applied to the value rows. -/
def attend {M N E : ℕ} (sc : Fin M → Fin N → EReal) (v : Fin N → Fin E → EReal) (s : Fin M) (d : Fin E) : EReal :=
  ∑ t : Fin N, smx (sc s) t * v t d

/-- The sixteen rows the write attention looks at: the input rows, then the memory rows. -/
def joined (hs me : Fin 8 → Fin 512 → EReal) (r : Fin 16) (i : Fin 512) : EReal :=
  if h : r.val < 8 then hs ⟨r.val, h⟩ i else me ⟨r.val - 8, by omega⟩ i

/-- The weights of the layer: each matrix by rows (output coordinate first), each bias by output coordinate. -/
structure Weights where
  wq : Fin 32 → Fin 512 → EReal
  bq : Fin 32 → EReal
  wk : Fin 32 → Fin 512 → EReal
  bk : Fin 32 → EReal
  wv : Fin 512 → Fin 512 → EReal
  bv : Fin 512 → EReal
  wo : Fin 512 → Fin 512 → EReal
  bo : Fin 512 → EReal
  wt : Fin 512 → Fin 512 → EReal
  bt : Fin 512 → EReal
  wg : Fin 1024 → Fin 512 → EReal
  bg : Fin 1024 → EReal
  rq : Fin 128 → Fin 512 → EReal
  rqb : Fin 128 → EReal
  rk : Fin 128 → Fin 512 → EReal
  rkb : Fin 128 → EReal
  rv : Fin 2048 → Fin 512 → EReal
  rvb : Fin 2048 → EReal
  ro : Fin 512 → Fin 2048 → EReal
  rob : Fin 512 → EReal

variable (w : Weights) (hs me : Fin 8 → Fin 512 → EReal)

/-- Write attention: queries of the memory rows. -/
def wQ (s : Fin 8) : Fin 32 → EReal := lin (me s) w.wq w.bq
/-- Write attention: keys of the sixteen joined rows. -/
def wK (t : Fin 16) : Fin 32 → EReal := lin (joined hs me t) w.wk w.bk
/-- Write attention: values of the sixteen joined rows. -/
def wV (t : Fin 16) : Fin 512 → EReal := lin (joined hs me t) w.wv w.bv
/-- Write attention: what each memory row gathers. -/
def wCtx : Fin 8 → Fin 512 → EReal := attend (score (wQ w me) (wK w hs me)) (wV w hs me)
/-- The candidate written to each memory row, before the gate. -/
def memWrite (s : Fin 8) : Fin 512 → EReal := lin (wCtx w hs me s) w.wo w.bo

/-- The rectified projection of an input row. -/
def inProj (r : Fin 8) (d : Fin 512) : EReal := max (lin (hs r) w.wt w.bt d) 0
/-- Its mean over the eight input rows. -/
def inMean (d : Fin 512) : EReal := Ideal.div (∑ r : Fin 8, inProj w hs r d) eight
/-- What the gates are computed from. -/
def gateIn (s : Fin 8) (d : Fin 512) : EReal := inMean w hs d + Ideal.tanh (me s d)
/-- The 1024 gates of a memory row: input gates, then forget gates. -/
def gate (s : Fin 8) (j : Fin 1024) : EReal := Ideal.logistic (lin (gateIn w hs me s) w.wg w.bg j)
/-- The new memory rows. -/
def memNew (s : Fin 8) (d : Fin 512) : EReal :=
  gate w hs me s ⟨d.val, by omega⟩ * Ideal.tanh (memWrite w hs me s d) + gate w hs me s ⟨512 + d.val, by omega⟩ * me s d

/-- Read attention, all four heads side by side: queries of the input rows. -/
def rQ (n : Fin 8) : Fin 128 → EReal := lin (hs n) w.rq w.rqb
/-- Keys of the new memory rows. -/
def rK (s : Fin 8) : Fin 128 → EReal := lin (memNew w hs me s) w.rk w.rkb
/-- Values of the new memory rows. -/
def rV (s : Fin 8) : Fin 2048 → EReal := lin (memNew w hs me s) w.rv w.rvb
/-- Head `h`'s scaled scores: its 32 query and key coordinates are `32 h + o`. -/
def rScore (h : Fin 4) (n s : Fin 8) : EReal :=
  Ideal.div (∑ o : Fin 32, rQ w hs n ⟨32 * h.val + o.val, by omega⟩ * rK w hs me s ⟨32 * h.val + o.val, by omega⟩) D
/-- Head `h`'s gathered values: its 512 value coordinates are `512 h + d`. -/
def rCtx (h : Fin 4) (n : Fin 8) (d : Fin 512) : EReal :=
  ∑ s : Fin 8, smx (rScore w hs me h n) s * rV w hs me s ⟨512 * h.val + d.val, by omega⟩
/-- The four heads' results laid side by side. -/
def rAll (n : Fin 8) (j : Fin 2048) : EReal :=
  rCtx w hs me ⟨j.val / 512, by omega⟩ n ⟨j.val % 512, by omega⟩
/-- The new input rows. -/
def hOut (n : Fin 8) (d : Fin 512) : EReal := hs n d + lin (rAll w hs me n) w.ro w.rob d

/-! ## Reading the functions' arguments off arrays -/

open Idealize.ShloMosaic.ValueIdx

/-- The eight rows of batch element `B` of a [batch, 8, 512] array. -/
def rowsAt {nb : ℕ} (x : (⟨3, ![nb, 8, 512]⟩ : Shape).Idx → EReal) (B : Fin nb) (r : Fin 8) (i : Fin 512) : EReal :=
  x (ix3 B r i)

/-- The layer's weights read off the twenty weight arrays, in the order the programs take them. -/
def weightsOf
    (a2 : (⟨2, ![32, 512]⟩ : Shape).Idx → EReal) (a3 : (⟨1, ![32]⟩ : Shape).Idx → EReal)
    (a4 : (⟨2, ![32, 512]⟩ : Shape).Idx → EReal) (a5 : (⟨1, ![32]⟩ : Shape).Idx → EReal)
    (a6 : (⟨2, ![512, 512]⟩ : Shape).Idx → EReal) (a7 : (⟨1, ![512]⟩ : Shape).Idx → EReal)
    (a8 : (⟨2, ![512, 512]⟩ : Shape).Idx → EReal) (a9 : (⟨1, ![512]⟩ : Shape).Idx → EReal)
    (a10 : (⟨2, ![512, 512]⟩ : Shape).Idx → EReal) (a11 : (⟨1, ![512]⟩ : Shape).Idx → EReal)
    (a12 : (⟨2, ![1024, 512]⟩ : Shape).Idx → EReal) (a13 : (⟨1, ![1024]⟩ : Shape).Idx → EReal)
    (a14 : (⟨2, ![128, 512]⟩ : Shape).Idx → EReal) (a15 : (⟨1, ![128]⟩ : Shape).Idx → EReal)
    (a16 : (⟨2, ![128, 512]⟩ : Shape).Idx → EReal) (a17 : (⟨1, ![128]⟩ : Shape).Idx → EReal)
    (a18 : (⟨2, ![2048, 512]⟩ : Shape).Idx → EReal) (a19 : (⟨1, ![2048]⟩ : Shape).Idx → EReal)
    (a20 : (⟨2, ![512, 2048]⟩ : Shape).Idx → EReal) (a21 : (⟨1, ![512]⟩ : Shape).Idx → EReal) : Weights where
  wq o i := a2 (ix2 o i)
  bq o := a3 (ix1 o)
  wk o i := a4 (ix2 o i)
  bk o := a5 (ix1 o)
  wv o i := a6 (ix2 o i)
  bv o := a7 (ix1 o)
  wo o i := a8 (ix2 o i)
  bo o := a9 (ix1 o)
  wt o i := a10 (ix2 o i)
  bt o := a11 (ix1 o)
  wg o i := a12 (ix2 o i)
  bg o := a13 (ix1 o)
  rq o i := a14 (ix2 o i)
  rqb o := a15 (ix1 o)
  rk o i := a16 (ix2 o i)
  rkb o := a17 (ix1 o)
  rv o i := a18 (ix2 o i)
  rvb o := a19 (ix1 o)
  ro o i := a20 (ix2 o i)
  rob o := a21 (ix1 o)

end Cert.Spec

end
-- ==== Proof.KerLayout.lean ====
/-
  Layout operations of the vector unit read at coordinates: the reshapes between a stack of row blocks [A, R, I] and
  its rows laid one after the other [A·R, I]; the reshapes that insert a unit axis before a broadcast; the broadcasts
  along an inserted unit axis; a band of the last axis; two and four arrays joined along an axis. Each reads, at an
  index written by its coordinates, the operand at the coordinates named on the right.
-/
import Idealize.ShloMosaic.Lib.Pipeline.Value
import Idealize.ShloMosaic.Lib.ValueIdx
import Idealize.ShloMosaic.Lib.ValueLayout

namespace Cert.KerLayout

open Idealize.ShloMosaic Idealize.ShloMosaic.ValueIdx

variable {α : Type}

/-- Rows laid one after the other: row `q = p·R + r` of [M, I] is row `r` of block `p` of [A, R, I]. -/
theorem flatten3 {A R I M : ℕ} (x : (⟨3, ![A, R, I]⟩ : Shape).Idx → α)
    (h : (⟨3, ![A, R, I]⟩ : Shape).ShapeCasts ⟨2, ![M, I]⟩) (p : Fin A) (r : Fin R) (i : Fin I) (q : Fin M)
    (hq : q.val = p.val * R + r.val) : shapeCast ⟨2, ![M, I]⟩ x h (ix2 q i) = x (ix3 p r i) :=
  shapeCast_apply x h _ _ (by
    rw [Shape.rowMajor_val_three, Shape.rowMajor_val_two]
    show (p.val * R + r.val) * I + i.val = q.val * I + i.val
    rw [hq])

/-- And back: row `r` of block `p` of [A, R, O] is row `q = p·R + r` of [M, O]. -/
theorem unflatten3 {A R O M : ℕ} (y : (⟨2, ![M, O]⟩ : Shape).Idx → α)
    (h : (⟨2, ![M, O]⟩ : Shape).ShapeCasts ⟨3, ![A, R, O]⟩) (p : Fin A) (r : Fin R) (o : Fin O) (q : Fin M)
    (hq : q.val = p.val * R + r.val) : shapeCast ⟨3, ![A, R, O]⟩ y h (ix3 p r o) = y (ix2 q o) :=
  shapeCast_apply y h _ _ (by
    rw [Shape.rowMajor_val_three, Shape.rowMajor_val_two]
    show q.val * O + o.val = (p.val * R + r.val) * O + o.val
    rw [hq])

/-- A bias [O] laid as one row [1, O] and broadcast down the rows of [M, O], read at (q, o). -/
theorem biasRow {M O : ℕ} (b : (⟨1, ![O]⟩ : Shape).Idx → α) (h : (⟨1, ![O]⟩ : Shape).ShapeCasts ⟨2, ![1, O]⟩)
    (h' : (⟨2, ![1, O]⟩ : Shape).Broadcasts ⟨2, ![M, O]⟩) (q : Fin M) (o : Fin O) :
    broadcastTo ⟨2, ![M, O]⟩ (shapeCast ⟨2, ![1, O]⟩ b h) h' (ix2 q o) = b (ix1 o) := by
  rw [broadcastTo_1b_ab_apply, shapeCast_a_1a_apply]

/-- A bias [O] laid as [1, 1, O] and broadcast over [A, R, O], read at (p, r, o). -/
theorem biasRow3 {A R O : ℕ} (b : (⟨1, ![O]⟩ : Shape).Idx → α) (h : (⟨1, ![O]⟩ : Shape).ShapeCasts ⟨3, ![1, 1, O]⟩)
    (h' : (⟨3, ![1, 1, O]⟩ : Shape).Broadcasts ⟨3, ![A, R, O]⟩) (p : Fin A) (r : Fin R) (o : Fin O) :
    broadcastTo ⟨3, ![A, R, O]⟩ (shapeCast ⟨3, ![1, 1, O]⟩ b h) h' (ix3 p r o) = b (ix1 o) := by
  rw [broadcastTo_apply _ h' (ix3 p r o) (ix3 (0 : Fin 1) (0 : Fin 1) o) (fun ax => by
    match ax with
    | ⟨0, _⟩ => rfl
    | ⟨1, _⟩ => rfl
    | ⟨2, _⟩ =>
      show o.val = if O = 1 then 0 else o.val
      split
      · have := o.isLt; omega
      · rfl)]
  exact shapeCast_apply b h _ _ (by
    rw [Shape.rowMajor_val_one, Shape.rowMajor_val_three]
    show o.val = ((0 : ℕ) * 1 + 0) * O + o.val
    omega)

/-- Queries [A, M, K] given a unit axis [A, M, 1, K] and broadcast over the key rows [A, M, N, K], read at (p, s, t, j). -/
theorem queryBroadcast {A M N K : ℕ} (x : (⟨3, ![A, M, K]⟩ : Shape).Idx → α)
    (h : (⟨3, ![A, M, K]⟩ : Shape).ShapeCasts ⟨4, ![A, M, 1, K]⟩)
    (h' : (⟨4, ![A, M, 1, K]⟩ : Shape).Broadcasts ⟨4, ![A, M, N, K]⟩) (p : Fin A) (s : Fin M) (t : Fin N) (j : Fin K) :
    broadcastTo ⟨4, ![A, M, N, K]⟩ (shapeCast ⟨4, ![A, M, 1, K]⟩ x h) h' (ix4 p s t j) = x (ix3 p s j) := by
  rw [broadcastTo_apply _ h' (ix4 p s t j) (ix4 p s (0 : Fin 1) j) (fun ax => by
    match ax with
    | ⟨0, _⟩ =>
      show p.val = if A = 1 then 0 else p.val
      split
      · have := p.isLt; omega
      · rfl
    | ⟨1, _⟩ =>
      show s.val = if M = 1 then 0 else s.val
      split
      · have := s.isLt; omega
      · rfl
    | ⟨2, _⟩ => rfl
    | ⟨3, _⟩ =>
      show j.val = if K = 1 then 0 else j.val
      split
      · have := j.isLt; omega
      · rfl)]
  exact shapeCast_apply x h _ _ (by
    rw [Shape.rowMajor_val_three, Shape.rowMajor_val_four]
    show (p.val * M + s.val) * K + j.val = ((p.val * M + s.val) * 1 + 0) * K + j.val
    rw [Nat.mul_one, Nat.add_zero])

/-- Keys [A, N, K] given a unit axis [A, 1, N, K] and broadcast over the query rows [A, M, N, K], read at (p, s, t, j). -/
theorem keyBroadcast {A M N K : ℕ} (x : (⟨3, ![A, N, K]⟩ : Shape).Idx → α)
    (h : (⟨3, ![A, N, K]⟩ : Shape).ShapeCasts ⟨4, ![A, 1, N, K]⟩)
    (h' : (⟨4, ![A, 1, N, K]⟩ : Shape).Broadcasts ⟨4, ![A, M, N, K]⟩) (p : Fin A) (s : Fin M) (t : Fin N) (j : Fin K) :
    broadcastTo ⟨4, ![A, M, N, K]⟩ (shapeCast ⟨4, ![A, 1, N, K]⟩ x h) h' (ix4 p s t j) = x (ix3 p t j) := by
  rw [broadcastTo_apply _ h' (ix4 p s t j) (ix4 p (0 : Fin 1) t j) (fun ax => by
    match ax with
    | ⟨0, _⟩ =>
      show p.val = if A = 1 then 0 else p.val
      split
      · have := p.isLt; omega
      · rfl
    | ⟨1, _⟩ => rfl
    | ⟨2, _⟩ =>
      show t.val = if N = 1 then 0 else t.val
      split
      · have := t.isLt; omega
      · rfl
    | ⟨3, _⟩ =>
      show j.val = if K = 1 then 0 else j.val
      split
      · have := j.isLt; omega
      · rfl)]
  exact shapeCast_apply x h _ _ (by
    rw [Shape.rowMajor_val_three, Shape.rowMajor_val_four]
    show (p.val * N + t.val) * K + j.val = ((p.val * 1 + 0) * N + t.val) * K + j.val
    rw [Nat.mul_one, Nat.add_zero])

/-- A per-row number [A, M] given a unit axis [A, M, 1] and broadcast along the row [A, M, N], read at (p, s, t). -/
theorem rowBroadcast {A M N : ℕ} (x : (⟨2, ![A, M]⟩ : Shape).Idx → α)
    (h : (⟨2, ![A, M]⟩ : Shape).ShapeCasts ⟨3, ![A, M, 1]⟩)
    (h' : (⟨3, ![A, M, 1]⟩ : Shape).Broadcasts ⟨3, ![A, M, N]⟩) (p : Fin A) (s : Fin M) (t : Fin N) :
    broadcastTo ⟨3, ![A, M, N]⟩ (shapeCast ⟨3, ![A, M, 1]⟩ x h) h' (ix3 p s t) = x (ix2 p s) := by
  rw [broadcastTo_apply _ h' (ix3 p s t) (ix3 p s (0 : Fin 1)) (fun ax => by
    match ax with
    | ⟨0, _⟩ =>
      show p.val = if A = 1 then 0 else p.val
      split
      · have := p.isLt; omega
      · rfl
    | ⟨1, _⟩ =>
      show s.val = if M = 1 then 0 else s.val
      split
      · have := s.isLt; omega
      · rfl
    | ⟨2, _⟩ => rfl)]
  exact shapeCast_apply x h _ _ (by
    rw [Shape.rowMajor_val_two, Shape.rowMajor_val_three]
    show p.val * M + s.val = (p.val * M + s.val) * 1 + 0
    omega)

/-- A per-column number [A, E] given a unit axis [A, 1, E] and broadcast over the rows [A, R, E], read at (p, r, d). -/
theorem colBroadcast {A R E : ℕ} (x : (⟨3, ![A, 1, E]⟩ : Shape).Idx → α)
    (h' : (⟨3, ![A, 1, E]⟩ : Shape).Broadcasts ⟨3, ![A, R, E]⟩) (p : Fin A) (r : Fin R) (d : Fin E) :
    broadcastTo ⟨3, ![A, R, E]⟩ x h' (ix3 p r d) = x (ix3 p (0 : Fin 1) d) :=
  broadcastTo_apply _ h' (ix3 p r d) (ix3 p (0 : Fin 1) d) (fun ax => by
    match ax with
    | ⟨0, _⟩ =>
      show p.val = if A = 1 then 0 else p.val
      split
      · have := p.isLt; omega
      · rfl
    | ⟨1, _⟩ => rfl
    | ⟨2, _⟩ =>
      show d.val = if E = 1 then 0 else d.val
      split
      · have := d.isLt; omega
      · rfl)

/-- [A, E] with a unit axis inserted in the middle, [A, 1, E], read at (p, u, d). -/
theorem insertMid {A E : ℕ} (x : (⟨2, ![A, E]⟩ : Shape).Idx → α)
    (h : (⟨2, ![A, E]⟩ : Shape).ShapeCasts ⟨3, ![A, 1, E]⟩) (p : Fin A) (u : Fin 1) (d : Fin E) :
    shapeCast ⟨3, ![A, 1, E]⟩ x h (ix3 p u d) = x (ix2 p d) :=
  shapeCast_apply x h _ _ (by
    have hu : u.val = 0 := by omega
    rw [Shape.rowMajor_val_two, Shape.rowMajor_val_three]
    show p.val * E + d.val = (p.val * 1 + u.val) * E + d.val
    rw [hu, Nat.mul_one, Nat.add_zero])

/-- A band of the last axis of [A, R, W], of width E from offset `off`, read at (p, r, d): the operand at (p, r, off + d). -/
theorem band3 {A R W E : ℕ} (off : ℕ) (x : (⟨3, ![A, R, W]⟩ : Shape).Idx → α)
    (h : (⟨3, ![A, R, W]⟩ : Shape).Slices ![0, 0, off] ⟨3, ![A, R, E]⟩) (p : Fin A) (r : Fin R) (d : Fin E) (k : Fin W)
    (hk : k.val = off + d.val) :
    extractStridedSlice ⟨3, ![A, R, E]⟩ ![0, 0, off] x h (ix3 p r d) = x (ix3 p r k) :=
  extractStridedSlice_apply _ x h _ _ (fun a => by
    match a with
    | ⟨0, _⟩ => show p.val = 0 + p.val; omega
    | ⟨1, _⟩ => show r.val = 0 + r.val; omega
    | ⟨2, _⟩ => exact hk)

end Cert.KerLayout
-- ==== Proof.KerReduce.lean ====
/-
  Reductions of the vector unit read at coordinates, at the exact instance: a sum over the last axis of a rank-four
  or rank-three array and over the middle axis of a rank-three array is the plain finite sum over that coordinate; a
  maximum over the last axis of a rank-three array, started from `-∞`, is the fold of `max` over that coordinate.
-/
import Idealize.ShloMosaic.Lib.Pipeline.Value
import Idealize.ShloMosaic.Lib.ValueIdx
import Idealize.ShloMosaic.PureOps.Ideal.Laws

namespace Cert.KerReduce

open Idealize.ShloMosaic Idealize.ShloMosaic.ValueIdx

variable {φ : FTy}

/-- The sum over the last axis of [A, M, N, K] at (p, s, t). -/
theorem sumLast4 {A M N K : ℕ} (src : FVec Ideal ⟨4, ![A, M, N, K]⟩ φ) (acc : BitVec φ.bits)
    (h : (⟨4, ![A, M, N, K]⟩ : Shape).Reduces [3] ⟨3, ![A, M, N]⟩) (hφ : FKind.Formats φ)
    (hacc : acc = FKind.add.neutral φ hφ) (p : Fin A) (s : Fin M) (t : Fin N) :
    multiReduction .add [3] ⟨3, ![A, M, N]⟩ src acc h hφ hacc (ix3 p s t) = ∑ k : Fin K, src (ix4 p s t k) := by
  rw [Ideal.multiReduction_add_single]
  refine Finset.sum_congr rfl fun k _ => congrArg src (funext fun a => Fin.ext ?_)
  match a with
  | ⟨0, _⟩ => rfl
  | ⟨1, _⟩ => rfl
  | ⟨2, _⟩ => rfl
  | ⟨3, _⟩ => rfl

/-- The sum over the last axis of [A, M, N] at (p, s). -/
theorem sumLast3 {A M N : ℕ} (src : FVec Ideal ⟨3, ![A, M, N]⟩ φ) (acc : BitVec φ.bits)
    (h : (⟨3, ![A, M, N]⟩ : Shape).Reduces [2] ⟨2, ![A, M]⟩) (hφ : FKind.Formats φ)
    (hacc : acc = FKind.add.neutral φ hφ) (p : Fin A) (s : Fin M) :
    multiReduction .add [2] ⟨2, ![A, M]⟩ src acc h hφ hacc (ix2 p s) = ∑ k : Fin N, src (ix3 p s k) := by
  rw [Ideal.multiReduction_add_single]
  refine Finset.sum_congr rfl fun k _ => congrArg src (funext fun a => Fin.ext ?_)
  match a with
  | ⟨0, _⟩ => rfl
  | ⟨1, _⟩ => rfl
  | ⟨2, _⟩ => rfl

/-- The sum over the middle axis of [A, R, E] at (p, d). -/
theorem sumMid3 {A R E : ℕ} (src : FVec Ideal ⟨3, ![A, R, E]⟩ φ) (acc : BitVec φ.bits)
    (h : (⟨3, ![A, R, E]⟩ : Shape).Reduces [1] ⟨2, ![A, E]⟩) (hφ : FKind.Formats φ)
    (hacc : acc = FKind.add.neutral φ hφ) (p : Fin A) (d : Fin E) :
    multiReduction .add [1] ⟨2, ![A, E]⟩ src acc h hφ hacc (ix2 p d) = ∑ k : Fin R, src (ix3 p k d) := by
  rw [Ideal.multiReduction_add_single]
  refine Finset.sum_congr rfl fun k _ => congrArg src (funext fun a => Fin.ext ?_)
  match a with
  | ⟨0, _⟩ => rfl
  | ⟨1, _⟩ => rfl
  | ⟨2, _⟩ => rfl

/-- The maximum over the last axis of [A, M, N] at (p, s), from the accumulator's value. -/
theorem maxLast3 {A M N : ℕ} (src : FVec Ideal ⟨3, ![A, M, N]⟩ φ) (acc : BitVec φ.bits)
    (h : (⟨3, ![A, M, N]⟩ : Shape).Reduces [2] ⟨2, ![A, M]⟩) (hφ : FKind.Formats φ)
    (hacc : acc = FKind.maximumf.neutral φ hφ) (p : Fin A) (s : Fin M) :
    multiReduction .maximumf [2] ⟨2, ![A, M]⟩ src acc h hφ hacc (ix2 p s)
      = (Finset.univ : Finset (Fin N)).fold max (FloatOps.ofBits φ acc) (fun k => src (ix3 p s k)) := by
  rw [Ideal.multiReduction_maximumf_single]
  refine congrArg (Finset.fold max _ · Finset.univ) (funext fun k => congrArg src (funext fun a => Fin.ext ?_))
  match a with
  | ⟨0, _⟩ => rfl
  | ⟨1, _⟩ => rfl
  | ⟨2, _⟩ => rfl

/-- The single-precision pattern of `-∞` is the bottom of the extended reals. -/
theorem ofBits_negInf : Ideal.ofBits .f32 0xFF800000#32 = (⊥ : EReal) := by
  simp [Ideal.ofBits, Ideal.ieee]

end Cert.KerReduce
-- ==== Proof.KerAttn.lean ====
/-
  The pieces of an attention step on the vector unit, read at coordinates at the exact instance: the scores as sums of
  products of query and key coordinates; the scores shifted by their row maximum (the maximum from `-∞`, and once more
  against `-∞`); and the exponentials normalised by their row sum. Together the last two are the softmax weights of a row.
-/
import proofs.«133350_j9835475108028_2_alg».proof.Proof.AttnSpec
import proofs.«133350_j9835475108028_2_alg».proof.Proof.KerLayout
import proofs.«133350_j9835475108028_2_alg».proof.Proof.KerReduce

noncomputable section

namespace Cert.KerAttn

open Cert.KerLayout Cert.KerReduce Idealize.ShloMosaic Idealize.ShloMosaic.ValueIdx

/-- Scores: queries [A, M, K] against keys [A, N, K], multiplied coordinate by coordinate over [A, M, N, K] and summed
    over the last axis. -/
theorem rawScore {A M N K : ℕ} (q : FVec Ideal ⟨3, ![A, M, K]⟩ .f32) (k : FVec Ideal ⟨3, ![A, N, K]⟩ .f32)
    (h1 : (⟨3, ![A, M, K]⟩ : Shape).ShapeCasts ⟨4, ![A, M, 1, K]⟩) (h2 : (⟨4, ![A, M, 1, K]⟩ : Shape).Broadcasts ⟨4, ![A, M, N, K]⟩)
    (h3 : (⟨3, ![A, N, K]⟩ : Shape).ShapeCasts ⟨4, ![A, 1, N, K]⟩) (h4 : (⟨4, ![A, 1, N, K]⟩ : Shape).Broadcasts ⟨4, ![A, M, N, K]⟩)
    (acc : BitVec FTy.f32.bits) (h : (⟨4, ![A, M, N, K]⟩ : Shape).Reduces [3] ⟨3, ![A, M, N]⟩) (hφ : FKind.Formats FTy.f32)
    (hacc : acc = FKind.add.neutral FTy.f32 hφ) (p : Fin A) (s : Fin M) (t : Fin N) :
    multiReduction .add [3] ⟨3, ![A, M, N]⟩
        (mulf (broadcastTo ⟨4, ![A, M, N, K]⟩ (shapeCast ⟨4, ![A, M, 1, K]⟩ q h1) h2)
          (broadcastTo ⟨4, ![A, M, N, K]⟩ (shapeCast ⟨4, ![A, 1, N, K]⟩ k h3) h4)) acc h hφ hacc (ix3 p s t)
      = ∑ j : Fin K, q (ix3 p s j) * k (ix3 p t j) := by
  rw [sumLast4]
  refine Finset.sum_congr rfl fun j _ => ?_
  rw [mulf_apply, queryBroadcast, keyBroadcast]

/-- A row's scores less the row's maximum. -/
theorem shifted {A M N : ℕ} (sc : FVec Ideal ⟨3, ![A, M, N]⟩ .f32)
    (h : (⟨3, ![A, M, N]⟩ : Shape).Reduces [2] ⟨2, ![A, M]⟩) (hφ : FKind.Formats FTy.f32)
    (hacc : (0xFF800000#32 : BitVec FTy.f32.bits) = FKind.maximumf.neutral FTy.f32 hφ)
    (h1 : (⟨2, ![A, M]⟩ : Shape).ShapeCasts ⟨3, ![A, M, 1]⟩) (h2 : (⟨3, ![A, M, 1]⟩ : Shape).Broadcasts ⟨3, ![A, M, N]⟩)
    (p : Fin A) (s : Fin M) (t : Fin N) :
    subf sc (broadcastTo ⟨3, ![A, M, N]⟩ (shapeCast ⟨3, ![A, M, 1]⟩
        (maximumf (broadcast ⟨2, ![A, M]⟩ (Scalar.ofBits .f32 0xFF800000#32))
          (multiReduction .maximumf [2] ⟨2, ![A, M]⟩ sc 0xFF800000#32 h hφ hacc)) h1) h2) (ix3 p s t)
      = sc (ix3 p s t) - Cert.Spec.rowMax (fun u => sc (ix3 p s u)) := by
  rw [subf_apply, rowBroadcast, maximumf_apply, broadcast_apply, maxLast3]
  refine congrArg (sc (ix3 p s t) - ·) ?_
  show max (Ideal.ofBits .f32 0xFF800000#32) ((Finset.univ : Finset (Fin N)).fold max (Ideal.ofBits .f32 0xFF800000#32) _) = _
  rw [ofBits_negInf, max_bot_left]
  rfl

/-- Exponentials divided by their row sum. -/
theorem normalised {A M N : ℕ} (z : FVec Ideal ⟨3, ![A, M, N]⟩ .f32)
    (h : (⟨3, ![A, M, N]⟩ : Shape).Reduces [2] ⟨2, ![A, M]⟩) (hφ : FKind.Formats FTy.f32)
    (hacc : (0x00000000#32 : BitVec FTy.f32.bits) = FKind.add.neutral FTy.f32 hφ)
    (h1 : (⟨2, ![A, M]⟩ : Shape).ShapeCasts ⟨3, ![A, M, 1]⟩) (h2 : (⟨3, ![A, M, 1]⟩ : Shape).Broadcasts ⟨3, ![A, M, N]⟩)
    (p : Fin A) (s : Fin M) (t : Fin N) :
    divf (exp z) (broadcastTo ⟨3, ![A, M, N]⟩ (shapeCast ⟨3, ![A, M, 1]⟩
        (multiReduction .add [2] ⟨2, ![A, M]⟩ (exp z) 0x00000000#32 h hφ hacc) h1) h2) (ix3 p s t)
      = Ideal.div (Ideal.exp (z (ix3 p s t))) (∑ u : Fin N, Ideal.exp (z (ix3 p s u))) := by
  rw [divf_apply, rowBroadcast, sumLast3]
  rfl

end Cert.KerAttn

end
-- ==== Proof.KerSoftmax.lean ====
/-
  The softmax weights of a row of scores on the vector unit: shift by the row maximum, exponentiate, divide by the row
  sum — at (p, s, t) the softmax of row (p, s) of the scores, at coordinate t.
-/
import proofs.«133350_j9835475108028_2_alg».proof.Proof.KerAttn

noncomputable section

namespace Cert.KerAttn

open Cert.KerLayout Cert.KerReduce Idealize.ShloMosaic Idealize.ShloMosaic.ValueIdx

/-- Exponentials of given shifted scores divided by their row sum, when the shifted scores are known by coordinates. -/
theorem normalised_of {A M N : ℕ} (z : FVec Ideal ⟨3, ![A, M, N]⟩ .f32)
    (h : (⟨3, ![A, M, N]⟩ : Shape).Reduces [2] ⟨2, ![A, M]⟩) (hφ : FKind.Formats FTy.f32)
    (hacc : (0x00000000#32 : BitVec FTy.f32.bits) = FKind.add.neutral FTy.f32 hφ)
    (h1 : (⟨2, ![A, M]⟩ : Shape).ShapeCasts ⟨3, ![A, M, 1]⟩) (h2 : (⟨3, ![A, M, 1]⟩ : Shape).Broadcasts ⟨3, ![A, M, N]⟩)
    (p : Fin A) (s : Fin M) (f : Fin N → EReal) (hz : ∀ u, z (ix3 p s u) = f u - Cert.Spec.rowMax f) (t : Fin N) :
    divf (exp z) (broadcastTo ⟨3, ![A, M, N]⟩ (shapeCast ⟨3, ![A, M, 1]⟩
        (multiReduction .add [2] ⟨2, ![A, M]⟩ (exp z) 0x00000000#32 h hφ hacc) h1) h2) (ix3 p s t)
      = Cert.Spec.smx f t := by
  rw [normalised, hz]
  unfold Cert.Spec.smx
  refine congrArg (Ideal.div _ ·) (Finset.sum_congr rfl fun u _ => ?_)
  rw [hz]

end Cert.KerAttn

end
-- ==== Proof.KerMatmul.lean ====
/-
  The matrix unit's products of this kernel at an output coordinate, at the exact instance: a block of rows times the
  transpose of a weight matrix stored by rows, and the per-block products of attention weights with value rows — each
  onto a zero accumulator, so each is the plain finite sum over the contracted coordinate.
-/
import proofs.«133350_j9835475108028_2_alg».proof.Proof.Gen.KernelIdeal
import Idealize.ShloMosaic.Lib.ValueIdx
import Idealize.ShloMosaic.PureOps.Ideal.Laws

noncomputable section

namespace Cert.KerMatmul

open Cert.KernelIdeal Idealize.ShloMosaic Idealize.ShloMosaic.ValueIdx

theorem l0_512x512_32 (i : S512x32.Idx) (c : dot_S512x512_S32x512_S512x32_1_1_0_0_n_n.contr.Idx) : (dot_S512x512_S32x512_S512x32_1_1_0_0_n_n.lhsIdx i c 0).val = (i 0).val := by
  unfold DotDims.lhsIdx
  rw [dif_neg (show ¬(0 : Fin S512x512.rank) ∈ dot_S512x512_S32x512_S512x32_1_1_0_0_n_n.lhsBatch by decide), dif_pos (show (0 : Fin S512x512.rank) ∈ dot_S512x512_S32x512_S512x32_1_1_0_0_n_n.lhsNonContracting by decide)]
  rfl
theorem r0_512x512_32 (i : S512x32.Idx) (c : dot_S512x512_S32x512_S512x32_1_1_0_0_n_n.contr.Idx) : (dot_S512x512_S32x512_S512x32_1_1_0_0_n_n.rhsIdx i c 0).val = (i 1).val := by
  unfold DotDims.rhsIdx
  rw [dif_neg (show ¬(0 : Fin S32x512.rank) ∈ dot_S512x512_S32x512_S512x32_1_1_0_0_n_n.rhsBatch by decide), dif_pos (show (0 : Fin S32x512.rank) ∈ dot_S512x512_S32x512_S512x32_1_1_0_0_n_n.rhsNonContracting by decide)]
  rfl
/-- [512, 512] times the transpose of [32, 512], onto zero, at (q, o): the sum over the shared coordinate. -/
theorem mm_512x512_32 {φ₁ φ₂ : FTy} (lhs : FVec Ideal S512x512 φ₁) (rhs : FVec Ideal S32x512 φ₂) (q : Fin 512) (o : Fin 32) :
    FloatOps.matmul dot_S512x512_S32x512_S512x32_1_1_0_0_n_n none lhs rhs (constant S512x32 .f32 0x00000000#32) (ix2 q o)
      = ∑ k : Fin 512, lhs (ix2 q k) * rhs (ix2 o k) := by
  rw [Ideal.matmul_constant_zero_apply, ← Equiv.sum_comp (contrEquiv1 dot_S512x512_S32x512_S512x32_1_1_0_0_n_n 512 rfl rfl).symm]
  refine Finset.sum_congr rfl fun k _ => ?_
  have hk := contrEquiv1_symm_val dot_S512x512_S32x512_S512x32_1_1_0_0_n_n 512 rfl rfl k
  have el : dot_S512x512_S32x512_S512x32_1_1_0_0_n_n.lhsIdx (ix2 q o) ((contrEquiv1 dot_S512x512_S32x512_S512x32_1_1_0_0_n_n 512 rfl rfl).symm k) = ix2 q k := funext fun a => Fin.ext (by
    match a with
    | ⟨0, _⟩ => exact l0_512x512_32 _ _
    | ⟨1, _⟩ => exact (dot_S512x512_S32x512_S512x32_1_1_0_0_n_n.lhsIdx_val_of_single rfl _ _).trans hk)
  have er : dot_S512x512_S32x512_S512x32_1_1_0_0_n_n.rhsIdx (ix2 q o) ((contrEquiv1 dot_S512x512_S32x512_S512x32_1_1_0_0_n_n 512 rfl rfl).symm k) = ix2 o k := funext fun a => Fin.ext (by
    match a with
    | ⟨0, _⟩ => exact r0_512x512_32 _ _
    | ⟨1, _⟩ => exact (dot_S512x512_S32x512_S512x32_1_1_0_0_n_n.rhsIdx_val_of_single rfl _ _).trans hk)
  rw [el, er]

theorem l0_1024x512_32 (i : S1024x32.Idx) (c : dot_S1024x512_S32x512_S1024x32_1_1_0_0_n_n.contr.Idx) : (dot_S1024x512_S32x512_S1024x32_1_1_0_0_n_n.lhsIdx i c 0).val = (i 0).val := by
  unfold DotDims.lhsIdx
  rw [dif_neg (show ¬(0 : Fin S1024x512.rank) ∈ dot_S1024x512_S32x512_S1024x32_1_1_0_0_n_n.lhsBatch by decide), dif_pos (show (0 : Fin S1024x512.rank) ∈ dot_S1024x512_S32x512_S1024x32_1_1_0_0_n_n.lhsNonContracting by decide)]
  rfl
theorem r0_1024x512_32 (i : S1024x32.Idx) (c : dot_S1024x512_S32x512_S1024x32_1_1_0_0_n_n.contr.Idx) : (dot_S1024x512_S32x512_S1024x32_1_1_0_0_n_n.rhsIdx i c 0).val = (i 1).val := by
  unfold DotDims.rhsIdx
  rw [dif_neg (show ¬(0 : Fin S32x512.rank) ∈ dot_S1024x512_S32x512_S1024x32_1_1_0_0_n_n.rhsBatch by decide), dif_pos (show (0 : Fin S32x512.rank) ∈ dot_S1024x512_S32x512_S1024x32_1_1_0_0_n_n.rhsNonContracting by decide)]
  rfl
/-- [1024, 512] times the transpose of [32, 512], onto zero, at (q, o): the sum over the shared coordinate. -/
theorem mm_1024x512_32 {φ₁ φ₂ : FTy} (lhs : FVec Ideal S1024x512 φ₁) (rhs : FVec Ideal S32x512 φ₂) (q : Fin 1024) (o : Fin 32) :
    FloatOps.matmul dot_S1024x512_S32x512_S1024x32_1_1_0_0_n_n none lhs rhs (constant S1024x32 .f32 0x00000000#32) (ix2 q o)
      = ∑ k : Fin 512, lhs (ix2 q k) * rhs (ix2 o k) := by
  rw [Ideal.matmul_constant_zero_apply, ← Equiv.sum_comp (contrEquiv1 dot_S1024x512_S32x512_S1024x32_1_1_0_0_n_n 512 rfl rfl).symm]
  refine Finset.sum_congr rfl fun k _ => ?_
  have hk := contrEquiv1_symm_val dot_S1024x512_S32x512_S1024x32_1_1_0_0_n_n 512 rfl rfl k
  have el : dot_S1024x512_S32x512_S1024x32_1_1_0_0_n_n.lhsIdx (ix2 q o) ((contrEquiv1 dot_S1024x512_S32x512_S1024x32_1_1_0_0_n_n 512 rfl rfl).symm k) = ix2 q k := funext fun a => Fin.ext (by
    match a with
    | ⟨0, _⟩ => exact l0_1024x512_32 _ _
    | ⟨1, _⟩ => exact (dot_S1024x512_S32x512_S1024x32_1_1_0_0_n_n.lhsIdx_val_of_single rfl _ _).trans hk)
  have er : dot_S1024x512_S32x512_S1024x32_1_1_0_0_n_n.rhsIdx (ix2 q o) ((contrEquiv1 dot_S1024x512_S32x512_S1024x32_1_1_0_0_n_n 512 rfl rfl).symm k) = ix2 o k := funext fun a => Fin.ext (by
    match a with
    | ⟨0, _⟩ => exact r0_1024x512_32 _ _
    | ⟨1, _⟩ => exact (dot_S1024x512_S32x512_S1024x32_1_1_0_0_n_n.rhsIdx_val_of_single rfl _ _).trans hk)
  rw [el, er]

theorem l0_1024x512_512 (i : S1024x512.Idx) (c : dot_S1024x512_S512x512_S1024x512_1_1_0_0_n_n.contr.Idx) : (dot_S1024x512_S512x512_S1024x512_1_1_0_0_n_n.lhsIdx i c 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem r0_1024x512_512 (i : S1024x512.Idx) (c : dot_S1024x512_S512x512_S1024x512_1_1_0_0_n_n.contr.Idx) : (dot_S1024x512_S512x512_S1024x512_1_1_0_0_n_n.rhsIdx i c 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
/-- [1024, 512] times the transpose of [512, 512], onto zero, at (q, o): the sum over the shared coordinate. -/
theorem mm_1024x512_512 {φ₁ φ₂ : FTy} (lhs : FVec Ideal S1024x512 φ₁) (rhs : FVec Ideal S512x512 φ₂) (q : Fin 1024) (o : Fin 512) :
    FloatOps.matmul dot_S1024x512_S512x512_S1024x512_1_1_0_0_n_n none lhs rhs (constant S1024x512 .f32 0x00000000#32) (ix2 q o)
      = ∑ k : Fin 512, lhs (ix2 q k) * rhs (ix2 o k) := by
  rw [Ideal.matmul_constant_zero_apply, ← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have el : dot_S1024x512_S512x512_S1024x512_1_1_0_0_n_n.lhsIdx (ix2 q o) ((contrEquiv1 dot_S1024x512_S512x512_S1024x512_1_1_0_0_n_n 512 rfl rfl).symm k) = ix2 q k := funext fun a => Fin.ext (by
    match a with
    | ⟨0, _⟩ => exact l0_1024x512_512 _ _
    | ⟨1, _⟩ => exact (dot_S1024x512_S512x512_S1024x512_1_1_0_0_n_n.lhsIdx_val_of_single rfl _ _).trans hk)
  have er : dot_S1024x512_S512x512_S1024x512_1_1_0_0_n_n.rhsIdx (ix2 q o) ((contrEquiv1 dot_S1024x512_S512x512_S1024x512_1_1_0_0_n_n 512 rfl rfl).symm k) = ix2 o k := funext fun a => Fin.ext (by
    match a with
    | ⟨0, _⟩ => exact r0_1024x512_512 _ _
    | ⟨1, _⟩ => exact (dot_S1024x512_S512x512_S1024x512_1_1_0_0_n_n.rhsIdx_val_of_single rfl _ _).trans hk)
  rw [el, er]

theorem l0_512x512_512 (i : S512x512.Idx) (c : dot_S512x512_S512x512_S512x512_1_1_0_0_n_n.contr.Idx) : (dot_S512x512_S512x512_S512x512_1_1_0_0_n_n.lhsIdx i c 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem r0_512x512_512 (i : S512x512.Idx) (c : dot_S512x512_S512x512_S512x512_1_1_0_0_n_n.contr.Idx) : (dot_S512x512_S512x512_S512x512_1_1_0_0_n_n.rhsIdx i c 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
/-- [512, 512] times the transpose of [512, 512], onto zero, at (q, o): the sum over the shared coordinate. -/
theorem mm_512x512_512 {φ₁ φ₂ : FTy} (lhs : FVec Ideal S512x512 φ₁) (rhs : FVec Ideal S512x512 φ₂) (q : Fin 512) (o : Fin 512) :
    FloatOps.matmul dot_S512x512_S512x512_S512x512_1_1_0_0_n_n none lhs rhs (constant S512x512 .f32 0x00000000#32) (ix2 q o)
      = ∑ k : Fin 512, lhs (ix2 q k) * rhs (ix2 o k) := by
  rw [Ideal.matmul_constant_zero_apply, ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 q o) ((contrEquiv1 dot_S512x512_S512x512_S512x512_1_1_0_0_n_n 512 rfl rfl).symm k) = ix2 q k := funext fun a => Fin.ext (by
    match a with
    | ⟨0, _⟩ => exact l0_512x512_512 _ _
    | ⟨1, _⟩ => exact (dot_S512x512_S512x512_S512x512_1_1_0_0_n_n.lhsIdx_val_of_single rfl _ _).trans hk)
  have er : dot_S512x512_S512x512_S512x512_1_1_0_0_n_n.rhsIdx (ix2 q o) ((contrEquiv1 dot_S512x512_S512x512_S512x512_1_1_0_0_n_n 512 rfl rfl).symm k) = ix2 o k := funext fun a => Fin.ext (by
    match a with
    | ⟨0, _⟩ => exact r0_512x512_512 _ _
    | ⟨1, _⟩ => exact (dot_S512x512_S512x512_S512x512_1_1_0_0_n_n.rhsIdx_val_of_single rfl _ _).trans hk)
  rw [el, er]

theorem l0_512x512_1024 (i : S512x1024.Idx) (c : dot_S512x512_S1024x512_S512x1024_1_1_0_0_n_n.contr.Idx) : (dot_S512x512_S1024x512_S512x1024_1_1_0_0_n_n.lhsIdx i c 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem r0_512x512_1024 (i : S512x1024.Idx) (c : dot_S512x512_S1024x512_S512x1024_1_1_0_0_n_n.contr.Idx) : (dot_S512x512_S1024x512_S512x1024_1_1_0_0_n_n.rhsIdx i c 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
/-- [512, 512] times the transpose of [1024, 512], onto zero, at (q, o): the sum over the shared coordinate. -/
theorem mm_512x512_1024 {φ₁ φ₂ : FTy} (lhs : FVec Ideal S512x512 φ₁) (rhs : FVec Ideal S1024x512 φ₂) (q : Fin 512) (o : Fin 1024) :
    FloatOps.matmul dot_S512x512_S1024x512_S512x1024_1_1_0_0_n_n none lhs rhs (constant S512x1024 .f32 0x00000000#32) (ix2 q o)
      = ∑ k : Fin 512, lhs (ix2 q k) * rhs (ix2 o k) := by
  rw [Ideal.matmul_constant_zero_apply, ← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 q o) ((contrEquiv1 dot_S512x512_S1024x512_S512x1024_1_1_0_0_n_n 512 rfl rfl).symm k) = ix2 q k := funext fun a => Fin.ext (by
    match a with
    | ⟨0, _⟩ => exact l0_512x512_1024 _ _
    | ⟨1, _⟩ => exact (dot_S512x512_S1024x512_S512x1024_1_1_0_0_n_n.lhsIdx_val_of_single rfl _ _).trans hk)
  have er : dot_S512x512_S1024x512_S512x1024_1_1_0_0_n_n.rhsIdx (ix2 q o) ((contrEquiv1 dot_S512x512_S1024x512_S512x1024_1_1_0_0_n_n 512 rfl rfl).symm k) = ix2 o k := funext fun a => Fin.ext (by
    match a with
    | ⟨0, _⟩ => exact r0_512x512_1024 _ _
    | ⟨1, _⟩ => exact (dot_S512x512_S1024x512_S512x1024_1_1_0_0_n_n.rhsIdx_val_of_single rfl _ _).trans hk)
  rw [el, er]

theorem l0_512x512_128 (i : S512x128.Idx) (c : dot_S512x512_S128x512_S512x128_1_1_0_0_n_n.contr.Idx) : (dot_S512x512_S128x512_S512x128_1_1_0_0_n_n.lhsIdx i c 0).val = (i 0).val := by
  unfold DotDims.lhsIdx
  rw [dif_neg (show ¬(0 : Fin S512x512.rank) ∈ dot_S512x512_S128x512_S512x128_1_1_0_0_n_n.lhsBatch by decide), dif_pos (show (0 : Fin S512x512.rank) ∈ dot_S512x512_S128x512_S512x128_1_1_0_0_n_n.lhsNonContracting by decide)]
  rfl
theorem r0_512x512_128 (i : S512x128.Idx) (c : dot_S512x512_S128x512_S512x128_1_1_0_0_n_n.contr.Idx) : (dot_S512x512_S128x512_S512x128_1_1_0_0_n_n.rhsIdx i c 0).val = (i 1).val := by
  unfold DotDims.rhsIdx
  rw [dif_neg (show ¬(0 : Fin S128x512.rank) ∈ dot_S512x512_S128x512_S512x128_1_1_0_0_n_n.rhsBatch by decide), dif_pos (show (0 : Fin S128x512.rank) ∈ dot_S512x512_S128x512_S512x128_1_1_0_0_n_n.rhsNonContracting by decide)]
  rfl
/-- [512, 512] times the transpose of [128, 512], onto zero, at (q, o): the sum over the shared coordinate. -/
theorem mm_512x512_128 {φ₁ φ₂ : FTy} (lhs : FVec Ideal S512x512 φ₁) (rhs : FVec Ideal S128x512 φ₂) (q : Fin 512) (o : Fin 128) :
    FloatOps.matmul dot_S512x512_S128x512_S512x128_1_1_0_0_n_n none lhs rhs (constant S512x128 .f32 0x00000000#32) (ix2 q o)
      = ∑ k : Fin 512, lhs (ix2 q k) * rhs (ix2 o k) := by
  rw [Ideal.matmul_constant_zero_apply, ← Equiv.sum_comp (contrEquiv1 dot_S512x512_S128x512_S512x128_1_1_0_0_n_n 512 rfl rfl).symm]
  refine Finset.sum_congr rfl fun k _ => ?_
  have hk := contrEquiv1_symm_val dot_S512x512_S128x512_S512x128_1_1_0_0_n_n 512 rfl rfl k
  have el : dot_S512x512_S128x512_S512x128_1_1_0_0_n_n.lhsIdx (ix2 q o) ((contrEquiv1 dot_S512x512_S128x512_S512x128_1_1_0_0_n_n 512 rfl rfl).symm k) = ix2 q k := funext fun a => Fin.ext (by
    match a with
    | ⟨0, _⟩ => exact l0_512x512_128 _ _
    | ⟨1, _⟩ => exact (dot_S512x512_S128x512_S512x128_1_1_0_0_n_n.lhsIdx_val_of_single rfl _ _).trans hk)
  have er : dot_S512x512_S128x512_S512x128_1_1_0_0_n_n.rhsIdx (ix2 q o) ((contrEquiv1 dot_S512x512_S128x512_S512x128_1_1_0_0_n_n 512 rfl rfl).symm k) = ix2 o k := funext fun a => Fin.ext (by
    match a with
    | ⟨0, _⟩ => exact r0_512x512_128 _ _
    | ⟨1, _⟩ => exact (dot_S512x512_S128x512_S512x128_1_1_0_0_n_n.rhsIdx_val_of_single rfl _ _).trans hk)
  rw [el, er]

theorem l0_512x512_2048 (i : S512x2048.Idx) (c : dot_S512x512_S2048x512_S512x2048_1_1_0_0_n_n.contr.Idx) : (dot_S512x512_S2048x512_S512x2048_1_1_0_0_n_n.lhsIdx i c 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem r0_512x512_2048 (i : S512x2048.Idx) (c : dot_S512x512_S2048x512_S512x2048_1_1_0_0_n_n.contr.Idx) : (dot_S512x512_S2048x512_S512x2048_1_1_0_0_n_n.rhsIdx i c 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
/-- [512, 512] times the transpose of [2048, 512], onto zero, at (q, o): the sum over the shared coordinate. -/
theorem mm_512x512_2048 {φ₁ φ₂ : FTy} (lhs : FVec Ideal S512x512 φ₁) (rhs : FVec Ideal S2048x512 φ₂) (q : Fin 512) (o : Fin 2048) :
    FloatOps.matmul dot_S512x512_S2048x512_S512x2048_1_1_0_0_n_n none lhs rhs (constant S512x2048 .f32 0x00000000#32) (ix2 q o)
      = ∑ k : Fin 512, lhs (ix2 q k) * rhs (ix2 o k) := by
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 q o) ((contrEquiv1 dot_S512x512_S2048x512_S512x2048_1_1_0_0_n_n 512 rfl rfl).symm k) = ix2 q k := funext fun a => Fin.ext (by
    match a with
    | ⟨0, _⟩ => exact l0_512x512_2048 _ _
    | ⟨1, _⟩ => exact (dot_S512x512_S2048x512_S512x2048_1_1_0_0_n_n.lhsIdx_val_of_single rfl _ _).trans hk)
  have er : dot_S512x512_S2048x512_S512x2048_1_1_0_0_n_n.rhsIdx (ix2 q o) ((contrEquiv1 dot_S512x512_S2048x512_S512x2048_1_1_0_0_n_n 512 rfl rfl).symm k) = ix2 o k := funext fun a => Fin.ext (by
    match a with
    | ⟨0, _⟩ => exact r0_512x512_2048 _ _
    | ⟨1, _⟩ => exact (dot_S512x512_S2048x512_S512x2048_1_1_0_0_n_n.rhsIdx_val_of_single rfl _ _).trans hk)
  rw [el, er]

theorem l0_512x2048_512 (i : S512x512.Idx) (c : dot_S512x2048_S512x2048_S512x512_1_1_0_0_n_n.contr.Idx) : (dot_S512x2048_S512x2048_S512x512_1_1_0_0_n_n.lhsIdx i c 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem r0_512x2048_512 (i : S512x512.Idx) (c : dot_S512x2048_S512x2048_S512x512_1_1_0_0_n_n.contr.Idx) : (dot_S512x2048_S512x2048_S512x512_1_1_0_0_n_n.rhsIdx i c 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
/-- [512, 2048] times the transpose of [512, 2048], onto zero, at (q, o): the sum over the shared coordinate. -/
theorem mm_512x2048_512 {φ₁ φ₂ : FTy} (lhs : FVec Ideal S512x2048 φ₁) (rhs : FVec Ideal S512x2048 φ₂) (q : Fin 512) (o : Fin 512) :
    FloatOps.matmul dot_S512x2048_S512x2048_S512x512_1_1_0_0_n_n none lhs rhs (constant S512x512 .f32 0x00000000#32) (ix2 q o)
      = ∑ k : Fin 2048, lhs (ix2 q k) * rhs (ix2 o k) := by
  rw [Ideal.matmul_constant_zero_apply, ← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 q o) ((contrEquiv1 dot_S512x2048_S512x2048_S512x512_1_1_0_0_n_n 2048 rfl rfl).symm k) = ix2 q k := funext fun a => Fin.ext (by
    match a with
    | ⟨0, _⟩ => exact l0_512x2048_512 _ _
    | ⟨1, _⟩ => exact (dot_S512x2048_S512x2048_S512x512_1_1_0_0_n_n.lhsIdx_val_of_single rfl _ _).trans hk)
  have er : dot_S512x2048_S512x2048_S512x512_1_1_0_0_n_n.rhsIdx (ix2 q o) ((contrEquiv1 dot_S512x2048_S512x2048_S512x512_1_1_0_0_n_n 2048 rfl rfl).symm k) = ix2 o k := funext fun a => Fin.ext (by
    match a with
    | ⟨0, _⟩ => exact r0_512x2048_512 _ _
    | ⟨1, _⟩ => exact (dot_S512x2048_S512x2048_S512x512_1_1_0_0_n_n.rhsIdx_val_of_single rfl _ _).trans hk)
  rw [el, er]

theorem bl0_16 (i : S64x8x512.Idx) (c : dot_S64x8x16_S64x16x512_S64x8x512_2_1_1_2_0_0.contr.Idx) : (dot_S64x8x16_S64x16x512_S64x8x512_2_1_1_2_0_0.lhsIdx i c 0).val = (i 0).val := by
  unfold DotDims.lhsIdx
  rw [dif_pos (show (0 : Fin S64x8x16.rank) ∈ dot_S64x8x16_S64x16x512_S64x8x512_2_1_1_2_0_0.lhsBatch by decide)]
  rfl
theorem bl1_16 (i : S64x8x512.Idx) (c : dot_S64x8x16_S64x16x512_S64x8x512_2_1_1_2_0_0.contr.Idx) : (dot_S64x8x16_S64x16x512_S64x8x512_2_1_1_2_0_0.lhsIdx i c 1).val = (i 1).val := by
  unfold DotDims.lhsIdx
  rw [dif_neg (show ¬(1 : Fin S64x8x16.rank) ∈ dot_S64x8x16_S64x16x512_S64x8x512_2_1_1_2_0_0.lhsBatch by decide), dif_pos (show (1 : Fin S64x8x16.rank) ∈ dot_S64x8x16_S64x16x512_S64x8x512_2_1_1_2_0_0.lhsNonContracting by decide)]
  rfl
theorem br0_16 (i : S64x8x512.Idx) (c : dot_S64x8x16_S64x16x512_S64x8x512_2_1_1_2_0_0.contr.Idx) : (dot_S64x8x16_S64x16x512_S64x8x512_2_1_1_2_0_0.rhsIdx i c 0).val = (i 0).val := by
  unfold DotDims.rhsIdx
  rw [dif_pos (show (0 : Fin S64x16x512.rank) ∈ dot_S64x8x16_S64x16x512_S64x8x512_2_1_1_2_0_0.rhsBatch by decide)]
  rfl
theorem br2_16 (i : S64x8x512.Idx) (c : dot_S64x8x16_S64x16x512_S64x8x512_2_1_1_2_0_0.contr.Idx) : (dot_S64x8x16_S64x16x512_S64x8x512_2_1_1_2_0_0.rhsIdx i c 2).val = (i 2).val := by
  unfold DotDims.rhsIdx
  rw [dif_neg (show ¬(2 : Fin S64x16x512.rank) ∈ dot_S64x8x16_S64x16x512_S64x8x512_2_1_1_2_0_0.rhsBatch by decide), dif_pos (show (2 : Fin S64x16x512.rank) ∈ dot_S64x8x16_S64x16x512_S64x8x512_2_1_1_2_0_0.rhsNonContracting by decide)]
  rfl
/-- Per block `p`: [8, 16] times [16, 512], onto zero, at (p, s, d): the sum over the shared coordinate. -/
theorem bmm_16 {φ₁ φ₂ : FTy} (lhs : FVec Ideal S64x8x16 φ₁) (rhs : FVec Ideal S64x16x512 φ₂) (p : Fin 64) (s : Fin 8) (d : Fin 512) :
    FloatOps.matmul dot_S64x8x16_S64x16x512_S64x8x512_2_1_1_2_0_0 none lhs rhs (constant S64x8x512 .f32 0x00000000#32) (ix3 p s d)
      = ∑ k : Fin 16, lhs (ix3 p s k) * rhs (ix3 p k d) := by
  rw [Ideal.matmul_constant_zero_apply, ← Equiv.sum_comp (contrEquiv1 dot_S64x8x16_S64x16x512_S64x8x512_2_1_1_2_0_0 16 rfl rfl).symm]
  refine Finset.sum_congr rfl fun k _ => ?_
  have hk := contrEquiv1_symm_val dot_S64x8x16_S64x16x512_S64x8x512_2_1_1_2_0_0 16 rfl rfl k
  have el : dot_S64x8x16_S64x16x512_S64x8x512_2_1_1_2_0_0.lhsIdx (ix3 p s d) ((contrEquiv1 dot_S64x8x16_S64x16x512_S64x8x512_2_1_1_2_0_0 16 rfl rfl).symm k) = ix3 p s k := funext fun a => Fin.ext (by
    match a with
    | ⟨0, _⟩ => exact bl0_16 _ _
    | ⟨1, _⟩ => exact bl1_16 _ _
    | ⟨2, _⟩ => exact (dot_S64x8x16_S64x16x512_S64x8x512_2_1_1_2_0_0.lhsIdx_val_of_single rfl _ _).trans hk)
  have er : dot_S64x8x16_S64x16x512_S64x8x512_2_1_1_2_0_0.rhsIdx (ix3 p s d) ((contrEquiv1 dot_S64x8x16_S64x16x512_S64x8x512_2_1_1_2_0_0 16 rfl rfl).symm k) = ix3 p k d := funext fun a => Fin.ext (by
    match a with
    | ⟨0, _⟩ => exact br0_16 _ _
    | ⟨1, _⟩ => exact (dot_S64x8x16_S64x16x512_S64x8x512_2_1_1_2_0_0.rhsIdx_val_of_single rfl _ _).trans hk
    | ⟨2, _⟩ => exact br2_16 _ _)
  rw [el, er]

theorem bl0_8 (i : S64x8x512.Idx) (c : dot_S64x8x8_S64x8x512_S64x8x512_2_1_1_2_0_0.contr.Idx) : (dot_S64x8x8_S64x8x512_S64x8x512_2_1_1_2_0_0.lhsIdx i c 0).val = (i 0).val := by
  unfold DotDims.lhsIdx
  rw [dif_pos (show (0 : Fin S64x8x8.rank) ∈ dot_S64x8x8_S64x8x512_S64x8x512_2_1_1_2_0_0.lhsBatch by decide)]
  rfl
theorem bl1_8 (i : S64x8x512.Idx) (c : dot_S64x8x8_S64x8x512_S64x8x512_2_1_1_2_0_0.contr.Idx) : (dot_S64x8x8_S64x8x512_S64x8x512_2_1_1_2_0_0.lhsIdx i c 1).val = (i 1).val := by
  unfold DotDims.lhsIdx
  rw [dif_neg (show ¬(1 : Fin S64x8x8.rank) ∈ dot_S64x8x8_S64x8x512_S64x8x512_2_1_1_2_0_0.lhsBatch by decide), dif_pos (show (1 : Fin S64x8x8.rank) ∈ dot_S64x8x8_S64x8x512_S64x8x512_2_1_1_2_0_0.lhsNonContracting by decide)]
  rfl
theorem br0_8 (i : S64x8x512.Idx) (c : dot_S64x8x8_S64x8x512_S64x8x512_2_1_1_2_0_0.contr.Idx) : (dot_S64x8x8_S64x8x512_S64x8x512_2_1_1_2_0_0.rhsIdx i c 0).val = (i 0).val := by
  unfold DotDims.rhsIdx
  rw [dif_pos (show (0 : Fin S64x8x512.rank) ∈ dot_S64x8x8_S64x8x512_S64x8x512_2_1_1_2_0_0.rhsBatch by decide)]
  rfl
theorem br2_8 (i : S64x8x512.Idx) (c : dot_S64x8x8_S64x8x512_S64x8x512_2_1_1_2_0_0.contr.Idx) : (dot_S64x8x8_S64x8x512_S64x8x512_2_1_1_2_0_0.rhsIdx i c 2).val = (i 2).val := by
  unfold DotDims.rhsIdx
  rw [dif_neg (show ¬(2 : Fin S64x8x512.rank) ∈ dot_S64x8x8_S64x8x512_S64x8x512_2_1_1_2_0_0.rhsBatch by decide), dif_pos (show (2 : Fin S64x8x512.rank) ∈ dot_S64x8x8_S64x8x512_S64x8x512_2_1_1_2_0_0.rhsNonContracting by decide)]
  rfl
/-- Per block `p`: [8, 8] times [8, 512], onto zero, at (p, s, d): the sum over the shared coordinate. -/
theorem bmm_8 {φ₁ φ₂ : FTy} (lhs : FVec Ideal S64x8x8 φ₁) (rhs : FVec Ideal S64x8x512 φ₂) (p : Fin 64) (s : Fin 8) (d : Fin 512) :
    FloatOps.matmul dot_S64x8x8_S64x8x512_S64x8x512_2_1_1_2_0_0 none lhs rhs (constant S64x8x512 .f32 0x00000000#32) (ix3 p s d)
      = ∑ k : Fin 8, lhs (ix3 p s k) * rhs (ix3 p k d) := by
  rw [Ideal.matmul_constant_zero_apply, ← Equiv.sum_comp (contrEquiv1 dot_S64x8x8_S64x8x512_S64x8x512_2_1_1_2_0_0 8 rfl rfl).symm]
  refine Finset.sum_congr rfl fun k _ => ?_
  have hk := contrEquiv1_symm_val dot_S64x8x8_S64x8x512_S64x8x512_2_1_1_2_0_0 8 rfl rfl k
  have el : dot_S64x8x8_S64x8x512_S64x8x512_2_1_1_2_0_0.lhsIdx (ix3 p s d) ((contrEquiv1 dot_S64x8x8_S64x8x512_S64x8x512_2_1_1_2_0_0 8 rfl rfl).symm k) = ix3 p s k := funext fun a => Fin.ext (by
    match a with
    | ⟨0, _⟩ => exact bl0_8 _ _
    | ⟨1, _⟩ => exact bl1_8 _ _
    | ⟨2, _⟩ => exact (dot_S64x8x8_S64x8x512_S64x8x512_2_1_1_2_0_0.lhsIdx_val_of_single rfl _ _).trans hk)
  have er : dot_S64x8x8_S64x8x512_S64x8x512_2_1_1_2_0_0.rhsIdx (ix3 p s d) ((contrEquiv1 dot_S64x8x8_S64x8x512_S64x8x512_2_1_1_2_0_0 8 rfl rfl).symm k) = ix3 p k d := funext fun a => Fin.ext (by
    match a with
    | ⟨0, _⟩ => exact br0_8 _ _
    | ⟨1, _⟩ => exact (dot_S64x8x8_S64x8x512_S64x8x512_2_1_1_2_0_0.rhsIdx_val_of_single rfl _ _).trans hk
    | ⟨2, _⟩ => exact br2_8 _ _)
  rw [el, er]

end Cert.KerMatmul

end
-- ==== Proof.KerHead.lean ====
/-
  One head of the read attention on a block: the head's 32 query and key coordinates are a band of the 128, its 512
  value coordinates a band of the 2048. The scaled scores, and what each input row gathers from the value rows given
  the scores (or given the scores already shifted by their row maximum), read at coordinates.
-/
import proofs.«133350_j9835475108028_2_alg».proof.Proof.Gen.KernelIdeal.Skeleton
import proofs.«133350_j9835475108028_2_alg».proof.Proof.AttnSpec
import proofs.«133350_j9835475108028_2_alg».proof.Proof.KerSoftmax
import proofs.«133350_j9835475108028_2_alg».proof.Proof.KerMatmul

noncomputable section

namespace Cert.KerHead

open Cert.KernelIdeal Cert.KerLayout Cert.KerReduce Cert.KerAttn Cert.KerMatmul
open Idealize.ShloMosaic Idealize.ShloMosaic.ValueIdx
open Cert.Spec (smx)

/-- A head's scaled scores: the band of the queries against the band of the keys, times the scale. -/
theorem headScore (q k : FVec Ideal S64x8x128 .f32) (oq : ℕ) (hoq : oq + 32 ≤ 128)
    (hsq : S64x8x128.Slices ![0, 0, oq] S64x8x32)
    (h1 : S64x8x32.ShapeCasts S64x8x1x32) (h2 : S64x8x1x32.Broadcasts S64x8x8x32)
    (h3 : S64x8x32.ShapeCasts S64x1x8x32) (h4 : S64x1x8x32.Broadcasts S64x8x8x32)
    (h : S64x8x8x32.Reduces [3] S64x8x8) (hφ : FKind.Formats FTy.f32)
    (hacc : (0x00000000#32 : BitVec FTy.f32.bits) = FKind.add.neutral FTy.f32 hφ) (c : Ideal .f32)
    (p : Fin 64) (n s : Fin 8) :
    mulf (multiReduction .add [3] S64x8x8
        (mulf (broadcastTo S64x8x8x32 (shapeCast S64x8x1x32 (extractStridedSlice S64x8x32 ![0, 0, oq] q hsq) h1) h2)
          (broadcastTo S64x8x8x32 (shapeCast S64x1x8x32 (extractStridedSlice S64x8x32 ![0, 0, oq] k hsq) h3) h4))
        0x00000000#32 h hφ hacc) (broadcast S64x8x8 c) (ix3 p n s)
      = (∑ o : Fin 32, q (ix3 p n ⟨oq + o.val, by have := o.isLt; omega⟩) * k (ix3 p s ⟨oq + o.val, by have := o.isLt; omega⟩)) * c := by
  refine congrArg₂ (· * ·) ?_ rfl
  refine (rawScore _ _ _ _ _ _ _ _ _ _ p n s).trans (Finset.sum_congr rfl fun o _ => ?_)
  exact congrArg₂ (· * ·) (band3 oq q hsq p n o ⟨oq + o.val, by have := o.isLt; omega⟩ rfl)
    (band3 oq k hsq p s o ⟨oq + o.val, by have := o.isLt; omega⟩ rfl)

/-- What the input rows gather, from scores already shifted by their row maximum. -/
theorem ctxOfShifted (Z : FVec Ideal S64x8x8 .f32) (vals : FVec Ideal S64x8x512 .bf16) (p : Fin 64)
    (f : Fin 8 → Fin 8 → EReal) (hZ : ∀ n u, Z (ix3 p n u) = f n u - Cert.Spec.rowMax (f n))
    (VV : Fin 8 → Fin 512 → EReal) (hV : ∀ s d, vals (ix3 p s d) = VV s d)
    (hr : S64x8x8.Reduces [2] S64x8) (hφ : FKind.Formats FTy.f32)
    (hacc : (0x00000000#32 : BitVec FTy.f32.bits) = FKind.add.neutral FTy.f32 hφ)
    (hc : S64x8.ShapeCasts S64x8x1) (hb : S64x8x1.Broadcasts S64x8x8) (hbits : FTy.bf16.bits < FTy.f32.bits)
    (n : Fin 8) (d : Fin 512) :
    (truncf .bf16 (matmul dot_S64x8x8_S64x8x512_S64x8x512_2_1_1_2_0_0 none
        (truncf .bf16 (divf (exp Z) (broadcastTo S64x8x8 (shapeCast S64x8x1
          (multiReduction .add [2] S64x8 (exp Z) 0x00000000#32 hr hφ hacc) hc) hb)) hbits)
        vals (constant S64x8x512 .f32 0x00000000#32)) hbits : FVec Ideal S64x8x512 .bf16) (ix3 p n d)
      = ∑ s : Fin 8, smx (f n) s * VV s d := by
  refine (bmm_8 _ _ p n d).trans (Finset.sum_congr rfl fun s _ => ?_)
  exact congrArg₂ (· * ·) (normalised_of Z hr hφ hacc hc hb p n (f n) (hZ n) s) (hV s d)

/-- What the input rows gather, from the scores. -/
theorem ctxOfScores (SC : FVec Ideal S64x8x8 .f32) (vals : FVec Ideal S64x8x512 .bf16) (p : Fin 64)
    (f : Fin 8 → Fin 8 → EReal) (hSC : ∀ n u, SC (ix3 p n u) = f n u)
    (VV : Fin 8 → Fin 512 → EReal) (hV : ∀ s d, vals (ix3 p s d) = VV s d)
    (hr : S64x8x8.Reduces [2] S64x8) (hφ : FKind.Formats FTy.f32)
    (hacc : (0x00000000#32 : BitVec FTy.f32.bits) = FKind.add.neutral FTy.f32 hφ)
    (hφ' : FKind.Formats FTy.f32)
    (hacc' : (0xFF800000#32 : BitVec FTy.f32.bits) = FKind.maximumf.neutral FTy.f32 hφ')
    (hc : S64x8.ShapeCasts S64x8x1) (hb : S64x8x1.Broadcasts S64x8x8) (hbits : FTy.bf16.bits < FTy.f32.bits)
    (n : Fin 8) (d : Fin 512) :
    (truncf .bf16 (matmul dot_S64x8x8_S64x8x512_S64x8x512_2_1_1_2_0_0 none
        (truncf .bf16 (divf
          (exp (subf SC (broadcastTo S64x8x8 (shapeCast S64x8x1 (maximumf (broadcast S64x8 (Scalar.ofBits .f32 0xFF800000#32))
            (multiReduction .maximumf [2] S64x8 SC 0xFF800000#32 hr hφ' hacc')) hc) hb)))
          (broadcastTo S64x8x8 (shapeCast S64x8x1
            (multiReduction .add [2] S64x8
              (exp (subf SC (broadcastTo S64x8x8 (shapeCast S64x8x1 (maximumf (broadcast S64x8 (Scalar.ofBits .f32 0xFF800000#32))
                (multiReduction .maximumf [2] S64x8 SC 0xFF800000#32 hr hφ' hacc')) hc) hb)))
              0x00000000#32 hr hφ hacc) hc) hb)) hbits)
        vals (constant S64x8x512 .f32 0x00000000#32)) hbits : FVec Ideal S64x8x512 .bf16) (ix3 p n d)
      = ∑ s : Fin 8, smx (f n) s * VV s d :=
  ctxOfShifted _ vals p f (fun n u => (shifted SC hr hφ' hacc' hc hb p n u).trans (by
    rw [hSC]; exact congrArg (f n u - Cert.Spec.rowMax ·) (funext fun u' => hSC n u'))) VV hV hr hφ hacc hc hb hbits n d

end Cert.KerHead

end
-- ==== Proof.KerLin.lean ====
/-
  A stack of row blocks through a weight matrix: the rows are laid one after the other, rounded to the matrix unit's
  input format (no change at the exact instance), multiplied by the transpose of the weight matrix stored by rows, a
  bias row is added to every row, and the rows are stacked again. At block `p`, row `r`, output coordinate `o` this
  is the row's product with weight row `o` plus bias `o`.
-/
import proofs.«133350_j9835475108028_2_alg».proof.Proof.AttnSpec
import proofs.«133350_j9835475108028_2_alg».proof.Proof.KerLayout
import proofs.«133350_j9835475108028_2_alg».proof.Proof.KerMatmul

noncomputable section

namespace Cert.KerLin

open Cert.KernelIdeal Cert.KerLayout Cert.KerMatmul Idealize.ShloMosaic Idealize.ShloMosaic.ValueIdx

/-- 8 rows of 512 per block through a weight matrix [32, 512] stored by rows, plus a bias, at (p, r, o). -/
theorem lin_8_512_32 {φw : FTy} (x : FVec Ideal S64x8x512 .f32) (w : FVec Ideal S32x512 φw) (b : FVec Ideal S32 .f32)
    (h1 : S64x8x512.ShapeCasts S512x512) (hb : FTy.bf16.bits < FTy.f32.bits) (hc : S32x512.ShapeCasts S32x512)
    (h4 : S32.ShapeCasts S1x32) (h5 : S1x32.Broadcasts S512x32) (h6 : S512x32.ShapeCasts S64x8x32)
    (p : Fin 64) (r : Fin 8) (o : Fin 32) :
    shapeCast S64x8x32 (addf (matmul dot_S512x512_S32x512_S512x32_1_1_0_0_n_n none (truncf .bf16 (shapeCast S512x512 x h1) hb) (shapeCast S32x512 w hc)
        (constant S512x32 .f32 0x00000000#32)) (broadcastTo S512x32 (shapeCast S1x32 b h4) h5)) h6 (ix3 p r o)
      = Cert.Spec.lin (fun i => x (ix3 p r i)) (fun o i => w (ix2 o i)) (fun o => b (ix1 o)) o := by
  have hlt : p.val * 8 + r.val < 512 := by have := p.isLt; have := r.isLt; omega
  rw [unflatten3 _ h6 p r o ⟨p.val * 8 + r.val, hlt⟩ rfl, addf_apply, biasRow]
  refine congrArg (· + _) ?_
  refine (mm_512x512_32 _ _ _ _).trans (Finset.sum_congr rfl fun k _ => ?_)
  rw [truncf_apply, flatten3 x h1 p r k ⟨p.val * 8 + r.val, hlt⟩ rfl, shapeCast_self]

/-- 16 rows of 512 per block through a weight matrix [32, 512] stored by rows, plus a bias, at (p, r, o). -/
theorem lin_16_512_32 {φw : FTy} (x : FVec Ideal S64x16x512 .f32) (w : FVec Ideal S32x512 φw) (b : FVec Ideal S32 .f32)
    (h1 : S64x16x512.ShapeCasts S1024x512) (hb : FTy.bf16.bits < FTy.f32.bits) (hc : S32x512.ShapeCasts S32x512)
    (h4 : S32.ShapeCasts S1x32) (h5 : S1x32.Broadcasts S1024x32) (h6 : S1024x32.ShapeCasts S64x16x32)
    (p : Fin 64) (r : Fin 16) (o : Fin 32) :
    shapeCast S64x16x32 (addf (matmul dot_S1024x512_S32x512_S1024x32_1_1_0_0_n_n none (truncf .bf16 (shapeCast S1024x512 x h1) hb) (shapeCast S32x512 w hc)
        (constant S1024x32 .f32 0x00000000#32)) (broadcastTo S1024x32 (shapeCast S1x32 b h4) h5)) h6 (ix3 p r o)
      = Cert.Spec.lin (fun i => x (ix3 p r i)) (fun o i => w (ix2 o i)) (fun o => b (ix1 o)) o := by
  have hlt : p.val * 16 + r.val < 1024 := by have := p.isLt; have := r.isLt; omega
  rw [unflatten3 _ h6 p r o ⟨p.val * 16 + r.val, hlt⟩ rfl, addf_apply, biasRow]
  refine congrArg (· + _) ?_
  refine (mm_1024x512_32 _ _ _ _).trans (Finset.sum_congr rfl fun k _ => ?_)
  rw [truncf_apply, flatten3 x h1 p r k ⟨p.val * 16 + r.val, hlt⟩ rfl, shapeCast_self]

/-- 16 rows of 512 per block through a weight matrix [512, 512] stored by rows, plus a bias, at (p, r, o). -/
theorem lin_16_512_512 {φw : FTy} (x : FVec Ideal S64x16x512 .f32) (w : FVec Ideal S512x512 φw) (b : FVec Ideal S512 .f32)
    (h1 : S64x16x512.ShapeCasts S1024x512) (hb : FTy.bf16.bits < FTy.f32.bits) (hc : S512x512.ShapeCasts S512x512)
    (h4 : S512.ShapeCasts S1x512) (h5 : S1x512.Broadcasts S1024x512) (h6 : S1024x512.ShapeCasts S64x16x512)
    (p : Fin 64) (r : Fin 16) (o : Fin 512) :
    shapeCast S64x16x512 (addf (matmul dot_S1024x512_S512x512_S1024x512_1_1_0_0_n_n none (truncf .bf16 (shapeCast S1024x512 x h1) hb) (shapeCast S512x512 w hc)
        (constant S1024x512 .f32 0x00000000#32)) (broadcastTo S1024x512 (shapeCast S1x512 b h4) h5)) h6 (ix3 p r o)
      = Cert.Spec.lin (fun i => x (ix3 p r i)) (fun o i => w (ix2 o i)) (fun o => b (ix1 o)) o := by
  have hlt : p.val * 16 + r.val < 1024 := by have := p.isLt; have := r.isLt; omega
  rw [unflatten3 _ h6 p r o ⟨p.val * 16 + r.val, hlt⟩ rfl, addf_apply, biasRow]
  refine congrArg (· + _) ?_
  refine (mm_1024x512_512 _ _ _ _).trans (Finset.sum_congr rfl fun k _ => ?_)
  rw [truncf_apply, flatten3 x h1 p r k ⟨p.val * 16 + r.val, hlt⟩ rfl, shapeCast_self]

/-- 8 rows of 512 per block through a weight matrix [512, 512] stored by rows, plus a bias, at (p, r, o). -/
theorem lin_8_512_512 {φw : FTy} (x : FVec Ideal S64x8x512 .f32) (w : FVec Ideal S512x512 φw) (b : FVec Ideal S512 .f32)
    (h1 : S64x8x512.ShapeCasts S512x512) (hb : FTy.bf16.bits < FTy.f32.bits) (hc : S512x512.ShapeCasts S512x512)
    (h4 : S512.ShapeCasts S1x512) (h5 : S1x512.Broadcasts S512x512) (h6 : S512x512.ShapeCasts S64x8x512)
    (p : Fin 64) (r : Fin 8) (o : Fin 512) :
    shapeCast S64x8x512 (addf (matmul dot_S512x512_S512x512_S512x512_1_1_0_0_n_n none (truncf .bf16 (shapeCast S512x512 x h1) hb) (shapeCast S512x512 w hc)
        (constant S512x512 .f32 0x00000000#32)) (broadcastTo S512x512 (shapeCast S1x512 b h4) h5)) h6 (ix3 p r o)
      = Cert.Spec.lin (fun i => x (ix3 p r i)) (fun o i => w (ix2 o i)) (fun o => b (ix1 o)) o := by
  have hlt : p.val * 8 + r.val < 512 := by have := p.isLt; have := r.isLt; omega
  rw [unflatten3 _ h6 p r o ⟨p.val * 8 + r.val, hlt⟩ rfl, addf_apply, biasRow]
  refine congrArg (· + _) ?_
  refine (mm_512x512_512 _ _ _ _).trans (Finset.sum_congr rfl fun k _ => ?_)
  rw [truncf_apply, flatten3 x h1 p r k ⟨p.val * 8 + r.val, hlt⟩ rfl, shapeCast_self]

/-- 8 rows of 512 per block through a weight matrix [1024, 512] stored by rows, plus a bias, at (p, r, o). -/
theorem lin_8_512_1024 {φw : FTy} (x : FVec Ideal S64x8x512 .f32) (w : FVec Ideal S1024x512 φw) (b : FVec Ideal S1024 .f32)
    (h1 : S64x8x512.ShapeCasts S512x512) (hb : FTy.bf16.bits < FTy.f32.bits) (hc : S1024x512.ShapeCasts S1024x512)
    (h4 : S1024.ShapeCasts S1x1024) (h5 : S1x1024.Broadcasts S512x1024) (h6 : S512x1024.ShapeCasts S64x8x1024)
    (p : Fin 64) (r : Fin 8) (o : Fin 1024) :
    shapeCast S64x8x1024 (addf (matmul dot_S512x512_S1024x512_S512x1024_1_1_0_0_n_n none (truncf .bf16 (shapeCast S512x512 x h1) hb) (shapeCast S1024x512 w hc)
        (constant S512x1024 .f32 0x00000000#32)) (broadcastTo S512x1024 (shapeCast S1x1024 b h4) h5)) h6 (ix3 p r o)
      = Cert.Spec.lin (fun i => x (ix3 p r i)) (fun o i => w (ix2 o i)) (fun o => b (ix1 o)) o := by
  have hlt : p.val * 8 + r.val < 512 := by have := p.isLt; have := r.isLt; omega
  rw [unflatten3 _ h6 p r o ⟨p.val * 8 + r.val, hlt⟩ rfl, addf_apply, biasRow]
  refine congrArg (· + _) ?_
  refine (mm_512x512_1024 _ _ _ _).trans (Finset.sum_congr rfl fun k _ => ?_)
  rw [truncf_apply, flatten3 x h1 p r k ⟨p.val * 8 + r.val, hlt⟩ rfl, shapeCast_self]

/-- 8 rows of 512 per block through a weight matrix [128, 512] stored by rows, plus a bias, at (p, r, o). -/
theorem lin_8_512_128 {φw : FTy} (x : FVec Ideal S64x8x512 .f32) (w : FVec Ideal S128x512 φw) (b : FVec Ideal S128 .f32)
    (h1 : S64x8x512.ShapeCasts S512x512) (hb : FTy.bf16.bits < FTy.f32.bits) (hc : S128x512.ShapeCasts S128x512)
    (h4 : S128.ShapeCasts S1x128) (h5 : S1x128.Broadcasts S512x128) (h6 : S512x128.ShapeCasts S64x8x128)
    (p : Fin 64) (r : Fin 8) (o : Fin 128) :
    shapeCast S64x8x128 (addf (matmul dot_S512x512_S128x512_S512x128_1_1_0_0_n_n none (truncf .bf16 (shapeCast S512x512 x h1) hb) (shapeCast S128x512 w hc)
        (constant S512x128 .f32 0x00000000#32)) (broadcastTo S512x128 (shapeCast S1x128 b h4) h5)) h6 (ix3 p r o)
      = Cert.Spec.lin (fun i => x (ix3 p r i)) (fun o i => w (ix2 o i)) (fun o => b (ix1 o)) o := by
  have hlt : p.val * 8 + r.val < 512 := by have := p.isLt; have := r.isLt; omega
  rw [unflatten3 _ h6 p r o ⟨p.val * 8 + r.val, hlt⟩ rfl, addf_apply, biasRow]
  refine congrArg (· + _) ?_
  refine (mm_512x512_128 _ _ _ _).trans (Finset.sum_congr rfl fun k _ => ?_)
  rw [truncf_apply, flatten3 x h1 p r k ⟨p.val * 8 + r.val, hlt⟩ rfl, shapeCast_self]

/-- 8 rows of 512 per block through a weight matrix [2048, 512] stored by rows, plus a bias, at (p, r, o). -/
theorem lin_8_512_2048 {φw : FTy} (x : FVec Ideal S64x8x512 .f32) (w : FVec Ideal S2048x512 φw) (b : FVec Ideal S2048 .f32)
    (h1 : S64x8x512.ShapeCasts S512x512) (hb : FTy.bf16.bits < FTy.f32.bits) (hc : S2048x512.ShapeCasts S2048x512)
    (h4 : S2048.ShapeCasts S1x2048) (h5 : S1x2048.Broadcasts S512x2048) (h6 : S512x2048.ShapeCasts S64x8x2048)
    (p : Fin 64) (r : Fin 8) (o : Fin 2048) :
    shapeCast S64x8x2048 (addf (matmul dot_S512x512_S2048x512_S512x2048_1_1_0_0_n_n none (truncf .bf16 (shapeCast S512x512 x h1) hb) (shapeCast S2048x512 w hc)
        (constant S512x2048 .f32 0x00000000#32)) (broadcastTo S512x2048 (shapeCast S1x2048 b h4) h5)) h6 (ix3 p r o)
      = Cert.Spec.lin (fun i => x (ix3 p r i)) (fun o i => w (ix2 o i)) (fun o => b (ix1 o)) o := by
  have hlt : p.val * 8 + r.val < 512 := by have := p.isLt; have := r.isLt; omega
  rw [unflatten3 _ h6 p r o ⟨p.val * 8 + r.val, hlt⟩ rfl, addf_apply, biasRow]
  refine congrArg (· + _) ?_
  refine (mm_512x512_2048 _ _ _ _).trans (Finset.sum_congr rfl fun k _ => ?_)
  rw [truncf_apply, flatten3 x h1 p r k ⟨p.val * 8 + r.val, hlt⟩ rfl, shapeCast_self]

end Cert.KerLin

end
-- ==== Proof.KerJoin.lean ====
/-
  Arrays joined along an axis, read at coordinates: two stacks of rows joined along the row axis of [A, ·, I] (the
  first array's rows, then the second's), and four arrays [A, R, E] laid side by side along the last axis.
-/
import Idealize.ShloMosaic.Lib.Pipeline.Value
import Idealize.ShloMosaic.Lib.ValueIdx

namespace Cert.KerJoin

open Idealize.ShloMosaic Idealize.ShloMosaic.ValueIdx

variable {α : Type}

/-- Rows joined: a row below the first array's height is that array's row. -/
theorem joinRows_left {A R1 R2 R I : ℕ} (x1 : (⟨3, ![A, R1, I]⟩ : Shape).Idx → α) (x2 : (⟨3, ![A, R2, I]⟩ : Shape).Idx → α)
    (h : Shape.Concatenates [⟨3, ![A, R1, I]⟩, ⟨3, ![A, R2, I]⟩] ⟨3, ![A, R, I]⟩ 1)
    (p : Fin A) (r : Fin R) (i : Fin I) (r1 : Fin R1) (hr : r.val = r1.val) :
    concatenate ⟨3, ![A, R, I]⟩ 1 [⟨⟨3, ![A, R1, I]⟩, x1⟩, ⟨⟨3, ![A, R2, I]⟩, x2⟩] h (ix3 p r i) = x1 (ix3 p r1 i) :=
  concatenate_apply_piece 1 [⟨⟨3, ![A, R1, I]⟩, x1⟩, ⟨⟨3, ![A, R2, I]⟩, x2⟩] h (ix3 p r i) 0 (by simp) _ x1 rfl rfl 0 (by simp) (ix3 p r1 i)
    (fun b hb => by
      match b with
      | ⟨0, _⟩ => rfl
      | ⟨1, _⟩ => exact absurd rfl hb
      | ⟨2, _⟩ => rfl)
    (by show 0 + r1.val = r.val; omega)

/-- Rows joined: a row from the first array's height on is the second array's row. -/
theorem joinRows_right {A R1 R2 R I : ℕ} (x1 : (⟨3, ![A, R1, I]⟩ : Shape).Idx → α) (x2 : (⟨3, ![A, R2, I]⟩ : Shape).Idx → α)
    (h : Shape.Concatenates [⟨3, ![A, R1, I]⟩, ⟨3, ![A, R2, I]⟩] ⟨3, ![A, R, I]⟩ 1)
    (p : Fin A) (r : Fin R) (i : Fin I) (r2 : Fin R2) (hr : r.val = R1 + r2.val) :
    concatenate ⟨3, ![A, R, I]⟩ 1 [⟨⟨3, ![A, R1, I]⟩, x1⟩, ⟨⟨3, ![A, R2, I]⟩, x2⟩] h (ix3 p r i) = x2 (ix3 p r2 i) :=
  concatenate_apply_piece 1 [⟨⟨3, ![A, R1, I]⟩, x1⟩, ⟨⟨3, ![A, R2, I]⟩, x2⟩] h (ix3 p r i) 1 (by simp) _ x2 rfl rfl R1 (by simp) (ix3 p r2 i)
    (fun b hb => by
      match b with
      | ⟨0, _⟩ => rfl
      | ⟨1, _⟩ => exact absurd rfl hb
      | ⟨2, _⟩ => rfl)
    (by show R1 + r2.val = r.val; omega)

/-- Four arrays side by side along the last axis: column `j = n·E + d` is column `d` of array `n`. -/
theorem sideBySide4 {A R E W : ℕ} (x : Fin 4 → (⟨3, ![A, R, E]⟩ : Shape).Idx → α)
    (h : Shape.Concatenates [⟨3, ![A, R, E]⟩, ⟨3, ![A, R, E]⟩, ⟨3, ![A, R, E]⟩, ⟨3, ![A, R, E]⟩] ⟨3, ![A, R, W]⟩ 2)
    (p : Fin A) (r : Fin R) (j : Fin W) (n : Fin 4) (d : Fin E) (hj : j.val = n.val * E + d.val) :
    concatenate ⟨3, ![A, R, W]⟩ 2 [⟨⟨3, ![A, R, E]⟩, x 0⟩, ⟨⟨3, ![A, R, E]⟩, x 1⟩, ⟨⟨3, ![A, R, E]⟩, x 2⟩, ⟨⟨3, ![A, R, E]⟩, x 3⟩] h (ix3 p r j)
      = x n (ix3 p r d) := by
  have hoff : ∀ b : Fin 3, b.cast (rfl : (3 : ℕ) = 3) ≠ (2 : Fin 3) → ((ix3 p r d) b).val = ((ix3 p r j) (b.cast rfl)).val := fun b hb => by
    match b with
    | ⟨0, _⟩ => rfl
    | ⟨1, _⟩ => rfl
    | ⟨2, _⟩ => exact absurd rfl hb
  match n with
  | ⟨0, _⟩ =>
    exact concatenate_apply_piece 2 [⟨⟨3, ![A, R, E]⟩, x 0⟩, ⟨⟨3, ![A, R, E]⟩, x 1⟩, ⟨⟨3, ![A, R, E]⟩, x 2⟩, ⟨⟨3, ![A, R, E]⟩, x 3⟩] h (ix3 p r j) 0 (by simp) _ (x 0) rfl rfl 0 (by simp) (ix3 p r d) hoff
      (by show 0 + d.val = j.val; simp at hj; omega)
  | ⟨1, _⟩ =>
    exact concatenate_apply_piece 2 [⟨⟨3, ![A, R, E]⟩, x 0⟩, ⟨⟨3, ![A, R, E]⟩, x 1⟩, ⟨⟨3, ![A, R, E]⟩, x 2⟩, ⟨⟨3, ![A, R, E]⟩, x 3⟩] h (ix3 p r j) 1 (by simp) _ (x 1) rfl rfl E (by simp) (ix3 p r d) hoff
      (by show E + d.val = j.val; simp at hj; omega)
  | ⟨2, _⟩ =>
    exact concatenate_apply_piece 2 [⟨⟨3, ![A, R, E]⟩, x 0⟩, ⟨⟨3, ![A, R, E]⟩, x 1⟩, ⟨⟨3, ![A, R, E]⟩, x 2⟩, ⟨⟨3, ![A, R, E]⟩, x 3⟩] h (ix3 p r j) 2 (by simp) _ (x 2) rfl rfl (E + E) (by simp) (ix3 p r d) hoff
      (by show E + E + d.val = j.val; simp at hj; omega)
  | ⟨3, _⟩ =>
    exact concatenate_apply_piece 2 [⟨⟨3, ![A, R, E]⟩, x 0⟩, ⟨⟨3, ![A, R, E]⟩, x 1⟩, ⟨⟨3, ![A, R, E]⟩, x 2⟩, ⟨⟨3, ![A, R, E]⟩, x 3⟩] h (ix3 p r j) 3 (by simp) _ (x 3) rfl rfl (E + (E + E)) (by simp) (ix3 p r d) hoff
      (by show E + (E + E) + d.val = j.val; simp at hj; omega)

end Cert.KerJoin
-- ==== Proof.KerScale.lean ====
/-
  The score scale. The kernel multiplies every score by one single-precision constant, named in its idealized text
  as the exact reciprocal 2097152/11863283 of the number D = 11863283/2097152 by which the reference divides: on the
  extended reals dividing by D and multiplying by 1/D are the same function.
-/
import proofs.«133350_j9835475108028_2_alg».proof.Proof.Gen.KernelIdeal
import proofs.«133350_j9835475108028_2_alg».proof.Proof.AttnSpec
noncomputable section
namespace Cert.KerScale
open Cert.KernelIdeal Idealize.ShloMosaic

/-- The named constant's value. -/
theorem named_val : Named.named (F := Ideal) Cert.KernelIdeal.κ "inv_sqrt_key" (φ := .f32) 0x3E3504F3#32 = ((2097152 / 11863283 : ℝ) : EReal) :=
  IdealRules.named_const.ideal_named_scalar _ _ _ _ rfl

/-- The divisor's value, from its bit pattern. -/
theorem D_val : Cert.Spec.D = ((11863283 / 2097152 : ℝ) : EReal) := by
  unfold Cert.Spec.D
  simp [Ideal.ofBits, Ideal.ieee, -EReal.coe_mul]
  norm_num

/-- Multiplying by the named reciprocal is dividing by `D`. -/
theorem scale_eq (x : EReal) :
    x * Named.named (F := Ideal) Cert.KernelIdeal.κ "inv_sqrt_key" (φ := .f32) 0x3E3504F3#32 = Ideal.div x Cert.Spec.D := by
  rw [named_val, D_val, Ideal.div_coe (by norm_num : (11863283 / 2097152 : ℝ) ≠ 0)]
  congr 2
  norm_num
end Cert.KerScale
end
-- ==== Proof.KerRead.lean ====
/-
  The read attention and the new input rows, as the kernel's body computes them for one block. The queries, keys and
  values of all four heads are projected at once ([64, 8, 128], [64, 8, 128], [64, 8, 2048]); head h works on the bands
  32 h … 32 h + 31 of queries and keys and 512 h … 512 h + 511 of values. The four heads' results are laid side by
  side, sent through the output matrix, and added to the input rows with the output bias.
-/
import proofs.«133350_j9835475108028_2_alg».proof.Proof.KerHead
import proofs.«133350_j9835475108028_2_alg».proof.Proof.KerLin
import proofs.«133350_j9835475108028_2_alg».proof.Proof.KerJoin
import proofs.«133350_j9835475108028_2_alg».proof.Proof.KerScale

noncomputable section

namespace Cert.KerRead

open Cert.KernelIdeal Cert.KernelIdeal.Gen Cert.KerLayout Cert.KerReduce Cert.KerAttn Cert.KerMatmul Cert.KerLin Cert.KerHead Cert.KerJoin
open Idealize.ShloMosaic Idealize.ShloMosaic.ValueIdx
open Cert.Spec (rowsAt lin smx)

/-- A head's scaled scores from the projected queries and keys, the head's band starting at `oq`. -/
def scoreAt (QA KA : Fin 8 → Fin 128 → EReal) (oq : ℕ) (hoq : oq + 32 ≤ 128) (n s : Fin 8) : EReal :=
  Ideal.div (∑ o : Fin 32, QA n ⟨oq + o.val, by have := o.isLt; omega⟩ * KA s ⟨oq + o.val, by have := o.isLt; omega⟩) Cert.Spec.D

/-- What a head gathers, its value band starting at `ov`. -/
def ctxAt (QA KA : Fin 8 → Fin 128 → EReal) (VA : Fin 8 → Fin 2048 → EReal) (oq : ℕ) (hoq : oq + 32 ≤ 128)
    (ov : ℕ) (hov : ov + 512 ≤ 2048) (n : Fin 8) (d : Fin 512) : EReal :=
  ∑ s : Fin 8, smx (scoreAt QA KA oq hoq n) s * VA s ⟨ov + d.val, by have := d.isLt; omega⟩

section
variable (v110 v120 : FVec Ideal S64x8x128 .f32) (p : Fin 64)
  (QA KA : Fin 8 → Fin 128 → EReal) (hQ : ∀ n j, v110 (ix3 p n j) = QA n j) (hK : ∀ s j, v120 (ix3 p s j) = KA s j)

include hQ hK in
/-- The kernel's scaled scores of a head are `scoreAt`. -/
theorem score_eq (oq : ℕ) (hoq : oq + 32 ≤ 128) (hsq : S64x8x128.Slices ![0, 0, oq] S64x8x32)
    (h1 : S64x8x32.ShapeCasts S64x8x1x32) (h2 : S64x8x1x32.Broadcasts S64x8x8x32)
    (h3 : S64x8x32.ShapeCasts S64x1x8x32) (h4 : S64x1x8x32.Broadcasts S64x8x8x32)
    (h : S64x8x8x32.Reduces [3] S64x8x8) (hφ : FKind.Formats FTy.f32)
    (hacc : (0x00000000#32 : BitVec FTy.f32.bits) = FKind.add.neutral FTy.f32 hφ) (n s : Fin 8) :
    mulf (multiReduction .add [3] S64x8x8
        (mulf (broadcastTo S64x8x8x32 (shapeCast S64x8x1x32 (extractStridedSlice S64x8x32 ![0, 0, oq] v110 hsq) h1) h2)
          (broadcastTo S64x8x8x32 (shapeCast S64x1x8x32 (extractStridedSlice S64x8x32 ![0, 0, oq] v120 hsq) h3) h4))
        0x00000000#32 h hφ hacc) (broadcast S64x8x8 (Named.named (F := Ideal) κ "inv_sqrt_key" (φ := .f32) 0x3E3504F3#32)) (ix3 p n s)
      = scoreAt QA KA oq hoq n s := by
  refine (headScore v110 v120 oq hoq hsq h1 h2 h3 h4 h hφ hacc _ p n s).trans ?_
  refine (Cert.KerScale.scale_eq _).trans ?_
  unfold scoreAt
  refine congrArg (Ideal.div · Cert.Spec.D) (Finset.sum_congr rfl fun o _ => ?_)
  rw [hQ, hK]

end

/-- The projected queries of a block element: the input rows through the query matrix. -/
theorem queries_eq (v0 : Vec Ideal S64x8x512 .f32) (v101 : Vec Ideal S128x512 .bf16) (v103 : Vec Ideal S128 .f32)
    (p : Fin 64) (n : Fin 8) (j : Fin 128) :
    k0_pay8 (F := Ideal) v0 v101 v103 (ix3 p n j) = lin (rowsAt v0 p n) (fun o i => v101 (ix2 o i)) (fun o => v103 (ix1 o)) j := by
  unfold k0_pay8
  exact lin_8_512_128 _ _ _ _ _ _ _ _ _ p n j

/-- The projected keys: the new memory rows through the key matrix. -/
theorem keys_eq (v1 : Vec Ideal S64x8x512 .f32) (v64 v83 : FVec Ideal S64x8x512 .f32) (v84 : Vec Ideal S1024x512 .bf16)
    (v86 : Vec Ideal S1024 .f32) (v111 : Vec Ideal S128x512 .bf16) (v113 : Vec Ideal S128 .f32) (p : Fin 64)
    (MN : Fin 8 → Fin 512 → EReal) (hMN : ∀ s i, k0_pay7 (F := Ideal) v1 v64 v83 v84 v86 (ix3 p s i) = MN s i)
    (s : Fin 8) (j : Fin 128) :
    k0_pay9 (F := Ideal) v1 v64 v83 v84 v86 v111 v113 (ix3 p s j) = lin (MN s) (fun o i => v111 (ix2 o i)) (fun o => v113 (ix1 o)) j := by
  unfold k0_pay9
  refine (lin_8_512_128 _ _ _ _ _ _ _ _ _ p s j).trans ?_
  exact congrArg (fun x => lin x _ _ j) (funext fun i => hMN s i)

/-- The projected values: the new memory rows through the value matrix. -/
theorem vals_eq (v1 : Vec Ideal S64x8x512 .f32) (v64 v83 : FVec Ideal S64x8x512 .f32) (v84 : Vec Ideal S1024x512 .bf16)
    (v86 : Vec Ideal S1024 .f32) (v121 : Vec Ideal S2048x512 .bf16) (v123 : Vec Ideal S2048 .f32) (p : Fin 64)
    (MN : Fin 8 → Fin 512 → EReal) (hMN : ∀ s i, k0_pay7 (F := Ideal) v1 v64 v83 v84 v86 (ix3 p s i) = MN s i)
    (s : Fin 8) (j : Fin 2048) :
    k0_pay12 (F := Ideal) (k0_pay10 v1 v64 v83 v84 v86 v121) (k0_pay11 v123) (ix3 p s j)
      = lin (MN s) (fun o i => v121 (ix2 o i)) (fun o => v123 (ix1 o)) j := by
  unfold k0_pay12 k0_pay10 k0_pay11
  refine (lin_8_512_2048 _ _ _ _ _ _ _ _ _ p s j).trans ?_
  exact congrArg (fun x => lin x _ _ j) (funext fun i => hMN s i)

section
variable (v110 v120 : FVec Ideal S64x8x128 .f32) (p : Fin 64)
  (QA KA : Fin 8 → Fin 128 → EReal) (hQ : ∀ n j, v110 (ix3 p n j) = QA n j) (hK : ∀ s j, v120 (ix3 p s j) = KA s j)
  (VA : Fin 8 → Fin 2048 → EReal)

include hQ hK in
/-- Head 0, computed in one piece. -/
theorem head0_eq (v126 : FVec Ideal S512x2048 .f32) (v127 : FVec Ideal S1x2048 .f32)
    (hVA : ∀ s j, k0_pay12 (F := Ideal) v126 v127 (ix3 p s j) = VA s j) (n : Fin 8) (d : Fin 512) :
    k0_pay14 (F := Ideal) v110 v120 v126 v127 (ix3 p n d) = ctxAt QA KA VA 0 (by omega) 0 (by omega) n d := by
  unfold k0_pay14
  exact ctxOfScores _ _ p (scoreAt QA KA 0 (by omega)) (fun n u => score_eq v110 v120 p QA KA hQ hK 0 (by omega) _ _ _ _ _ _ _ _ n u)
    (fun s d => VA s ⟨0 + d.val, by have := d.isLt; omega⟩)
    (fun s d => (band3 0 _ _ p s d ⟨0 + d.val, by have := d.isLt; omega⟩ rfl).trans (hVA s _)) _ _ _ _ _ _ _ _ n d

include hQ hK in
/-- Head 1: its scores shifted by their row maximum. -/
theorem head1_shifted_eq (n u : Fin 8) :
    k0_pay16 (F := Ideal) v110 v120 (ix3 p n u)
      = scoreAt QA KA 32 (by omega) n u - Cert.Spec.rowMax (scoreAt QA KA 32 (by omega) n) := by
  unfold k0_pay16
  refine (shifted _ _ _ _ _ _ p n u).trans ?_
  exact congrArg₂ (· - ·) (score_eq v110 v120 p QA KA hQ hK 32 (by omega) _ _ _ _ _ _ _ _ n u)
    (congrArg Cert.Spec.rowMax (funext fun u' => score_eq v110 v120 p QA KA hQ hK 32 (by omega) _ _ _ _ _ _ _ _ n u'))

/-- Head 1's band of the values. -/
theorem head1_vals_eq (v126 : FVec Ideal S512x2048 .f32) (v127 : FVec Ideal S1x2048 .f32)
    (hVA : ∀ s j, k0_pay12 (F := Ideal) v126 v127 (ix3 p s j) = VA s j) (s : Fin 8) (d : Fin 512) :
    k0_pay15 (F := Ideal) v126 v127 (ix3 p s d) = VA s ⟨512 + d.val, by have := d.isLt; omega⟩ := by
  unfold k0_pay15
  exact (band3 512 _ _ p s d ⟨512 + d.val, by have := d.isLt; omega⟩ rfl).trans (hVA s _)

/-- Head 1: what the input rows gather, from the shifted scores and the band of the values. -/
theorem head1_eq (v161 : FVec Ideal S64x8x512 .bf16) (v175 : FVec Ideal S64x8x8 .f32)
    (f : Fin 8 → Fin 8 → EReal) (hZ : ∀ n u, v175 (ix3 p n u) = f n u - Cert.Spec.rowMax (f n))
    (VV : Fin 8 → Fin 512 → EReal) (hV : ∀ s d, v161 (ix3 p s d) = VV s d) (n : Fin 8) (d : Fin 512) :
    k0_pay17 (F := Ideal) v161 v175 (ix3 p n d) = ∑ s : Fin 8, smx (f n) s * VV s d := by
  unfold k0_pay17
  exact ctxOfShifted v175 v161 p f hZ VV hV _ _ _ _ _ _ n d

include hQ hK in
/-- Head 2, computed in one piece. -/
theorem head2_eq (v131 : FVec Ideal S64x8x2048 .bf16) (hVA : ∀ s j, v131 (ix3 p s j) = VA s j) (n : Fin 8) (d : Fin 512) :
    k0_pay18 (F := Ideal) v110 v120 v131 (ix3 p n d) = ctxAt QA KA VA 64 (by omega) 1024 (by omega) n d := by
  unfold k0_pay18
  exact ctxOfScores _ _ p (scoreAt QA KA 64 (by omega)) (fun n u => score_eq v110 v120 p QA KA hQ hK 64 (by omega) _ _ _ _ _ _ _ _ n u)
    (fun s d => VA s ⟨1024 + d.val, by have := d.isLt; omega⟩)
    (fun s d => (band3 1024 _ _ p s d ⟨1024 + d.val, by have := d.isLt; omega⟩ rfl).trans (hVA s _)) _ _ _ _ _ _ _ _ n d

/-- Head 3's band of the values. -/
theorem head3_vals_eq (v131 : FVec Ideal S64x8x2048 .bf16) (hVA : ∀ s j, v131 (ix3 p s j) = VA s j) (s : Fin 8) (d : Fin 512) :
    k0_pay19 (F := Ideal) v131 (ix3 p s d) = VA s ⟨1536 + d.val, by have := d.isLt; omega⟩ := by
  unfold k0_pay19
  exact (band3 1536 _ _ p s d ⟨1536 + d.val, by have := d.isLt; omega⟩ rfl).trans (hVA s _)

include hQ hK in
/-- Head 3's scaled scores. -/
theorem head3_score_eq (n u : Fin 8) :
    k0_pay20 (F := Ideal) v110 v120 (ix3 p n u) = scoreAt QA KA 96 (by omega) n u := by
  unfold k0_pay20
  exact score_eq v110 v120 p QA KA hQ hK 96 (by omega) _ _ _ _ _ _ _ _ n u

end

end Cert.KerRead

end
-- ==== Proof.KerJoin4.lean ====
/-
  Four arrays laid side by side along the last axis, read at a column whose quarter and offset are known: the value
  is whatever the quarter's array holds at the offset.
-/
import proofs.«133350_j9835475108028_2_alg».proof.Proof.KerJoin

namespace Cert.KerJoin

open Idealize.ShloMosaic Idealize.ShloMosaic.ValueIdx

variable {α : Type}

/-- Column `j = n·E + d` of the four arrays side by side is `y`, given that array `n` holds `y` at column `d`. -/
theorem sideBySide4_of {A R E W : ℕ} (x0 x1 x2 x3 : (⟨3, ![A, R, E]⟩ : Shape).Idx → α)
    (h : Shape.Concatenates [⟨3, ![A, R, E]⟩, ⟨3, ![A, R, E]⟩, ⟨3, ![A, R, E]⟩, ⟨3, ![A, R, E]⟩] ⟨3, ![A, R, W]⟩ 2)
    (p : Fin A) (r : Fin R) (j : Fin W) (n : Fin 4) (d : Fin E) (hj : j.val = n.val * E + d.val) (y : α)
    (hy0 : n.val = 0 → x0 (ix3 p r d) = y) (hy1 : n.val = 1 → x1 (ix3 p r d) = y)
    (hy2 : n.val = 2 → x2 (ix3 p r d) = y) (hy3 : n.val = 3 → x3 (ix3 p r d) = y) :
    concatenate ⟨3, ![A, R, W]⟩ 2 [⟨⟨3, ![A, R, E]⟩, x0⟩, ⟨⟨3, ![A, R, E]⟩, x1⟩, ⟨⟨3, ![A, R, E]⟩, x2⟩, ⟨⟨3, ![A, R, E]⟩, x3⟩] h (ix3 p r j)
      = y := by
  refine (sideBySide4 (fun k : Fin 4 => match k with | ⟨0, _⟩ => x0 | ⟨1, _⟩ => x1 | ⟨2, _⟩ => x2 | ⟨3, _⟩ => x3) h p r j n d hj).trans ?_
  match n with
  | ⟨0, _⟩ => exact hy0 rfl
  | ⟨1, _⟩ => exact hy1 rfl
  | ⟨2, _⟩ => exact hy2 rfl
  | ⟨3, _⟩ => exact hy3 rfl

end Cert.KerJoin
-- ==== Proof.KerWrite.lean ====
/-
  The write attention and the candidate memory rows, as the kernel's body computes them for one block of 64 batch
  elements: at block row `p` each intermediate array, read at its coordinates, is the corresponding function of the
  common value at the batch element's input rows `v0 (p, ·, ·)` and memory rows `v1 (p, ·, ·)`.
-/
import proofs.«133350_j9835475108028_2_alg».proof.Proof.Gen.KernelIdeal.Skeleton
import proofs.«133350_j9835475108028_2_alg».proof.Proof.AttnSpec
import proofs.«133350_j9835475108028_2_alg».proof.Proof.KerJoin
import proofs.«133350_j9835475108028_2_alg».proof.Proof.KerLin
import proofs.«133350_j9835475108028_2_alg».proof.Proof.KerSoftmax
import proofs.«133350_j9835475108028_2_alg».proof.Proof.KerScale

noncomputable section

namespace Cert.KerWrite

open Cert.KernelIdeal Cert.KernelIdeal.Gen Cert.KerLayout Cert.KerJoin Cert.KerLin Cert.KerAttn Cert.KerMatmul
open Idealize.ShloMosaic Idealize.ShloMosaic.ValueIdx
open Cert.Spec (rowsAt joined lin smx)

/-- The sixteen joined rows of a block element. -/
theorem joined_eq (v0 v1 : Vec Ideal S64x8x512 .f32) (p : Fin 64) (r : Fin 16) (i : Fin 512) :
    k0_pay2 (F := Ideal) v0 v1 (ix3 p r i) = joined (rowsAt v0 p) (rowsAt v1 p) r i := by
  unfold k0_pay2 joined rowsAt
  by_cases h : r.val < 8
  · rw [dif_pos h]
    exact joinRows_left v0 v1 _ p r i ⟨r.val, h⟩ rfl
  · rw [dif_neg h]
    exact joinRows_right v0 v1 _ p r i ⟨r.val - 8, by have := r.isLt; omega⟩ (by show r.val = 8 + (r.val - 8); omega)

/-- The write values: the joined rows through the value matrix. -/
theorem values_eq (v0 v1 : Vec Ideal S64x8x512 .f32) (v23 : Vec Ideal S512x512 .bf16) (v25 : Vec Ideal S512 .f32)
    (p : Fin 64) (t : Fin 16) (d : Fin 512) :
    k0_pay3 (F := Ideal) v0 v1 v23 v25 (ix3 p t d)
      = lin (joined (rowsAt v0 p) (rowsAt v1 p) t) (fun o i => v23 (ix2 o i)) (fun o => v25 (ix1 o)) d := by
  unfold k0_pay3
  refine (lin_16_512_512 _ _ _ _ _ _ _ _ _ p t d).trans ?_
  exact congrArg (fun x => lin x _ _ d) (funext fun i => joined_eq v0 v1 p t i)

/-- The write scores before scaling: query rows against key rows. -/
theorem rawScores_eq (v0 v1 : Vec Ideal S64x8x512 .f32) (v3 : Vec Ideal S32x512 .bf16) (v5 : Vec Ideal S32 .f32)
    (v13 : Vec Ideal S32x512 .bf16) (v15 : Vec Ideal S32 .f32) (p : Fin 64) (s : Fin 8) (t : Fin 16) :
    k0_pay4 (F := Ideal) v0 v1 v3 v5 v13 v15 (ix3 p s t)
      = ∑ j : Fin 32, lin (rowsAt v1 p s) (fun o i => v3 (ix2 o i)) (fun o => v5 (ix1 o)) j
          * lin (joined (rowsAt v0 p) (rowsAt v1 p) t) (fun o i => v13 (ix2 o i)) (fun o => v15 (ix1 o)) j := by
  unfold k0_pay4
  dsimp only
  refine (rawScore _ _ _ _ _ _ _ _ _ _ p s t).trans (Finset.sum_congr rfl fun j _ => ?_)
  refine congrArg₂ (· * ·) (lin_8_512_32 _ _ _ _ _ _ _ _ _ p s j) ((lin_16_512_32 _ _ _ _ _ _ _ _ _ p t j).trans ?_)
  exact congrArg (fun x => lin x _ _ j) (funext fun i => joined_eq v0 v1 p t i)

/-- The candidate rows from given values and raw scores: softmax of the scaled scores, applied to the values, through
    the output matrix. -/
theorem candidate_eq (v32 : FVec Ideal S64x16x512 .f32) (v38 : FVec Ideal S64x8x16 .f32) (c : Ideal .f32)
    (v55 : Vec Ideal S512x512 .bf16) (v57 : Vec Ideal S512 .f32) (p : Fin 64)
    (V : Fin 16 → Fin 512 → EReal) (hV : ∀ t d, v32 (ix3 p t d) = V t d)
    (R : Fin 8 → Fin 16 → EReal) (hR : ∀ s t, v38 (ix3 p s t) = R s t) (s : Fin 8) (d : Fin 512) :
    k0_pay5 (F := Ideal) v32 v38 c v55 v57 (ix3 p s d)
      = lin (fun i => ∑ t : Fin 16, smx (fun u => R s u * c) t * V t i) (fun o i => v55 (ix2 o i)) (fun o => v57 (ix1 o)) d := by
  unfold k0_pay5
  dsimp only
  refine (lin_8_512_512 _ _ _ _ _ _ _ _ _ p s d).trans ?_
  refine congrArg (fun x => lin x _ _ d) (funext fun i => ?_)
  refine (bmm_16 _ _ p s i).trans (Finset.sum_congr rfl fun t _ => ?_)
  rw [truncf_apply, truncf_apply, hV]
  refine congrArg (· * V t i) ?_
  refine normalised_of _ _ _ _ _ _ p s (fun u => R s u * c) (fun u => ?_) t
  refine (shifted _ _ _ _ _ _ p s u).trans ?_
  have e : ∀ u', mulf v38 (broadcast S64x8x16 c) (ix3 p s u') = R s u' * c := fun u' => by
    rw [mulf_apply, broadcast_apply, hR]
  rw [e]
  exact congrArg (R s u * c - Cert.Spec.rowMax ·) (funext e)

end Cert.KerWrite

end
-- ==== Proof.KerUpdate.lean ====
/-
  The gated update, as the kernel's body computes it for one block: the gate input (the mean over the eight input rows
  of the rectified projection, plus tanh of the memory row), the 1024 gates of a row, and the new memory rows; then the
  whole chain from the block's input rows and memory rows to its new memory rows is the common value's `memNew`.
-/
import proofs.«133350_j9835475108028_2_alg».proof.Proof.KerWrite
import proofs.«133350_j9835475108028_2_alg».proof.Proof.KerReduce

noncomputable section

namespace Cert.KerUpdate

open Cert.KernelIdeal Cert.KernelIdeal.Gen Cert.KerLayout Cert.KerReduce Cert.KerLin Cert.KerWrite
open Idealize.ShloMosaic Idealize.ShloMosaic.ValueIdx
open Cert.Spec (rowsAt joined lin smx)

/-- The gate input of a block element. -/
theorem gateIn_eq (v0 v1 : Vec Ideal S64x8x512 .f32) (v65 : Vec Ideal S512x512 .bf16) (v67 : Vec Ideal S512 .f32)
    (p : Fin 64) (s : Fin 8) (d : Fin 512) :
    k0_pay6 (F := Ideal) v0 v1 v65 v67 (ix3 p s d)
      = Ideal.div (∑ r : Fin 8, max (lin (rowsAt v0 p r) (fun o i => v65 (ix2 o i)) (fun o => v67 (ix1 o)) d) 0) Cert.Spec.eight
        + Ideal.tanh (v1 (ix3 p s d)) := by
  unfold k0_pay6
  dsimp only
  refine congrArg₂ (· + ·) ?_ rfl
  refine (colBroadcast _ _ p s d).trans ?_
  refine congrArg₂ Ideal.div ?_ rfl
  refine (insertMid _ _ p 0 d).trans ?_
  refine (sumMid3 _ _ _ _ _ p d).trans (Finset.sum_congr rfl fun r _ => ?_)
  exact congrArg₂ max (lin_8_512_512 _ _ _ _ _ _ _ _ _ p r d) Ideal.ofBits_zero_f32

/-- The new memory rows from a given candidate and gate input. -/
theorem gated_eq (v1 : Vec Ideal S64x8x512 .f32) (v64 v83 : FVec Ideal S64x8x512 .f32) (v84 : Vec Ideal S1024x512 .bf16)
    (v86 : Vec Ideal S1024 .f32) (p : Fin 64)
    (MW : Fin 8 → Fin 512 → EReal) (hMW : ∀ s d, v64 (ix3 p s d) = MW s d)
    (G : Fin 8 → Fin 512 → EReal) (hG : ∀ s d, v83 (ix3 p s d) = G s d) (s : Fin 8) (d : Fin 512) :
    k0_pay7 (F := Ideal) v1 v64 v83 v84 v86 (ix3 p s d)
      = Ideal.logistic (lin (G s) (fun o i => v84 (ix2 o i)) (fun o => v86 (ix1 o)) ⟨d.val, by omega⟩) * Ideal.tanh (MW s d)
        + Ideal.logistic (lin (G s) (fun o i => v84 (ix2 o i)) (fun o => v86 (ix1 o)) ⟨512 + d.val, by omega⟩) * v1 (ix3 p s d) := by
  unfold k0_pay7
  have hg : ∀ (j : Fin 1024) (y : EReal), y = (shapeCast S64x8x1024 (addf (matmul dot_S512x512_S1024x512_S512x1024_1_1_0_0_n_n none
        (truncf .bf16 (shapeCast S512x512 v83 shapeCasts_S64x8x512_S512x512) bitsLt_bf16_f32)
        (shapeCast S1024x512 v84 shapeCasts_S1024x512_S1024x512 : FVec Ideal S1024x512 .bf16) (constant S512x1024 .f32 0x00000000#32))
        (broadcastTo S512x1024 (shapeCast S1x1024 v86 shapeCasts_S1024_S1x1024 : FVec Ideal S1x1024 .f32) broadcasts_S1x1024_S512x1024))
        shapeCasts_S512x1024_S64x8x1024 : FVec Ideal S64x8x1024 .f32) (ix3 p s j) →
      Ideal.logistic y = Ideal.logistic (lin (G s) (fun o i => v84 (ix2 o i)) (fun o => v86 (ix1 o)) j) := fun j y hy =>
    congrArg Ideal.logistic (hy.trans ((lin_8_512_1024 _ _ _ _ _ _ _ _ _ p s j).trans
      (congrArg (fun x => lin x _ _ j) (funext fun i => hG s i))))
  refine congrArg₂ (· + ·) (congrArg₂ (· * ·) ?_ (congrArg Ideal.tanh (hMW s d))) (congrArg₂ (· * ·) ?_ rfl)
  · exact (band3 0 _ _ p s d ⟨d.val, by omega⟩ (by simp)).trans (hg _ _ rfl)
  · exact (band3 512 _ _ p s d ⟨512 + d.val, by omega⟩ rfl).trans (hg _ _ rfl)

end Cert.KerUpdate

end
-- ==== Proof.KerMemNew.lean ====
/-
  The new memory rows of a block, end to end: from the block's input rows, memory rows and the weights to the common
  value's `memNew` at the batch element. The scaled scores meet the common value's through the score scale: the
  kernel multiplies by the named reciprocal where the common value divides by `D`.
-/
import proofs.«133350_j9835475108028_2_alg».proof.Proof.KerUpdate

noncomputable section

namespace Cert.KerMemNew

open Cert.KernelIdeal Cert.KernelIdeal.Gen Cert.KerWrite Cert.KerUpdate
open Idealize.ShloMosaic Idealize.ShloMosaic.ValueIdx
open Cert.Spec (rowsAt joined lin smx)

/-- The kernel's candidate rows are the common value's `memWrite`. -/
theorem memWrite_block (x0 x1 : Vec Ideal S64x8x512 .f32) (x2 : Vec Ideal S32x512 .bf16) (x3 : Vec Ideal S32 .f32)
    (x4 : Vec Ideal S32x512 .bf16) (x5 : Vec Ideal S32 .f32) (x6 : Vec Ideal S512x512 .bf16) (x7 : Vec Ideal S512 .f32)
    (x8 : Vec Ideal S512x512 .bf16) (x9 : Vec Ideal S512 .f32) (x10 : Vec Ideal S512x512 .bf16) (x11 : Vec Ideal S512 .f32)
    (x12 : Vec Ideal S1024x512 .bf16) (x13 : Vec Ideal S1024 .f32) (x14 : Vec Ideal S128x512 .bf16) (x15 : Vec Ideal S128 .f32)
    (x16 : Vec Ideal S128x512 .bf16) (x17 : Vec Ideal S128 .f32) (x18 : Vec Ideal S2048x512 .bf16) (x19 : Vec Ideal S2048 .f32)
    (x20 : Vec Ideal S512x2048 .bf16) (x21 : Vec Ideal S512 .f32)
    (p : Fin 64) (s : Fin 8) (d : Fin 512) :
    k0_pay5 (F := Ideal) (k0_pay3 x0 x1 x6 x7) (k0_pay4 x0 x1 x2 x3 x4 x5) (Named.named κ "inv_sqrt_key" 0x3E3504F3#32) x8 x9 (ix3 p s d)
      = Cert.Spec.memWrite (Cert.Spec.weightsOf x2 x3 x4 x5 x6 x7 x8 x9 x10 x11 x12 x13 x14 x15 x16 x17 x18 x19 x20 x21) (rowsAt x0 p) (rowsAt x1 p) s d := by
  refine (candidate_eq _ _ _ x8 x9 p _ (fun t d => values_eq x0 x1 x6 x7 p t d) _ (fun s t => rawScores_eq x0 x1 x2 x3 x4 x5 p s t) s d).trans ?_
  refine congrArg (fun x => lin x _ _ d) (funext fun i => ?_)
  show _ = ∑ t : Fin 16, smx (Cert.Spec.score (Cert.Spec.wQ _ _) (Cert.Spec.wK _ _ _) s) t * Cert.Spec.wV _ _ _ t i
  refine Finset.sum_congr rfl fun t _ => ?_
  refine congrArg (fun f => smx f t * _) (funext fun u => ?_)
  exact Cert.KerScale.scale_eq _

/-- The kernel's new memory rows are the common value's `memNew`. -/
theorem memNew_block (x0 x1 : Vec Ideal S64x8x512 .f32) (x2 : Vec Ideal S32x512 .bf16) (x3 : Vec Ideal S32 .f32)
    (x4 : Vec Ideal S32x512 .bf16) (x5 : Vec Ideal S32 .f32) (x6 : Vec Ideal S512x512 .bf16) (x7 : Vec Ideal S512 .f32)
    (x8 : Vec Ideal S512x512 .bf16) (x9 : Vec Ideal S512 .f32) (x10 : Vec Ideal S512x512 .bf16) (x11 : Vec Ideal S512 .f32)
    (x12 : Vec Ideal S1024x512 .bf16) (x13 : Vec Ideal S1024 .f32) (x14 : Vec Ideal S128x512 .bf16) (x15 : Vec Ideal S128 .f32)
    (x16 : Vec Ideal S128x512 .bf16) (x17 : Vec Ideal S128 .f32) (x18 : Vec Ideal S2048x512 .bf16) (x19 : Vec Ideal S2048 .f32)
    (x20 : Vec Ideal S512x2048 .bf16) (x21 : Vec Ideal S512 .f32)
    (p : Fin 64) (s : Fin 8) (d : Fin 512) :
    k0_pay7 (F := Ideal) x1 (k0_pay5 (k0_pay3 x0 x1 x6 x7) (k0_pay4 x0 x1 x2 x3 x4 x5) (Named.named κ "inv_sqrt_key" 0x3E3504F3#32) x8 x9)
        (k0_pay6 x0 x1 x10 x11) x12 x13 (ix3 p s d)
      = Cert.Spec.memNew (Cert.Spec.weightsOf x2 x3 x4 x5 x6 x7 x8 x9 x10 x11 x12 x13 x14 x15 x16 x17 x18 x19 x20 x21) (rowsAt x0 p) (rowsAt x1 p) s d :=
  gated_eq x1 _ _ x12 x13 p _ (fun s d => memWrite_block x0 x1 x2 x3 x4 x5 x6 x7 x8 x9 x10 x11 x12 x13 x14 x15 x16 x17 x18 x19 x20 x21 p s d)
    _ (fun s d => gateIn_eq x0 x1 x10 x11 p s d) s d

end Cert.KerMemNew

end
-- ==== Proof.KerOut.lean ====
/-
  The new input rows of a block. The last stretch of the body finishes head 3 (its scores arrive scaled, its row
  maxima computed beside them), lays the four heads' results side by side as [64, 8, 2048], sends the 512 rows through
  the output matrix [512, 2048], and adds the input rows and the output bias. Then the whole chain from the block's
  input rows, memory rows and the weights is the common value's `hOut`.
-/
import proofs.«133350_j9835475108028_2_alg».proof.Proof.KerRead
import proofs.«133350_j9835475108028_2_alg».proof.Proof.KerJoin4
import proofs.«133350_j9835475108028_2_alg».proof.Proof.KerMemNew

noncomputable section

namespace Cert.KerOut

open Cert.KernelIdeal Cert.KernelIdeal.Gen Cert.KerLayout Cert.KerMatmul Cert.KerHead Cert.KerJoin Cert.KerRead
open Idealize.ShloMosaic Idealize.ShloMosaic.ValueIdx
open Cert.Spec (rowsAt lin smx)

/-- The last stretch: from the three finished heads, head 3's scores and values, to the new input rows. -/
theorem last_eq (v0 : Vec Ideal S64x8x512 .f32) (v133 : FVec Ideal S512x2048 .bf16) (v158 v183 v208 v211 : FVec Ideal S64x8x512 .bf16)
    (v110 v120 : FVec Ideal S64x8x128 .f32) (v239 : Vec Ideal S512 .f32) (p : Fin 64)
    (C : Fin 4 → Fin 8 → Fin 512 → EReal)
    (h0 : ∀ n d, v158 (ix3 p n d) = C 0 n d) (h1 : ∀ n d, v183 (ix3 p n d) = C 1 n d) (h2 : ∀ n d, v208 (ix3 p n d) = C 2 n d)
    (f : Fin 8 → Fin 8 → EReal) (hSC : ∀ n u, k0_pay20 (F := Ideal) v110 v120 (ix3 p n u) = f n u)
    (VV : Fin 8 → Fin 512 → EReal) (hV : ∀ s d, v211 (ix3 p s d) = VV s d)
    (h3 : ∀ n d, (∑ s : Fin 8, smx (f n) s * VV s d) = C 3 n d) (n : Fin 8) (d : Fin 512) :
    k0_pay1 (F := Ideal) v0 v133 v158 v183 v208 v211 (k0_pay20 v110 v120) (k0_pay21 v110 v120) v239 (ix3 p n d)
      = (v0 (ix3 p n d) + ∑ j : Fin 2048, C ⟨j.val / 512, by have := j.isLt; omega⟩ n ⟨j.val % 512, by omega⟩ * v133 (ix2 d j))
        + v239 (ix1 d) := by
  unfold k0_pay1 k0_pay21
  refine congrArg₂ (· + ·) (congrArg₂ (· + ·) rfl ?_) (biasRow3 _ _ _ p n d)
  have hlt : p.val * 8 + n.val < 512 := by have := p.isLt; have := n.isLt; omega
  refine (unflatten3 _ _ p n d ⟨p.val * 8 + n.val, hlt⟩ rfl).trans ?_
  refine (mm_512x2048_512 _ _ _ _).trans (Finset.sum_congr rfl fun j _ => congrArg (· * v133 (ix2 d j)) ?_)
  refine (flatten3 _ _ p n j ⟨p.val * 8 + n.val, hlt⟩ rfl).trans ?_
  refine sideBySide4_of _ _ _ _ _ p n j ⟨j.val / 512, by have := j.isLt; omega⟩ ⟨j.val % 512, by omega⟩
    (by show j.val = j.val / 512 * 512 + j.val % 512; omega) _ (fun hk => ?_) (fun hk => ?_) (fun hk => ?_) (fun hk => ?_)
  · have e : (⟨j.val / 512, by have := j.isLt; omega⟩ : Fin 4) = 0 := Fin.ext hk
    rw [e]; exact h0 n _
  · have e : (⟨j.val / 512, by have := j.isLt; omega⟩ : Fin 4) = 1 := Fin.ext hk
    rw [e]; exact h1 n _
  · have e : (⟨j.val / 512, by have := j.isLt; omega⟩ : Fin 4) = 2 := Fin.ext hk
    rw [e]; exact h2 n _
  · have e : (⟨j.val / 512, by have := j.isLt; omega⟩ : Fin 4) = 3 := Fin.ext hk
    rw [e]
    exact (ctxOfScores _ _ p f hSC VV hV _ _ _ _ _ _ _ _ n _).trans (h3 n _)

/-- The kernel's new input rows are the common value's `hOut`. -/
theorem hOut_block (x0 x1 : Vec Ideal S64x8x512 .f32) (x2 : Vec Ideal S32x512 .bf16) (x3 : Vec Ideal S32 .f32)
    (x4 : Vec Ideal S32x512 .bf16) (x5 : Vec Ideal S32 .f32) (x6 : Vec Ideal S512x512 .bf16) (x7 : Vec Ideal S512 .f32)
    (x8 : Vec Ideal S512x512 .bf16) (x9 : Vec Ideal S512 .f32) (x10 : Vec Ideal S512x512 .bf16) (x11 : Vec Ideal S512 .f32)
    (x12 : Vec Ideal S1024x512 .bf16) (x13 : Vec Ideal S1024 .f32) (x14 : Vec Ideal S128x512 .bf16) (x15 : Vec Ideal S128 .f32)
    (x16 : Vec Ideal S128x512 .bf16) (x17 : Vec Ideal S128 .f32) (x18 : Vec Ideal S2048x512 .bf16) (x19 : Vec Ideal S2048 .f32)
    (x20 : Vec Ideal S512x2048 .bf16) (x21 : Vec Ideal S512 .f32)
    (p : Fin 64) (n : Fin 8) (d : Fin 512) :
    k0_pay1 (F := Ideal) x0 (k0_pay13 x20) (k0_pay14 (k0_pay8 x0 x14 x15) (k0_pay9 x1 (k0_pay5 (k0_pay3 x0 x1 x6 x7) (k0_pay4 x0 x1 x2 x3 x4 x5) (Named.named κ "inv_sqrt_key" 0x3E3504F3#32) x8 x9) (k0_pay6 x0 x1 x10 x11) x12 x13 x16 x17) (k0_pay10 x1 (k0_pay5 (k0_pay3 x0 x1 x6 x7) (k0_pay4 x0 x1 x2 x3 x4 x5) (Named.named κ "inv_sqrt_key" 0x3E3504F3#32) x8 x9) (k0_pay6 x0 x1 x10 x11) x12 x13 x18) (k0_pay11 x19)) (k0_pay17 (k0_pay15 (k0_pay10 x1 (k0_pay5 (k0_pay3 x0 x1 x6 x7) (k0_pay4 x0 x1 x2 x3 x4 x5) (Named.named κ "inv_sqrt_key" 0x3E3504F3#32) x8 x9) (k0_pay6 x0 x1 x10 x11) x12 x13 x18) (k0_pay11 x19)) (k0_pay16 (k0_pay8 x0 x14 x15) (k0_pay9 x1 (k0_pay5 (k0_pay3 x0 x1 x6 x7) (k0_pay4 x0 x1 x2 x3 x4 x5) (Named.named κ "inv_sqrt_key" 0x3E3504F3#32) x8 x9) (k0_pay6 x0 x1 x10 x11) x12 x13 x16 x17))) (k0_pay18 (k0_pay8 x0 x14 x15) (k0_pay9 x1 (k0_pay5 (k0_pay3 x0 x1 x6 x7) (k0_pay4 x0 x1 x2 x3 x4 x5) (Named.named κ "inv_sqrt_key" 0x3E3504F3#32) x8 x9) (k0_pay6 x0 x1 x10 x11) x12 x13 x16 x17) (k0_pay12 (k0_pay10 x1 (k0_pay5 (k0_pay3 x0 x1 x6 x7) (k0_pay4 x0 x1 x2 x3 x4 x5) (Named.named κ "inv_sqrt_key" 0x3E3504F3#32) x8 x9) (k0_pay6 x0 x1 x10 x11) x12 x13 x18) (k0_pay11 x19))) (k0_pay19 (k0_pay12 (k0_pay10 x1 (k0_pay5 (k0_pay3 x0 x1 x6 x7) (k0_pay4 x0 x1 x2 x3 x4 x5) (Named.named κ "inv_sqrt_key" 0x3E3504F3#32) x8 x9) (k0_pay6 x0 x1 x10 x11) x12 x13 x18) (k0_pay11 x19))) (k0_pay20 (k0_pay8 x0 x14 x15) (k0_pay9 x1 (k0_pay5 (k0_pay3 x0 x1 x6 x7) (k0_pay4 x0 x1 x2 x3 x4 x5) (Named.named κ "inv_sqrt_key" 0x3E3504F3#32) x8 x9) (k0_pay6 x0 x1 x10 x11) x12 x13 x16 x17)) (k0_pay21 (k0_pay8 x0 x14 x15) (k0_pay9 x1 (k0_pay5 (k0_pay3 x0 x1 x6 x7) (k0_pay4 x0 x1 x2 x3 x4 x5) (Named.named κ "inv_sqrt_key" 0x3E3504F3#32) x8 x9) (k0_pay6 x0 x1 x10 x11) x12 x13 x16 x17)) x21 (ix3 p n d)
      = Cert.Spec.hOut (Cert.Spec.weightsOf x2 x3 x4 x5 x6 x7 x8 x9 x10 x11 x12 x13 x14 x15 x16 x17 x18 x19 x20 x21) (rowsAt x0 p) (rowsAt x1 p) n d := by
  have hQ : ∀ n j, (k0_pay8 (F := Ideal) x0 x14 x15) (ix3 p n j) = Cert.Spec.rQ (Cert.Spec.weightsOf x2 x3 x4 x5 x6 x7 x8 x9 x10 x11 x12 x13 x14 x15 x16 x17 x18 x19 x20 x21) (rowsAt x0 p) n j :=
    fun n j => queries_eq x0 x14 x15 p n j
  have hMN := fun s i => Cert.KerMemNew.memNew_block x0 x1 x2 x3 x4 x5 x6 x7 x8 x9 x10 x11 x12 x13 x14 x15 x16 x17 x18 x19 x20 x21 p s i
  have hK : ∀ s j, (k0_pay9 x1 (k0_pay5 (k0_pay3 x0 x1 x6 x7) (k0_pay4 x0 x1 x2 x3 x4 x5) (Named.named κ "inv_sqrt_key" 0x3E3504F3#32) x8 x9) (k0_pay6 x0 x1 x10 x11) x12 x13 x16 x17) (ix3 p s j) = Cert.Spec.rK (Cert.Spec.weightsOf x2 x3 x4 x5 x6 x7 x8 x9 x10 x11 x12 x13 x14 x15 x16 x17 x18 x19 x20 x21) (rowsAt x0 p) (rowsAt x1 p) s j :=
    fun s j => keys_eq x1 _ _ x12 x13 x16 x17 p _ hMN s j
  have hVA : ∀ s j, (k0_pay12 (F := Ideal) (k0_pay10 x1 (k0_pay5 (k0_pay3 x0 x1 x6 x7) (k0_pay4 x0 x1 x2 x3 x4 x5) (Named.named κ "inv_sqrt_key" 0x3E3504F3#32) x8 x9) (k0_pay6 x0 x1 x10 x11) x12 x13 x18) (k0_pay11 x19)) (ix3 p s j) = Cert.Spec.rV (Cert.Spec.weightsOf x2 x3 x4 x5 x6 x7 x8 x9 x10 x11 x12 x13 x14 x15 x16 x17 x18 x19 x20 x21) (rowsAt x0 p) (rowsAt x1 p) s j :=
    fun s j => vals_eq x1 _ _ x12 x13 x18 x19 p _ hMN s j
  refine (last_eq x0 _ _ _ _ _ _ _ x21 p
    (fun k => ctxAt (Cert.Spec.rQ (Cert.Spec.weightsOf x2 x3 x4 x5 x6 x7 x8 x9 x10 x11 x12 x13 x14 x15 x16 x17 x18 x19 x20 x21) (rowsAt x0 p)) (Cert.Spec.rK (Cert.Spec.weightsOf x2 x3 x4 x5 x6 x7 x8 x9 x10 x11 x12 x13 x14 x15 x16 x17 x18 x19 x20 x21) (rowsAt x0 p) (rowsAt x1 p))
      (Cert.Spec.rV (Cert.Spec.weightsOf x2 x3 x4 x5 x6 x7 x8 x9 x10 x11 x12 x13 x14 x15 x16 x17 x18 x19 x20 x21) (rowsAt x0 p) (rowsAt x1 p)) (32 * k.val) (by have := k.isLt; omega) (512 * k.val) (by have := k.isLt; omega))
    (fun n d => head0_eq _ _ p _ _ hQ hK _ _ _ hVA n d)
    (fun n d => head1_eq p _ _ _ (fun n u => head1_shifted_eq _ _ p _ _ hQ hK n u) _ (fun s d => head1_vals_eq p _ _ _ hVA s d) n d)
    (fun n d => head2_eq _ _ p _ _ hQ hK _ _ hVA n d)
    _ (fun n u => head3_score_eq _ _ p _ _ hQ hK n u)
    _ (fun s d => head3_vals_eq p _ _ hVA s d)
    (fun n d => rfl) n d).trans ?_
  rw [add_assoc]
  refine congrArg (x0 (ix3 p n d) + ·) (congrArg₂ (· + ·) (Finset.sum_congr rfl fun j _ => congrArg₂ (· * ·) rfl ?_) rfl)
  unfold k0_pay13
  rw [shapeCast_self]
  rfl

end Cert.KerOut

end
-- ==== Proof.KerBlocks.lean ====
/-
  From blocks to arrays. The grid has 32 points; point `t` is handed rows `64 t … 64 t + 63` of the two [2048, 8, 512]
  inputs and the whole of every weight array, and writes back rows `64 t … 64 t + 63` of the two [2048, 8, 512] outputs.
  What a point writes back is the block of ONE whole-array function of the argument arrays — the
  common value's `hOut` and `memNew` at each batch element — and the 32 blocks cover the outputs, so after the run
  each output array is that function.
-/
import proofs.«133350_j9835475108028_2_alg».proof.Proof.Gen.KernelIdeal.Value
import proofs.«133350_j9835475108028_2_alg».proof.Proof.KerOut
import Idealize.ShloMosaic.Lib.Pipeline.Value
import Idealize.ShloMosaic.Lib.StableHlo.Run

noncomputable section

namespace Cert.KerBlocks

open Cert.KernelIdeal Cert.KernelIdeal.Gen Idealize.ShloMosaic Idealize.ShloMosaic.TcCoe Idealize.SL.Sem Idealize.ShloMosaic.ValueIdx
open Idealize.ShloMosaic.Pipeline (Dat)
open Idealize.ShloMosaic.StableHlo
open Cert.Spec (rowsAt)

/-! ## The two output arrays as functions of the twenty-two input arrays -/

/-- The new memory rows, batch element by batch element. -/
def GMem (a0 a1 : S2048x8x512.Idx → EReal) (a2 : S32x512.Idx → EReal) (a3 : S32.Idx → EReal) (a4 : S32x512.Idx → EReal) (a5 : S32.Idx → EReal) (a6 : S512x512.Idx → EReal) (a7 : S512.Idx → EReal) (a8 : S512x512.Idx → EReal) (a9 : S512.Idx → EReal) (a10 : S512x512.Idx → EReal) (a11 : S512.Idx → EReal) (a12 : S1024x512.Idx → EReal) (a13 : S1024.Idx → EReal) (a14 : S128x512.Idx → EReal) (a15 : S128.Idx → EReal) (a16 : S128x512.Idx → EReal) (a17 : S128.Idx → EReal) (a18 : S2048x512.Idx → EReal) (a19 : S2048.Idx → EReal) (a20 : S512x2048.Idx → EReal) (a21 : S512.Idx → EReal) : S2048x8x512.Idx → EReal := fun i =>
  Cert.Spec.memNew (Cert.Spec.weightsOf a2 a3 a4 a5 a6 a7 a8 a9 a10 a11 a12 a13 a14 a15 a16 a17 a18 a19 a20 a21) (rowsAt a0 ⟨(i 0).val, (i 0).isLt⟩) (rowsAt a1 ⟨(i 0).val, (i 0).isLt⟩) ⟨(i 1).val, (i 1).isLt⟩ ⟨(i 2).val, (i 2).isLt⟩

/-- The new input rows, batch element by batch element. -/
def GOut (a0 a1 : S2048x8x512.Idx → EReal) (a2 : S32x512.Idx → EReal) (a3 : S32.Idx → EReal) (a4 : S32x512.Idx → EReal) (a5 : S32.Idx → EReal) (a6 : S512x512.Idx → EReal) (a7 : S512.Idx → EReal) (a8 : S512x512.Idx → EReal) (a9 : S512.Idx → EReal) (a10 : S512x512.Idx → EReal) (a11 : S512.Idx → EReal) (a12 : S1024x512.Idx → EReal) (a13 : S1024.Idx → EReal) (a14 : S128x512.Idx → EReal) (a15 : S128.Idx → EReal) (a16 : S128x512.Idx → EReal) (a17 : S128.Idx → EReal) (a18 : S2048x512.Idx → EReal) (a19 : S2048.Idx → EReal) (a20 : S512x2048.Idx → EReal) (a21 : S512.Idx → EReal) : S2048x8x512.Idx → EReal := fun i =>
  Cert.Spec.hOut (Cert.Spec.weightsOf a2 a3 a4 a5 a6 a7 a8 a9 a10 a11 a12 a13 a14 a15 a16 a17 a18 a19 a20 a21) (rowsAt a0 ⟨(i 0).val, (i 0).isLt⟩) (rowsAt a1 ⟨(i 0).val, (i 0).isLt⟩) ⟨(i 1).val, (i 1).isLt⟩ ⟨(i 2).val, (i 2).isLt⟩

theorem GMem_at (a0 a1 : S2048x8x512.Idx → EReal) (a2 : S32x512.Idx → EReal) (a3 : S32.Idx → EReal) (a4 : S32x512.Idx → EReal) (a5 : S32.Idx → EReal) (a6 : S512x512.Idx → EReal) (a7 : S512.Idx → EReal) (a8 : S512x512.Idx → EReal) (a9 : S512.Idx → EReal) (a10 : S512x512.Idx → EReal) (a11 : S512.Idx → EReal) (a12 : S1024x512.Idx → EReal) (a13 : S1024.Idx → EReal) (a14 : S128x512.Idx → EReal) (a15 : S128.Idx → EReal) (a16 : S128x512.Idx → EReal) (a17 : S128.Idx → EReal) (a18 : S2048x512.Idx → EReal) (a19 : S2048.Idx → EReal) (a20 : S512x2048.Idx → EReal) (a21 : S512.Idx → EReal) (i : S2048x8x512.Idx) (B : Fin 2048) (s : Fin 8) (d : Fin 512)
    (h0 : (i 0).val = B.val) (h1 : (i 1).val = s.val) (h2 : (i 2).val = d.val) :
    GMem a0 a1 a2 a3 a4 a5 a6 a7 a8 a9 a10 a11 a12 a13 a14 a15 a16 a17 a18 a19 a20 a21 i = Cert.Spec.memNew (Cert.Spec.weightsOf a2 a3 a4 a5 a6 a7 a8 a9 a10 a11 a12 a13 a14 a15 a16 a17 a18 a19 a20 a21) (rowsAt a0 B) (rowsAt a1 B) s d := by
  have e : i = ix3 B s d := funext fun a => Fin.ext (by
    match a with
    | ⟨0, _⟩ => exact h0
    | ⟨1, _⟩ => exact h1
    | ⟨2, _⟩ => exact h2)
  subst e; rfl

theorem GOut_at (a0 a1 : S2048x8x512.Idx → EReal) (a2 : S32x512.Idx → EReal) (a3 : S32.Idx → EReal) (a4 : S32x512.Idx → EReal) (a5 : S32.Idx → EReal) (a6 : S512x512.Idx → EReal) (a7 : S512.Idx → EReal) (a8 : S512x512.Idx → EReal) (a9 : S512.Idx → EReal) (a10 : S512x512.Idx → EReal) (a11 : S512.Idx → EReal) (a12 : S1024x512.Idx → EReal) (a13 : S1024.Idx → EReal) (a14 : S128x512.Idx → EReal) (a15 : S128.Idx → EReal) (a16 : S128x512.Idx → EReal) (a17 : S128.Idx → EReal) (a18 : S2048x512.Idx → EReal) (a19 : S2048.Idx → EReal) (a20 : S512x2048.Idx → EReal) (a21 : S512.Idx → EReal) (i : S2048x8x512.Idx) (B : Fin 2048) (s : Fin 8) (d : Fin 512)
    (h0 : (i 0).val = B.val) (h1 : (i 1).val = s.val) (h2 : (i 2).val = d.val) :
    GOut a0 a1 a2 a3 a4 a5 a6 a7 a8 a9 a10 a11 a12 a13 a14 a15 a16 a17 a18 a19 a20 a21 i = Cert.Spec.hOut (Cert.Spec.weightsOf a2 a3 a4 a5 a6 a7 a8 a9 a10 a11 a12 a13 a14 a15 a16 a17 a18 a19 a20 a21) (rowsAt a0 B) (rowsAt a1 B) s d := by
  have e : i = ix3 B s d := funext fun a => Fin.ext (by
    match a with
    | ⟨0, _⟩ => exact h0
    | ⟨1, _⟩ => exact h1
    | ⟨2, _⟩ => exact h2)
  subst e; rfl

/-! ## The body's two stored values, the loads and the one store stripped -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem strip23 (x0 x1 : Vec Ideal S64x8x512 .f32) (x2 : Vec Ideal S32x512 .bf16) (x3 : Vec Ideal S32 .f32)
    (x4 : Vec Ideal S32x512 .bf16) (x5 : Vec Ideal S32 .f32) (x6 : Vec Ideal S512x512 .bf16) (x7 : Vec Ideal S512 .f32)
    (x8 : Vec Ideal S512x512 .bf16) (x9 : Vec Ideal S512 .f32) (x10 : Vec Ideal S512x512 .bf16) (x11 : Vec Ideal S512 .f32)
    (x12 : Vec Ideal S1024x512 .bf16) (x13 : Vec Ideal S1024 .f32) (x14 : Vec Ideal S128x512 .bf16) (x15 : Vec Ideal S128 .f32)
    (x16 : Vec Ideal S128x512 .bf16) (x17 : Vec Ideal S128 .f32) (x18 : Vec Ideal S2048x512 .bf16) (x19 : Vec Ideal S2048 .f32)
    (x20 : Vec Ideal S512x2048 .bf16) (x21 : Vec Ideal S512 .f32) :
    out0_23 (F := Ideal) x0 x1 x2 x3 x4 x5 x6 x7 x8 x9 x10 x11 x12 x13 x14 x15 x16 x17 x18 x19 x20 x21 = k0_pay7 (F := Ideal) x1 (k0_pay5 (k0_pay3 x0 x1 x6 x7) (k0_pay4 x0 x1 x2 x3 x4 x5) (Named.named κ "inv_sqrt_key" 0x3E3504F3#32) x8 x9) (k0_pay6 x0 x1 x10 x11) x12 x13 := by
  unfold out0_23
  rw [View.canon_unit_zero hz3]
  simp only [View.ld_unit_zero (S := S64x8x512) hz3, View.ld_unit_zero (S := S32x512) hz2, View.ld_unit_zero (S := S32) hz1, View.ld_unit_zero (S := S512x512) hz2, View.ld_unit_zero (S := S512) hz1, View.ld_unit_zero (S := S1024x512) hz2, View.ld_unit_zero (S := S1024) hz1, View.ld_unit_zero (S := S128x512) hz2, View.ld_unit_zero (S := S128) hz1, View.ld_unit_zero (S := S2048x512) hz2, View.ld_unit_zero (S := S2048) hz1, View.ld_unit_zero (S := S512x2048) hz2]

theorem strip22 (x0 x1 : Vec Ideal S64x8x512 .f32) (x2 : Vec Ideal S32x512 .bf16) (x3 : Vec Ideal S32 .f32)
    (x4 : Vec Ideal S32x512 .bf16) (x5 : Vec Ideal S32 .f32) (x6 : Vec Ideal S512x512 .bf16) (x7 : Vec Ideal S512 .f32)
    (x8 : Vec Ideal S512x512 .bf16) (x9 : Vec Ideal S512 .f32) (x10 : Vec Ideal S512x512 .bf16) (x11 : Vec Ideal S512 .f32)
    (x12 : Vec Ideal S1024x512 .bf16) (x13 : Vec Ideal S1024 .f32) (x14 : Vec Ideal S128x512 .bf16) (x15 : Vec Ideal S128 .f32)
    (x16 : Vec Ideal S128x512 .bf16) (x17 : Vec Ideal S128 .f32) (x18 : Vec Ideal S2048x512 .bf16) (x19 : Vec Ideal S2048 .f32)
    (x20 : Vec Ideal S512x2048 .bf16) (x21 : Vec Ideal S512 .f32) :
    out0_22 (F := Ideal) x0 x1 x2 x3 x4 x5 x6 x7 x8 x9 x10 x11 x12 x13 x14 x15 x16 x17 x18 x19 x20 x21 = k0_pay1 (F := Ideal) x0 (k0_pay13 x20) (k0_pay14 (k0_pay8 x0 x14 x15) (k0_pay9 x1 (k0_pay5 (k0_pay3 x0 x1 x6 x7) (k0_pay4 x0 x1 x2 x3 x4 x5) (Named.named κ "inv_sqrt_key" 0x3E3504F3#32) x8 x9) (k0_pay6 x0 x1 x10 x11) x12 x13 x16 x17) (k0_pay10 x1 (k0_pay5 (k0_pay3 x0 x1 x6 x7) (k0_pay4 x0 x1 x2 x3 x4 x5) (Named.named κ "inv_sqrt_key" 0x3E3504F3#32) x8 x9) (k0_pay6 x0 x1 x10 x11) x12 x13 x18) (k0_pay11 x19)) (k0_pay17 (k0_pay15 (k0_pay10 x1 (k0_pay5 (k0_pay3 x0 x1 x6 x7) (k0_pay4 x0 x1 x2 x3 x4 x5) (Named.named κ "inv_sqrt_key" 0x3E3504F3#32) x8 x9) (k0_pay6 x0 x1 x10 x11) x12 x13 x18) (k0_pay11 x19)) (k0_pay16 (k0_pay8 x0 x14 x15) (k0_pay9 x1 (k0_pay5 (k0_pay3 x0 x1 x6 x7) (k0_pay4 x0 x1 x2 x3 x4 x5) (Named.named κ "inv_sqrt_key" 0x3E3504F3#32) x8 x9) (k0_pay6 x0 x1 x10 x11) x12 x13 x16 x17))) (k0_pay18 (k0_pay8 x0 x14 x15) (k0_pay9 x1 (k0_pay5 (k0_pay3 x0 x1 x6 x7) (k0_pay4 x0 x1 x2 x3 x4 x5) (Named.named κ "inv_sqrt_key" 0x3E3504F3#32) x8 x9) (k0_pay6 x0 x1 x10 x11) x12 x13 x16 x17) (k0_pay12 (k0_pay10 x1 (k0_pay5 (k0_pay3 x0 x1 x6 x7) (k0_pay4 x0 x1 x2 x3 x4 x5) (Named.named κ "inv_sqrt_key" 0x3E3504F3#32) x8 x9) (k0_pay6 x0 x1 x10 x11) x12 x13 x18) (k0_pay11 x19))) (k0_pay19 (k0_pay12 (k0_pay10 x1 (k0_pay5 (k0_pay3 x0 x1 x6 x7) (k0_pay4 x0 x1 x2 x3 x4 x5) (Named.named κ "inv_sqrt_key" 0x3E3504F3#32) x8 x9) (k0_pay6 x0 x1 x10 x11) x12 x13 x18) (k0_pay11 x19))) (k0_pay20 (k0_pay8 x0 x14 x15) (k0_pay9 x1 (k0_pay5 (k0_pay3 x0 x1 x6 x7) (k0_pay4 x0 x1 x2 x3 x4 x5) (Named.named κ "inv_sqrt_key" 0x3E3504F3#32) x8 x9) (k0_pay6 x0 x1 x10 x11) x12 x13 x16 x17)) (k0_pay21 (k0_pay8 x0 x14 x15) (k0_pay9 x1 (k0_pay5 (k0_pay3 x0 x1 x6 x7) (k0_pay4 x0 x1 x2 x3 x4 x5) (Named.named κ "inv_sqrt_key" 0x3E3504F3#32) x8 x9) (k0_pay6 x0 x1 x10 x11) x12 x13 x16 x17)) x21 := by
  unfold out0_22
  rw [View.canon_unit_zero hz3]
  simp only [View.ld_unit_zero (S := S64x8x512) hz3, View.ld_unit_zero (S := S32x512) hz2, View.ld_unit_zero (S := S32) hz1, View.ld_unit_zero (S := S512x512) hz2, View.ld_unit_zero (S := S512) hz1, View.ld_unit_zero (S := S1024x512) hz2, View.ld_unit_zero (S := S1024) hz1, View.ld_unit_zero (S := S128x512) hz2, View.ld_unit_zero (S := S128) hz1, View.ld_unit_zero (S := S2048x512) hz2, View.ld_unit_zero (S := S2048) hz1, View.ld_unit_zero (S := S512x2048) hz2]

/-- The stored new memory rows at (p, s, d), when block row `p` of the two inputs is batch element `B` of two arrays. -/
theorem memNew_point (x0 x1 : Vec Ideal S64x8x512 .f32) (x2 : Vec Ideal S32x512 .bf16) (x3 : Vec Ideal S32 .f32)
    (x4 : Vec Ideal S32x512 .bf16) (x5 : Vec Ideal S32 .f32) (x6 : Vec Ideal S512x512 .bf16) (x7 : Vec Ideal S512 .f32)
    (x8 : Vec Ideal S512x512 .bf16) (x9 : Vec Ideal S512 .f32) (x10 : Vec Ideal S512x512 .bf16) (x11 : Vec Ideal S512 .f32)
    (x12 : Vec Ideal S1024x512 .bf16) (x13 : Vec Ideal S1024 .f32) (x14 : Vec Ideal S128x512 .bf16) (x15 : Vec Ideal S128 .f32)
    (x16 : Vec Ideal S128x512 .bf16) (x17 : Vec Ideal S128 .f32) (x18 : Vec Ideal S2048x512 .bf16) (x19 : Vec Ideal S2048 .f32)
    (x20 : Vec Ideal S512x2048 .bf16) (x21 : Vec Ideal S512 .f32)
    (a0 a1 : S2048x8x512.Idx → EReal) (p : Fin 64) (s : Fin 8) (d : Fin 512) (B : Fin 2048)
    (h0 : ∀ r k, x0 (ix3 p r k) = a0 (ix3 B r k)) (h1 : ∀ r k, x1 (ix3 p r k) = a1 (ix3 B r k)) :
    out0_23 (F := Ideal) x0 x1 x2 x3 x4 x5 x6 x7 x8 x9 x10 x11 x12 x13 x14 x15 x16 x17 x18 x19 x20 x21 (ix3 p s d)
      = Cert.Spec.memNew (Cert.Spec.weightsOf x2 x3 x4 x5 x6 x7 x8 x9 x10 x11 x12 x13 x14 x15 x16 x17 x18 x19 x20 x21) (rowsAt a0 B) (rowsAt a1 B) s d := by
  rw [strip23]
  refine (Cert.KerMemNew.memNew_block x0 x1 x2 x3 x4 x5 x6 x7 x8 x9 x10 x11 x12 x13 x14 x15 x16 x17 x18 x19 x20 x21 p s d).trans ?_
  have e0 : rowsAt x0 p = rowsAt a0 B := funext fun r => funext fun k => h0 r k
  have e1 : rowsAt x1 p = rowsAt a1 B := funext fun r => funext fun k => h1 r k
  rw [e0, e1]

/-- The stored new input rows at (p, n, d), likewise. -/
theorem hOut_point (x0 x1 : Vec Ideal S64x8x512 .f32) (x2 : Vec Ideal S32x512 .bf16) (x3 : Vec Ideal S32 .f32)
    (x4 : Vec Ideal S32x512 .bf16) (x5 : Vec Ideal S32 .f32) (x6 : Vec Ideal S512x512 .bf16) (x7 : Vec Ideal S512 .f32)
    (x8 : Vec Ideal S512x512 .bf16) (x9 : Vec Ideal S512 .f32) (x10 : Vec Ideal S512x512 .bf16) (x11 : Vec Ideal S512 .f32)
    (x12 : Vec Ideal S1024x512 .bf16) (x13 : Vec Ideal S1024 .f32) (x14 : Vec Ideal S128x512 .bf16) (x15 : Vec Ideal S128 .f32)
    (x16 : Vec Ideal S128x512 .bf16) (x17 : Vec Ideal S128 .f32) (x18 : Vec Ideal S2048x512 .bf16) (x19 : Vec Ideal S2048 .f32)
    (x20 : Vec Ideal S512x2048 .bf16) (x21 : Vec Ideal S512 .f32)
    (a0 a1 : S2048x8x512.Idx → EReal) (p : Fin 64) (s : Fin 8) (d : Fin 512) (B : Fin 2048)
    (h0 : ∀ r k, x0 (ix3 p r k) = a0 (ix3 B r k)) (h1 : ∀ r k, x1 (ix3 p r k) = a1 (ix3 B r k)) :
    out0_22 (F := Ideal) x0 x1 x2 x3 x4 x5 x6 x7 x8 x9 x10 x11 x12 x13 x14 x15 x16 x17 x18 x19 x20 x21 (ix3 p s d)
      = Cert.Spec.hOut (Cert.Spec.weightsOf x2 x3 x4 x5 x6 x7 x8 x9 x10 x11 x12 x13 x14 x15 x16 x17 x18 x19 x20 x21) (rowsAt a0 B) (rowsAt a1 B) s d := by
  rw [strip22]
  refine (Cert.KerOut.hOut_block x0 x1 x2 x3 x4 x5 x6 x7 x8 x9 x10 x11 x12 x13 x14 x15 x16 x17 x18 x19 x20 x21 p s d).trans ?_
  have e0 : rowsAt x0 p = rowsAt a0 B := funext fun r => funext fun k => h0 r k
  have e1 : rowsAt x1 p = rowsAt a1 B := funext fun r => funext fun k => h1 r k
  rw [e0, e1]

variable (m : (ℓ : Loc nD τ sig) → Buf (Elt Ideal) ℓ) (ρ : Dev nD → PrngReg)

/-! ## The arrays as the region finds them are the arguments

  Twelve arrays are handed over unchanged; the ten weight matrices have their format changed by the host before the
  launch, which changes no value on the extended reals. -/

/-- The weight array of window 2 as the region finds it: the argument array, its format changed (no change of value). -/
theorem V_cast0 (c : Dev nD) : (V m c main_v0 : S32x512.Idx → EReal) = m ((c : Thread nD τ).loc main_arg2) := by
  dsimp only [Gen.V, Gen.hostOps0]
  after_results
  rfl

/-- The weight array of window 4 as the region finds it: the argument array, its format changed (no change of value). -/
theorem V_cast1 (c : Dev nD) : (V m c main_v1 : S32x512.Idx → EReal) = m ((c : Thread nD τ).loc main_arg4) := by
  dsimp only [Gen.V, Gen.hostOps0]
  after_results
  rfl

/-- The weight array of window 6 as the region finds it: the argument array, its format changed (no change of value). -/
theorem V_cast2 (c : Dev nD) : (V m c main_v2 : S512x512.Idx → EReal) = m ((c : Thread nD τ).loc main_arg6) := by
  dsimp only [Gen.V, Gen.hostOps0]
  after_results
  rfl

/-- The weight array of window 8 as the region finds it: the argument array, its format changed (no change of value). -/
theorem V_cast3 (c : Dev nD) : (V m c main_v3 : S512x512.Idx → EReal) = m ((c : Thread nD τ).loc main_arg8) := by
  dsimp only [Gen.V, Gen.hostOps0]
  after_results
  rfl

/-- The weight array of window 10 as the region finds it: the argument array, its format changed (no change of value). -/
theorem V_cast4 (c : Dev nD) : (V m c main_v4 : S512x512.Idx → EReal) = m ((c : Thread nD τ).loc main_arg10) := by
  dsimp only [Gen.V, Gen.hostOps0]
  after_results
  rfl

/-- The weight array of window 12 as the region finds it: the argument array, its format changed (no change of value). -/
theorem V_cast5 (c : Dev nD) : (V m c main_v5 : S1024x512.Idx → EReal) = m ((c : Thread nD τ).loc main_arg12) := by
  dsimp only [Gen.V, Gen.hostOps0]
  after_results
  rfl

/-- The weight array of window 14 as the region finds it: the argument array, its format changed (no change of value). -/
theorem V_cast6 (c : Dev nD) : (V m c main_v6 : S128x512.Idx → EReal) = m ((c : Thread nD τ).loc main_arg14) := by
  dsimp only [Gen.V, Gen.hostOps0]
  after_results
  rfl

/-- The weight array of window 16 as the region finds it: the argument array, its format changed (no change of value). -/
theorem V_cast7 (c : Dev nD) : (V m c main_v7 : S128x512.Idx → EReal) = m ((c : Thread nD τ).loc main_arg16) := by
  dsimp only [Gen.V, Gen.hostOps0]
  after_results
  rfl

/-- The weight array of window 18 as the region finds it: the argument array, its format changed (no change of value). -/
theorem V_cast8 (c : Dev nD) : (V m c main_v8 : S2048x512.Idx → EReal) = m ((c : Thread nD τ).loc main_arg18) := by
  dsimp only [Gen.V, Gen.hostOps0]
  after_results
  rfl

/-- The weight array of window 20 as the region finds it: the argument array, its format changed (no change of value). -/
theorem V_cast9 (c : Dev nD) : (V m c main_v9 : S512x2048.Idx → EReal) = m ((c : Thread nD τ).loc main_arg20) := by
  dsimp only [Gen.V, Gen.hostOps0]
  after_results
  rfl

/-! ## The windows' blocks as parts of the argument arrays -/

theorem wfacts2 : ∀ t : Fin cfg0.N, win0_2.index t (0 : Fin 2) = 0 ∧ win0_2.index t (1 : Fin 2) = 0 :=
  (by decide +kernel : ∀ t : Fin grid0.N, _)
/-- Window 2's block at every point is its whole array. -/
theorem wblk2 (c : Dev nD) (t : Fin cfg0.N) (y : S32x512.Idx) : iblk m c 2 t y = (m ((c : Thread nD τ).loc main_arg2)) y := by
  refine Eq.trans ?_ (congrFun (V_cast0 m c) y)
  show V m c main_v0 (((cfg0.win 2).blk t).view.emb y) = V m c main_v0 y
  refine congrArg (V m c main_v0) (funext fun a => Fin.ext ?_)
  match a with
  | ⟨0, _⟩ => show win0_2.index t (0 : Fin 2) * S32x512.size 0 + 1 * (y 0).val = (y 0).val; rw [(wfacts2 t).1]; omega
  | ⟨1, _⟩ => show win0_2.index t (1 : Fin 2) * S32x512.size 1 + 1 * (y 1).val = (y 1).val; rw [(wfacts2 t).2]; omega

theorem wfacts3 : ∀ t : Fin cfg0.N, win0_3.index t (0 : Fin 1) = 0 :=
  (by decide +kernel : ∀ t : Fin grid0.N, _)
/-- Window 3's block at every point is its whole array. -/
theorem wblk3 (c : Dev nD) (t : Fin cfg0.N) (y : S32.Idx) : iblk m c 3 t y = (m ((c : Thread nD τ).loc main_arg3)) y := by
  refine Eq.trans ?_ (congrFun (V_main_arg3 m c) y)
  show V m c main_arg3 (((cfg0.win 3).blk t).view.emb y) = V m c main_arg3 y
  refine congrArg (V m c main_arg3) (funext fun a => Fin.ext ?_)
  match a with
  | ⟨0, _⟩ => show win0_3.index t (0 : Fin 1) * S32.size 0 + 1 * (y 0).val = (y 0).val; rw [(wfacts3 t)]; omega

theorem wfacts4 : ∀ t : Fin cfg0.N, win0_4.index t (0 : Fin 2) = 0 ∧ win0_4.index t (1 : Fin 2) = 0 :=
  (by decide +kernel : ∀ t : Fin grid0.N, _)
/-- Window 4's block at every point is its whole array. -/
theorem wblk4 (c : Dev nD) (t : Fin cfg0.N) (y : S32x512.Idx) : iblk m c 4 t y = (m ((c : Thread nD τ).loc main_arg4)) y := by
  refine Eq.trans ?_ (congrFun (V_cast1 m c) y)
  show V m c main_v1 (((cfg0.win 4).blk t).view.emb y) = V m c main_v1 y
  refine congrArg (V m c main_v1) (funext fun a => Fin.ext ?_)
  match a with
  | ⟨0, _⟩ => show win0_4.index t (0 : Fin 2) * S32x512.size 0 + 1 * (y 0).val = (y 0).val; rw [(wfacts4 t).1]; omega
  | ⟨1, _⟩ => show win0_4.index t (1 : Fin 2) * S32x512.size 1 + 1 * (y 1).val = (y 1).val; rw [(wfacts4 t).2]; omega

theorem wfacts5 : ∀ t : Fin cfg0.N, win0_5.index t (0 : Fin 1) = 0 :=
  (by decide +kernel : ∀ t : Fin grid0.N, _)
/-- Window 5's block at every point is its whole array. -/
theorem wblk5 (c : Dev nD) (t : Fin cfg0.N) (y : S32.Idx) : iblk m c 5 t y = (m ((c : Thread nD τ).loc main_arg5)) y := by
  refine Eq.trans ?_ (congrFun (V_main_arg5 m c) y)
  show V m c main_arg5 (((cfg0.win 5).blk t).view.emb y) = V m c main_arg5 y
  refine congrArg (V m c main_arg5) (funext fun a => Fin.ext ?_)
  match a with
  | ⟨0, _⟩ => show win0_5.index t (0 : Fin 1) * S32.size 0 + 1 * (y 0).val = (y 0).val; rw [(wfacts5 t)]; omega

theorem wfacts6 : ∀ t : Fin cfg0.N, win0_6.index t (0 : Fin 2) = 0 ∧ win0_6.index t (1 : Fin 2) = 0 :=
  (by decide +kernel : ∀ t : Fin grid0.N, _)
/-- Window 6's block at every point is its whole array. -/
theorem wblk6 (c : Dev nD) (t : Fin cfg0.N) (y : S512x512.Idx) : iblk m c 6 t y = (m ((c : Thread nD τ).loc main_arg6)) y := by
  refine Eq.trans ?_ (congrFun (V_cast2 m c) y)
  show V m c main_v2 (((cfg0.win 6).blk t).view.emb y) = V m c main_v2 y
  refine congrArg (V m c main_v2) (funext fun a => Fin.ext ?_)
  match a with
  | ⟨0, _⟩ => show win0_6.index t (0 : Fin 2) * S512x512.size 0 + 1 * (y 0).val = (y 0).val; rw [(wfacts6 t).1]; omega
  | ⟨1, _⟩ => show win0_6.index t (1 : Fin 2) * S512x512.size 1 + 1 * (y 1).val = (y 1).val; rw [(wfacts6 t).2]; omega

theorem wfacts7 : ∀ t : Fin cfg0.N, win0_7.index t (0 : Fin 1) = 0 :=
  (by decide +kernel : ∀ t : Fin grid0.N, _)
/-- Window 7's block at every point is its whole array. -/
theorem wblk7 (c : Dev nD) (t : Fin cfg0.N) (y : S512.Idx) : iblk m c 7 t y = (m ((c : Thread nD τ).loc main_arg7)) y := by
  refine Eq.trans ?_ (congrFun (V_main_arg7 m c) y)
  show V m c main_arg7 (((cfg0.win 7).blk t).view.emb y) = V m c main_arg7 y
  refine congrArg (V m c main_arg7) (funext fun a => Fin.ext ?_)
  match a with
  | ⟨0, _⟩ => show win0_7.index t (0 : Fin 1) * S512.size 0 + 1 * (y 0).val = (y 0).val; rw [(wfacts7 t)]; omega

theorem wfacts8 : ∀ t : Fin cfg0.N, win0_8.index t (0 : Fin 2) = 0 ∧ win0_8.index t (1 : Fin 2) = 0 :=
  (by decide +kernel : ∀ t : Fin grid0.N, _)
/-- Window 8's block at every point is its whole array. -/
theorem wblk8 (c : Dev nD) (t : Fin cfg0.N) (y : S512x512.Idx) : iblk m c 8 t y = (m ((c : Thread nD τ).loc main_arg8)) y := by
  refine Eq.trans ?_ (congrFun (V_cast3 m c) y)
  show V m c main_v3 (((cfg0.win 8).blk t).view.emb y) = V m c main_v3 y
  refine congrArg (V m c main_v3) (funext fun a => Fin.ext ?_)
  match a with
  | ⟨0, _⟩ => show win0_8.index t (0 : Fin 2) * S512x512.size 0 + 1 * (y 0).val = (y 0).val; rw [(wfacts8 t).1]; omega
  | ⟨1, _⟩ => show win0_8.index t (1 : Fin 2) * S512x512.size 1 + 1 * (y 1).val = (y 1).val; rw [(wfacts8 t).2]; omega

theorem wfacts9 : ∀ t : Fin cfg0.N, win0_9.index t (0 : Fin 1) = 0 :=
  (by decide +kernel : ∀ t : Fin grid0.N, _)
/-- Window 9's block at every point is its whole array. -/
theorem wblk9 (c : Dev nD) (t : Fin cfg0.N) (y : S512.Idx) : iblk m c 9 t y = (m ((c : Thread nD τ).loc main_arg9)) y := by
  refine Eq.trans ?_ (congrFun (V_main_arg9 m c) y)
  show V m c main_arg9 (((cfg0.win 9).blk t).view.emb y) = V m c main_arg9 y
  refine congrArg (V m c main_arg9) (funext fun a => Fin.ext ?_)
  match a with
  | ⟨0, _⟩ => show win0_9.index t (0 : Fin 1) * S512.size 0 + 1 * (y 0).val = (y 0).val; rw [(wfacts9 t)]; omega

theorem wfacts10 : ∀ t : Fin cfg0.N, win0_10.index t (0 : Fin 2) = 0 ∧ win0_10.index t (1 : Fin 2) = 0 :=
  (by decide +kernel : ∀ t : Fin grid0.N, _)
/-- Window 10's block at every point is its whole array. -/
theorem wblk10 (c : Dev nD) (t : Fin cfg0.N) (y : S512x512.Idx) : iblk m c 10 t y = (m ((c : Thread nD τ).loc main_arg10)) y := by
  refine Eq.trans ?_ (congrFun (V_cast4 m c) y)
  show V m c main_v4 (((cfg0.win 10).blk t).view.emb y) = V m c main_v4 y
  refine congrArg (V m c main_v4) (funext fun a => Fin.ext ?_)
  match a with
  | ⟨0, _⟩ => show win0_10.index t (0 : Fin 2) * S512x512.size 0 + 1 * (y 0).val = (y 0).val; rw [(wfacts10 t).1]; omega
  | ⟨1, _⟩ => show win0_10.index t (1 : Fin 2) * S512x512.size 1 + 1 * (y 1).val = (y 1).val; rw [(wfacts10 t).2]; omega

theorem wfacts11 : ∀ t : Fin cfg0.N, win0_11.index t (0 : Fin 1) = 0 :=
  (by decide +kernel : ∀ t : Fin grid0.N, _)
/-- Window 11's block at every point is its whole array. -/
theorem wblk11 (c : Dev nD) (t : Fin cfg0.N) (y : S512.Idx) : iblk m c 11 t y = (m ((c : Thread nD τ).loc main_arg11)) y := by
  refine Eq.trans ?_ (congrFun (V_main_arg11 m c) y)
  show V m c main_arg11 (((cfg0.win 11).blk t).view.emb y) = V m c main_arg11 y
  refine congrArg (V m c main_arg11) (funext fun a => Fin.ext ?_)
  match a with
  | ⟨0, _⟩ => show win0_11.index t (0 : Fin 1) * S512.size 0 + 1 * (y 0).val = (y 0).val; rw [(wfacts11 t)]; omega

theorem wfacts12 : ∀ t : Fin cfg0.N, win0_12.index t (0 : Fin 2) = 0 ∧ win0_12.index t (1 : Fin 2) = 0 :=
  (by decide +kernel : ∀ t : Fin grid0.N, _)
/-- Window 12's block at every point is its whole array. -/
theorem wblk12 (c : Dev nD) (t : Fin cfg0.N) (y : S1024x512.Idx) : iblk m c 12 t y = (m ((c : Thread nD τ).loc main_arg12)) y := by
  refine Eq.trans ?_ (congrFun (V_cast5 m c) y)
  show V m c main_v5 (((cfg0.win 12).blk t).view.emb y) = V m c main_v5 y
  refine congrArg (V m c main_v5) (funext fun a => Fin.ext ?_)
  match a with
  | ⟨0, _⟩ => show win0_12.index t (0 : Fin 2) * S1024x512.size 0 + 1 * (y 0).val = (y 0).val; rw [(wfacts12 t).1]; omega
  | ⟨1, _⟩ => show win0_12.index t (1 : Fin 2) * S1024x512.size 1 + 1 * (y 1).val = (y 1).val; rw [(wfacts12 t).2]; omega

theorem wfacts13 : ∀ t : Fin cfg0.N, win0_13.index t (0 : Fin 1) = 0 :=
  (by decide +kernel : ∀ t : Fin grid0.N, _)
/-- Window 13's block at every point is its whole array. -/
theorem wblk13 (c : Dev nD) (t : Fin cfg0.N) (y : S1024.Idx) : iblk m c 13 t y = (m ((c : Thread nD τ).loc main_arg13)) y := by
  refine Eq.trans ?_ (congrFun (V_main_arg13 m c) y)
  show V m c main_arg13 (((cfg0.win 13).blk t).view.emb y) = V m c main_arg13 y
  refine congrArg (V m c main_arg13) (funext fun a => Fin.ext ?_)
  match a with
  | ⟨0, _⟩ => show win0_13.index t (0 : Fin 1) * S1024.size 0 + 1 * (y 0).val = (y 0).val; rw [(wfacts13 t)]; omega

theorem wfacts14 : ∀ t : Fin cfg0.N, win0_14.index t (0 : Fin 2) = 0 ∧ win0_14.index t (1 : Fin 2) = 0 :=
  (by decide +kernel : ∀ t : Fin grid0.N, _)
/-- Window 14's block at every point is its whole array. -/
theorem wblk14 (c : Dev nD) (t : Fin cfg0.N) (y : S128x512.Idx) : iblk m c 14 t y = (m ((c : Thread nD τ).loc main_arg14)) y := by
  refine Eq.trans ?_ (congrFun (V_cast6 m c) y)
  show V m c main_v6 (((cfg0.win 14).blk t).view.emb y) = V m c main_v6 y
  refine congrArg (V m c main_v6) (funext fun a => Fin.ext ?_)
  match a with
  | ⟨0, _⟩ => show win0_14.index t (0 : Fin 2) * S128x512.size 0 + 1 * (y 0).val = (y 0).val; rw [(wfacts14 t).1]; omega
  | ⟨1, _⟩ => show win0_14.index t (1 : Fin 2) * S128x512.size 1 + 1 * (y 1).val = (y 1).val; rw [(wfacts14 t).2]; omega

theorem wfacts15 : ∀ t : Fin cfg0.N, win0_15.index t (0 : Fin 1) = 0 :=
  (by decide +kernel : ∀ t : Fin grid0.N, _)
/-- Window 15's block at every point is its whole array. -/
theorem wblk15 (c : Dev nD) (t : Fin cfg0.N) (y : S128.Idx) : iblk m c 15 t y = (m ((c : Thread nD τ).loc main_arg15)) y := by
  refine Eq.trans ?_ (congrFun (V_main_arg15 m c) y)
  show V m c main_arg15 (((cfg0.win 15).blk t).view.emb y) = V m c main_arg15 y
  refine congrArg (V m c main_arg15) (funext fun a => Fin.ext ?_)
  match a with
  | ⟨0, _⟩ => show win0_15.index t (0 : Fin 1) * S128.size 0 + 1 * (y 0).val = (y 0).val; rw [(wfacts15 t)]; omega

theorem wfacts16 : ∀ t : Fin cfg0.N, win0_16.index t (0 : Fin 2) = 0 ∧ win0_16.index t (1 : Fin 2) = 0 :=
  (by decide +kernel : ∀ t : Fin grid0.N, _)
/-- Window 16's block at every point is its whole array. -/
theorem wblk16 (c : Dev nD) (t : Fin cfg0.N) (y : S128x512.Idx) : iblk m c 16 t y = (m ((c : Thread nD τ).loc main_arg16)) y := by
  refine Eq.trans ?_ (congrFun (V_cast7 m c) y)
  show V m c main_v7 (((cfg0.win 16).blk t).view.emb y) = V m c main_v7 y
  refine congrArg (V m c main_v7) (funext fun a => Fin.ext ?_)
  match a with
  | ⟨0, _⟩ => show win0_16.index t (0 : Fin 2) * S128x512.size 0 + 1 * (y 0).val = (y 0).val; rw [(wfacts16 t).1]; omega
  | ⟨1, _⟩ => show win0_16.index t (1 : Fin 2) * S128x512.size 1 + 1 * (y 1).val = (y 1).val; rw [(wfacts16 t).2]; omega

theorem wfacts17 : ∀ t : Fin cfg0.N, win0_17.index t (0 : Fin 1) = 0 :=
  (by decide +kernel : ∀ t : Fin grid0.N, _)
/-- Window 17's block at every point is its whole array. -/
theorem wblk17 (c : Dev nD) (t : Fin cfg0.N) (y : S128.Idx) : iblk m c 17 t y = (m ((c : Thread nD τ).loc main_arg17)) y := by
  refine Eq.trans ?_ (congrFun (V_main_arg17 m c) y)
  show V m c main_arg17 (((cfg0.win 17).blk t).view.emb y) = V m c main_arg17 y
  refine congrArg (V m c main_arg17) (funext fun a => Fin.ext ?_)
  match a with
  | ⟨0, _⟩ => show win0_17.index t (0 : Fin 1) * S128.size 0 + 1 * (y 0).val = (y 0).val; rw [(wfacts17 t)]; omega

theorem wfacts18 : ∀ t : Fin cfg0.N, win0_18.index t (0 : Fin 2) = 0 ∧ win0_18.index t (1 : Fin 2) = 0 :=
  (by decide +kernel : ∀ t : Fin grid0.N, _)
/-- Window 18's block at every point is its whole array. -/
theorem wblk18 (c : Dev nD) (t : Fin cfg0.N) (y : S2048x512.Idx) : iblk m c 18 t y = (m ((c : Thread nD τ).loc main_arg18)) y := by
  refine Eq.trans ?_ (congrFun (V_cast8 m c) y)
  show V m c main_v8 (((cfg0.win 18).blk t).view.emb y) = V m c main_v8 y
  refine congrArg (V m c main_v8) (funext fun a => Fin.ext ?_)
  match a with
  | ⟨0, _⟩ => show win0_18.index t (0 : Fin 2) * S2048x512.size 0 + 1 * (y 0).val = (y 0).val; rw [(wfacts18 t).1]; omega
  | ⟨1, _⟩ => show win0_18.index t (1 : Fin 2) * S2048x512.size 1 + 1 * (y 1).val = (y 1).val; rw [(wfacts18 t).2]; omega

theorem wfacts19 : ∀ t : Fin cfg0.N, win0_19.index t (0 : Fin 1) = 0 :=
  (by decide +kernel : ∀ t : Fin grid0.N, _)
/-- Window 19's block at every point is its whole array. -/
theorem wblk19 (c : Dev nD) (t : Fin cfg0.N) (y : S2048.Idx) : iblk m c 19 t y = (m ((c : Thread nD τ).loc main_arg19)) y := by
  refine Eq.trans ?_ (congrFun (V_main_arg19 m c) y)
  show V m c main_arg19 (((cfg0.win 19).blk t).view.emb y) = V m c main_arg19 y
  refine congrArg (V m c main_arg19) (funext fun a => Fin.ext ?_)
  match a with
  | ⟨0, _⟩ => show win0_19.index t (0 : Fin 1) * S2048.size 0 + 1 * (y 0).val = (y 0).val; rw [(wfacts19 t)]; omega

theorem wfacts20 : ∀ t : Fin cfg0.N, win0_20.index t (0 : Fin 2) = 0 ∧ win0_20.index t (1 : Fin 2) = 0 :=
  (by decide +kernel : ∀ t : Fin grid0.N, _)
/-- Window 20's block at every point is its whole array. -/
theorem wblk20 (c : Dev nD) (t : Fin cfg0.N) (y : S512x2048.Idx) : iblk m c 20 t y = (m ((c : Thread nD τ).loc main_arg20)) y := by
  refine Eq.trans ?_ (congrFun (V_cast9 m c) y)
  show V m c main_v9 (((cfg0.win 20).blk t).view.emb y) = V m c main_v9 y
  refine congrArg (V m c main_v9) (funext fun a => Fin.ext ?_)
  match a with
  | ⟨0, _⟩ => show win0_20.index t (0 : Fin 2) * S512x2048.size 0 + 1 * (y 0).val = (y 0).val; rw [(wfacts20 t).1]; omega
  | ⟨1, _⟩ => show win0_20.index t (1 : Fin 2) * S512x2048.size 1 + 1 * (y 1).val = (y 1).val; rw [(wfacts20 t).2]; omega

theorem wfacts21 : ∀ t : Fin cfg0.N, win0_21.index t (0 : Fin 1) = 0 :=
  (by decide +kernel : ∀ t : Fin grid0.N, _)
/-- Window 21's block at every point is its whole array. -/
theorem wblk21 (c : Dev nD) (t : Fin cfg0.N) (y : S512.Idx) : iblk m c 21 t y = (m ((c : Thread nD τ).loc main_arg21)) y := by
  refine Eq.trans ?_ (congrFun (V_main_arg21 m c) y)
  show V m c main_arg21 (((cfg0.win 21).blk t).view.emb y) = V m c main_arg21 y
  refine congrArg (V m c main_arg21) (funext fun a => Fin.ext ?_)
  match a with
  | ⟨0, _⟩ => show win0_21.index t (0 : Fin 1) * S512.size 0 + 1 * (y 0).val = (y 0).val; rw [(wfacts21 t)]; omega

/-- The printed index maps of the four moving windows, decided over the grid: block `t` along the batch axis, block 0
    along the others. -/
theorem rfacts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_22.index t (0 : Fin 3) = t.val ∧ win0_22.index t (1 : Fin 3) = 0 ∧ win0_22.index t (2 : Fin 3) = 0
    ∧ win0_23.index t (0 : Fin 3) = t.val ∧ win0_23.index t (1 : Fin 3) = 0 ∧ win0_23.index t (2 : Fin 3) = 0 :=
  (by decide +kernel : ∀ t : Fin grid0.N, _)

/-- Row block `t` of window 0: its row `p` is row `64 t + p` of the array. -/
theorem rblk0 (c : Dev nD) (t : Fin cfg0.N) (p : Fin 64) (r : Fin 8) (k : Fin 512) (B : Fin 2048) (hB : B.val = t.val * 64 + p.val) :
    iblk m c 0 t (ix3 p r k) = (m ((c : Thread nD τ).loc main_arg0)) (ix3 B r k) := by
  refine Eq.trans ?_ (congrFun (V_main_arg0 m c) (ix3 B r k))
  show V m c main_arg0 (((cfg0.win 0).blk t).view.emb (ix3 p r k)) = V m c main_arg0 (ix3 B r k)
  refine congrArg (V m c main_arg0) (funext fun a => Fin.ext ?_)
  obtain ⟨e0, e1, e2, e3, e4, e5, -⟩ := rfacts t
  match a with
  | ⟨0, _⟩ => show win0_0.index t (0 : Fin 3) * 64 + 1 * p.val = B.val; rw [e0, hB]; omega
  | ⟨1, _⟩ => show win0_0.index t (1 : Fin 3) * 8 + 1 * r.val = r.val; rw [e1]; omega
  | ⟨2, _⟩ => show win0_0.index t (2 : Fin 3) * 512 + 1 * k.val = k.val; rw [e2]; omega

/-- Row block `t` of window 1: its row `p` is row `64 t + p` of the array. -/
theorem rblk1 (c : Dev nD) (t : Fin cfg0.N) (p : Fin 64) (r : Fin 8) (k : Fin 512) (B : Fin 2048) (hB : B.val = t.val * 64 + p.val) :
    iblk m c 1 t (ix3 p r k) = (m ((c : Thread nD τ).loc main_arg1)) (ix3 B r k) := by
  refine Eq.trans ?_ (congrFun (V_main_arg1 m c) (ix3 B r k))
  show V m c main_arg1 (((cfg0.win 1).blk t).view.emb (ix3 p r k)) = V m c main_arg1 (ix3 B r k)
  refine congrArg (V m c main_arg1) (funext fun a => Fin.ext ?_)
  obtain ⟨e0, e1, e2, e3, e4, e5, -⟩ := rfacts t
  match a with
  | ⟨0, _⟩ => show win0_1.index t (0 : Fin 3) * 64 + 1 * p.val = B.val; rw [e3, hB]; omega
  | ⟨1, _⟩ => show win0_1.index t (1 : Fin 3) * 8 + 1 * r.val = r.val; rw [e4]; omega
  | ⟨2, _⟩ => show win0_1.index t (2 : Fin 3) * 512 + 1 * k.val = k.val; rw [e5]; omega

/-! ## What each point writes back, the cover, the arrays after the run -/

/-- What point `t` writes back to output window 23 is block `t` of `GMem` of the argument arrays. -/
theorem flushed23_eq (c : Dev nD) (t : Fin cfg0.N) :
    (dats m 0 c).flushed 23 t = ((cfg0.win 23).blk t).view.read (Elt Ideal) (GMem (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) := by
  rw [Cert.KernelIdeal.Value.flushed23]
  funext j
  obtain ⟨p, s, d, rfl⟩ : ∃ (p : Fin 64) (s : Fin 8) (d : Fin 512), j = ix3 p s d := ⟨j 0, j 1, j 2, eq_ix3 j⟩
  have ht : t.val < 32 := lt_of_lt_of_eq t.isLt N_0
  have hB : t.val * 64 + p.val < 2048 := by have := p.isLt; omega
  obtain ⟨-, -, -, -, -, -, e6, e7, e8, e9, e10, e11⟩ := rfacts t
  show out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (ix3 p s d) = GMem (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (((cfg0.win 23).blk t).view.emb (ix3 p s d))
  refine (memNew_point (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (m ((c : Thread nD τ).loc main_arg0)) (m ((c : Thread nD τ).loc main_arg1)) p s d ⟨t.val * 64 + p.val, hB⟩
    (fun r k => rblk0 m c t p r k _ rfl) (fun r k => rblk1 m c t p r k _ rfl)).trans ?_
  rw [funext (wblk2 m c t), funext (wblk3 m c t), funext (wblk4 m c t), funext (wblk5 m c t), funext (wblk6 m c t), funext (wblk7 m c t), funext (wblk8 m c t), funext (wblk9 m c t), funext (wblk10 m c t), funext (wblk11 m c t), funext (wblk12 m c t), funext (wblk13 m c t), funext (wblk14 m c t), funext (wblk15 m c t), funext (wblk16 m c t), funext (wblk17 m c t), funext (wblk18 m c t), funext (wblk19 m c t), funext (wblk20 m c t), funext (wblk21 m c t)]
  refine (GMem_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) _ ⟨t.val * 64 + p.val, hB⟩ s d ?_ ?_ ?_).symm
  · show win0_23.index t (0 : Fin 3) * 64 + 1 * p.val = t.val * 64 + p.val; rw [e9]; omega
  · show win0_23.index t (1 : Fin 3) * 8 + 1 * s.val = s.val; rw [e10]; omega
  · show win0_23.index t (2 : Fin 3) * 512 + 1 * d.val = d.val; rw [e11]; omega

/-- An index of the array is in point `t`'s block of window 23 iff each coordinate is in the block's range on its axis. -/
theorem mem_blk23 (t : Fin cfg0.N) (i : S2048x8x512.Idx) :
    i ∈ ((cfg0.win 23).blk t).view.set ↔ ∀ a : Fin 3, win0_23.index t a * S64x8x512.size a ≤ (i a).val ∧ (i a).val < win0_23.index t a * S64x8x512.size a + S64x8x512.size a := by
  show i ∈ ((View.whole main_v10_1).slice (win0_23.rect t)).set ↔ _
  rw [View.set_slice_whole, Rect.mem_set_unit]
  exact Iff.rfl

/-- Every index of output window 23's array is in the block of the point its batch coordinate names. -/
theorem cover23 (i : S2048x8x512.Idx) :
    ∃ t : Fin cfg0.N, (cfg0.win 23).flush t = true ∧ i ∈ ((cfg0.win 23).blk t).view.set := by
  have hi0 : (i 0).val < 2048 := (i 0).isLt
  have hi1 : (i 1).val < 8 := (i 1).isLt
  have hi2 : (i 2).val < 512 := (i 2).isLt
  have hN : (i 0).val / 64 < cfg0.N := by rw [show cfg0.N = 32 from N_0]; omega
  refine ⟨⟨(i 0).val / 64, hN⟩, flush0_23 _, ?_⟩
  rw [mem_blk23]
  obtain ⟨-, -, -, -, -, -, e6, e7, e8, e9, e10, e11⟩ := rfacts ⟨(i 0).val / 64, hN⟩
  intro a
  match a with
  | ⟨0, _⟩ => show win0_23.index ⟨(i 0).val / 64, hN⟩ (0 : Fin 3) * 64 ≤ (i 0).val ∧ (i 0).val < win0_23.index ⟨(i 0).val / 64, hN⟩ (0 : Fin 3) * 64 + 64; rw [e9]; show (i 0).val / 64 * 64 ≤ (i 0).val ∧ (i 0).val < (i 0).val / 64 * 64 + 64; omega
  | ⟨1, _⟩ => show win0_23.index ⟨(i 0).val / 64, hN⟩ (1 : Fin 3) * 8 ≤ (i 1).val ∧ (i 1).val < win0_23.index ⟨(i 0).val / 64, hN⟩ (1 : Fin 3) * 8 + 8; rw [e10]; omega
  | ⟨2, _⟩ => show win0_23.index ⟨(i 0).val / 64, hN⟩ (2 : Fin 3) * 512 ≤ (i 2).val ∧ (i 2).val < win0_23.index ⟨(i 0).val / 64, hN⟩ (2 : Fin 3) * 512 + 512; rw [e11]; omega

/-- Output window 23's array after the run is `GMem` of the argument arrays. -/
theorem final23 (c : Dev nD) : (dats m 0 c).arrAt 23 cfg0.N = GMem (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  (dats m 0 c).arrAt_eq_of_cover 23 _ (fun t _ => flushed23_eq m c t) (cover23)

/-- What point `t` writes back to output window 22 is block `t` of `GOut` of the argument arrays. -/
theorem flushed22_eq (c : Dev nD) (t : Fin cfg0.N) :
    (dats m 0 c).flushed 22 t = ((cfg0.win 22).blk t).view.read (Elt Ideal) (GOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) := by
  rw [Cert.KernelIdeal.Value.flushed22]
  funext j
  obtain ⟨p, s, d, rfl⟩ : ∃ (p : Fin 64) (s : Fin 8) (d : Fin 512), j = ix3 p s d := ⟨j 0, j 1, j 2, eq_ix3 j⟩
  have ht : t.val < 32 := lt_of_lt_of_eq t.isLt N_0
  have hB : t.val * 64 + p.val < 2048 := by have := p.isLt; omega
  obtain ⟨-, -, -, -, -, -, e6, e7, e8, e9, e10, e11⟩ := rfacts t
  show out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (ix3 p s d) = GOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (((cfg0.win 22).blk t).view.emb (ix3 p s d))
  refine (hOut_point (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (m ((c : Thread nD τ).loc main_arg0)) (m ((c : Thread nD τ).loc main_arg1)) p s d ⟨t.val * 64 + p.val, hB⟩
    (fun r k => rblk0 m c t p r k _ rfl) (fun r k => rblk1 m c t p r k _ rfl)).trans ?_
  rw [funext (wblk2 m c t), funext (wblk3 m c t), funext (wblk4 m c t), funext (wblk5 m c t), funext (wblk6 m c t), funext (wblk7 m c t), funext (wblk8 m c t), funext (wblk9 m c t), funext (wblk10 m c t), funext (wblk11 m c t), funext (wblk12 m c t), funext (wblk13 m c t), funext (wblk14 m c t), funext (wblk15 m c t), funext (wblk16 m c t), funext (wblk17 m c t), funext (wblk18 m c t), funext (wblk19 m c t), funext (wblk20 m c t), funext (wblk21 m c t)]
  refine (GOut_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) _ ⟨t.val * 64 + p.val, hB⟩ s d ?_ ?_ ?_).symm
  · show win0_22.index t (0 : Fin 3) * 64 + 1 * p.val = t.val * 64 + p.val; rw [e6]; omega
  · show win0_22.index t (1 : Fin 3) * 8 + 1 * s.val = s.val; rw [e7]; omega
  · show win0_22.index t (2 : Fin 3) * 512 + 1 * d.val = d.val; rw [e8]; omega

/-- An index of the array is in point `t`'s block of window 22 iff each coordinate is in the block's range on its axis. -/
theorem mem_blk22 (t : Fin cfg0.N) (i : S2048x8x512.Idx) :
    i ∈ ((cfg0.win 22).blk t).view.set ↔ ∀ a : Fin 3, win0_22.index t a * S64x8x512.size a ≤ (i a).val ∧ (i a).val < win0_22.index t a * S64x8x512.size a + S64x8x512.size a := by
  show i ∈ ((View.whole main_v10_0).slice (win0_22.rect t)).set ↔ _
  rw [View.set_slice_whole, Rect.mem_set_unit]
  exact Iff.rfl

/-- Every index of output window 22's array is in the block of the point its batch coordinate names. -/
theorem cover22 (i : S2048x8x512.Idx) :
    ∃ t : Fin cfg0.N, (cfg0.win 22).flush t = true ∧ i ∈ ((cfg0.win 22).blk t).view.set := by
  have hi0 : (i 0).val < 2048 := (i 0).isLt
  have hi1 : (i 1).val < 8 := (i 1).isLt
  have hi2 : (i 2).val < 512 := (i 2).isLt
  have hN : (i 0).val / 64 < cfg0.N := by rw [show cfg0.N = 32 from N_0]; omega
  refine ⟨⟨(i 0).val / 64, hN⟩, flush0_22 _, ?_⟩
  rw [mem_blk22]
  obtain ⟨-, -, -, -, -, -, e6, e7, e8, e9, e10, e11⟩ := rfacts ⟨(i 0).val / 64, hN⟩
  intro a
  match a with
  | ⟨0, _⟩ => show win0_22.index ⟨(i 0).val / 64, hN⟩ (0 : Fin 3) * 64 ≤ (i 0).val ∧ (i 0).val < win0_22.index ⟨(i 0).val / 64, hN⟩ (0 : Fin 3) * 64 + 64; rw [e6]; show (i 0).val / 64 * 64 ≤ (i 0).val ∧ (i 0).val < (i 0).val / 64 * 64 + 64; omega
  | ⟨1, _⟩ => show win0_22.index ⟨(i 0).val / 64, hN⟩ (1 : Fin 3) * 8 ≤ (i 1).val ∧ (i 1).val < win0_22.index ⟨(i 0).val / 64, hN⟩ (1 : Fin 3) * 8 + 8; rw [e7]; omega
  | ⟨2, _⟩ => show win0_22.index ⟨(i 0).val / 64, hN⟩ (2 : Fin 3) * 512 ≤ (i 2).val ∧ (i 2).val < win0_22.index ⟨(i 0).val / 64, hN⟩ (2 : Fin 3) * 512 + 512; rw [e8]; omega

/-- Output window 22's array after the run is `GOut` of the argument arrays. -/
theorem final22 (c : Dev nD) : (dats m 0 c).arrAt 22 cfg0.N = GOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  (dats m 0 c).arrAt_eq_of_cover 22 _ (fun t _ => flushed22_eq m c t) (cover22)

end Cert.KerBlocks

end
-- ==== Proof.RefWrite.lean ====
/-
  The reference program computes the layer's write attention as the plain functions of `Cert.Spec`.

  For one batch element `B` the reference joins the eight input rows and the eight memory rows into sixteen rows,
  projects the memory rows to queries and the joined rows to keys (width 32) and values (width 512), divides the
  query-key products by the square root of the key width, takes each row's softmax (the row maximum from `-∞`, the
  shifted exponentials, their sum), applies the weights to the values and projects the result: the candidate written
  to each memory row. Each stage of the reference program is shown, at explicit coordinates, to be the
  corresponding function of `Cert.Spec` of the batch element's rows: the layout operations (reshape to a head axis of
  size one, transposition) only rename coordinates, a matrix product with a bias is `Spec.lin`, and the maximum over
  the last axis is the fold of `max` from `⊥` over that axis's coordinates.
-/
import proofs.«133350_j9835475108028_2_alg».proof.Proof.Gen.ReferenceIdeal.Read
import proofs.«133350_j9835475108028_2_alg».proof.Proof.AttnSpec
import Idealize.ShloMosaic.Lib.IdealHost

noncomputable section

namespace Cert.RefSide

open Cert.ReferenceIdeal Cert.ReferenceIdeal.Gen Cert.ReferenceIdeal.Read Idealize.ShloMosaic Idealize.ShloMosaic.ValueIdx

/-! ## Two indices are equal when their coordinates are -/

theorem idx1_ext {n0 : Nat} (i j : (⟨1, ![n0]⟩ : Shape).Idx) (h0 : (i 0).val = (j 0).val) : i = j :=
  funext fun a => Fin.ext (by match a with | ⟨0, _⟩ => exact h0)

theorem idx2_ext {n0 n1 : Nat} (i j : (⟨2, ![n0, n1]⟩ : Shape).Idx)
    (h0 : (i 0).val = (j 0).val) (h1 : (i 1).val = (j 1).val) : i = j :=
  funext fun a => Fin.ext (by match a with | ⟨0, _⟩ => exact h0 | ⟨1, _⟩ => exact h1)

theorem idx3_ext {n0 n1 n2 : Nat} (i j : (⟨3, ![n0, n1, n2]⟩ : Shape).Idx)
    (h0 : (i 0).val = (j 0).val) (h1 : (i 1).val = (j 1).val) (h2 : (i 2).val = (j 2).val) : i = j :=
  funext fun a => Fin.ext (by match a with | ⟨0, _⟩ => exact h0 | ⟨1, _⟩ => exact h1 | ⟨2, _⟩ => exact h2)

theorem idx4_ext {n0 n1 n2 n3 : Nat} (i j : (⟨4, ![n0, n1, n2, n3]⟩ : Shape).Idx)
    (h0 : (i 0).val = (j 0).val) (h1 : (i 1).val = (j 1).val) (h2 : (i 2).val = (j 2).val) (h3 : (i 3).val = (j 3).val) : i = j :=
  funext fun a => Fin.ext (by match a with | ⟨0, _⟩ => exact h0 | ⟨1, _⟩ => exact h1 | ⟨2, _⟩ => exact h2 | ⟨3, _⟩ => exact h3)

/-- Two indices whose coordinates compute to the same numbers are equal. -/
macro "idx_rfl" : tactic => `(tactic| first
  | exact idx1_ext _ _ rfl
  | exact idx2_ext _ _ rfl rfl
  | exact idx3_ext _ _ rfl rfl rfl
  | exact idx4_ext _ _ rfl rfl rfl rfl)

/-- The single-precision pattern `0xFF800000` is `-∞`, the least extended real. -/
theorem ofBits_negInf : Ideal.ofBits .f32 0xFF800000#32 = (⊥ : EReal) := by
  simp [Ideal.ofBits, Ideal.ieee]

variable (x0 : (⟨S2048x8x512, .f32⟩ : BufTy).Contents (Elt Ideal)) (x1 : (⟨S2048x8x512, .f32⟩ : BufTy).Contents (Elt Ideal)) (x2 : (⟨S32x512, .f32⟩ : BufTy).Contents (Elt Ideal)) (x3 : (⟨S32, .f32⟩ : BufTy).Contents (Elt Ideal)) (x4 : (⟨S32x512, .f32⟩ : BufTy).Contents (Elt Ideal)) (x5 : (⟨S32, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S1024x512, .f32⟩ : BufTy).Contents (Elt Ideal)) (x13 : (⟨S1024, .f32⟩ : BufTy).Contents (Elt Ideal)) (x14 : (⟨S128x512, .f32⟩ : BufTy).Contents (Elt Ideal)) (x15 : (⟨S128, .f32⟩ : BufTy).Contents (Elt Ideal)) (x16 : (⟨S128x512, .f32⟩ : BufTy).Contents (Elt Ideal)) (x17 : (⟨S128, .f32⟩ : BufTy).Contents (Elt Ideal)) (x18 : (⟨S2048x512, .f32⟩ : BufTy).Contents (Elt Ideal)) (x19 : (⟨S2048, .f32⟩ : BufTy).Contents (Elt Ideal)) (x20 : (⟨S512x2048, .f32⟩ : BufTy).Contents (Elt Ideal)) (x21 : (⟨S512, .f32⟩ : BufTy).Contents (Elt Ideal))
variable (B : Fin 2048)

local notation "W" => Cert.Spec.weightsOf x2 x3 x4 x5 x6 x7 x8 x9 x10 x11 x12 x13 x14 x15 x16 x17 x18 x19 x20 x21
local notation "hs" => Cert.Spec.rowsAt x0 B
local notation "me" => Cert.Spec.rowsAt x1 B

/-! ## The weights, read off the arrays -/

theorem W_wq (o : Fin 32) (i : Fin 512) : (W).wq o i = x2 (ix2 o i) := rfl
theorem W_bq (o : Fin 32) : (W).bq o = x3 (ix1 o) := rfl
theorem W_wk (o : Fin 32) (i : Fin 512) : (W).wk o i = x4 (ix2 o i) := rfl
theorem W_bk (o : Fin 32) : (W).bk o = x5 (ix1 o) := rfl
theorem W_wv (o : Fin 512) (i : Fin 512) : (W).wv o i = x6 (ix2 o i) := rfl
theorem W_bv (o : Fin 512) : (W).bv o = x7 (ix1 o) := rfl
theorem W_wo (o : Fin 512) (i : Fin 512) : (W).wo o i = x8 (ix2 o i) := rfl
theorem W_bo (o : Fin 512) : (W).bo o = x9 (ix1 o) := rfl
theorem W_wt (o : Fin 512) (i : Fin 512) : (W).wt o i = x10 (ix2 o i) := rfl
theorem W_bt (o : Fin 512) : (W).bt o = x11 (ix1 o) := rfl
theorem W_wg (o : Fin 1024) (i : Fin 512) : (W).wg o i = x12 (ix2 o i) := rfl
theorem W_bg (o : Fin 1024) : (W).bg o = x13 (ix1 o) := rfl
theorem W_rq (o : Fin 128) (i : Fin 512) : (W).rq o i = x14 (ix2 o i) := rfl
theorem W_rqb (o : Fin 128) : (W).rqb o = x15 (ix1 o) := rfl
theorem W_rk (o : Fin 128) (i : Fin 512) : (W).rk o i = x16 (ix2 o i) := rfl
theorem W_rkb (o : Fin 128) : (W).rkb o = x17 (ix1 o) := rfl
theorem W_rv (o : Fin 2048) (i : Fin 512) : (W).rv o i = x18 (ix2 o i) := rfl
theorem W_rvb (o : Fin 2048) : (W).rvb o = x19 (ix1 o) := rfl
theorem W_ro (o : Fin 512) (i : Fin 2048) : (W).ro o i = x20 (ix2 o i) := rfl
theorem W_rob (o : Fin 512) : (W).rob o = x21 (ix1 o) := rfl

/-! ## The sixteen joined rows -/

/-- Row `t` of the joined array is input row `t` for `t < 8` and memory row `t - 8` otherwise. -/
theorem v0_at (t : Fin 16) (i : Fin 512) :
    val_main_v0 (F := Ideal) x0 x1 (ix3 B t i) = Spec.joined hs me t i := by
  unfold val_main_v0 Spec.joined Spec.rowsAt
  by_cases h : t.val < 8
  · rw [dif_pos h]
    exact concatenate_pair_apply_left 1 x0 x1 _ (ix3 B t i) rfl (ix3 B ⟨t.val, h⟩ i)
      (fun b => match b with | ⟨0, _⟩ => rfl | ⟨1, _⟩ => rfl | ⟨2, _⟩ => rfl)
  · rw [dif_neg h]
    exact concatenate_pair_apply_right 1 x0 x1 _ (ix3 B t i) rfl rfl (ix3 B ⟨t.val - 8, by omega⟩ i)
      (fun b => match b with | ⟨0, _⟩ => fun _ => rfl | ⟨1, _⟩ => fun hb => absurd rfl hb | ⟨2, _⟩ => fun _ => rfl)
      (by show t.val - 8 + 8 = t.val; omega)

/-! ## Write attention: queries, keys, values -/

/-- The query projection of memory row `s`: its products with the rows of the weight matrix, plus the bias. -/
theorem v4_at (s : Fin 8) (o : Fin 32) :
    val_main_v4 (F := Ideal) x1 x2 x3 (ix3 B s o) = Spec.wQ W me s o := by
  rw [val_main_v4_apply, val_main_v1_apply, val_main_v3_apply, val_main_v2_apply]
  simp only [Spec.wQ, Spec.lin, W_wq, W_bq, W_wk, W_bk, W_wv, W_bv, W_wo, W_bo, W_wt, W_bt, W_wg, W_bg, W_rq, W_rqb, W_rk, W_rkb, W_rv, W_rvb, W_ro, W_rob, Spec.rowsAt, Ideal.addf_def]
  refine congrArg₂ (· + ·) (Finset.sum_congr rfl fun k _ => congrArg₂ (· * ·) (congrArg x1 ?_) (congrArg x2 ?_)) (congrArg x3 ?_) <;> idx_rfl

/-- Inserting a head axis of size one and moving it in front of the row axis only renames coordinates. -/
theorem v6_at (z : Fin 1) (s : Fin 8) (o : Fin 32) :
    val_main_v6 (F := Ideal) x1 x2 x3 (ix4 B z s o) = Spec.wQ W me s o := by
  rw [val_main_v6_apply, val_main_v5_apply, ← v4_at]
  refine congrArg _ ?_
  have := B.isLt; have := s.isLt; have := z.isLt; have := o.isLt
  refine idx3_ext _ _ ?_ ?_ ?_ <;> (dsimp only [idx_main_v5, idx_main_v6, ix4, ix3]; omega)

/-- The key projection of joined row `t`. -/
theorem v10_at (t : Fin 16) (o : Fin 32) :
    val_main_v10 (F := Ideal) x0 x1 x4 x5 (ix3 B t o) = Spec.wK W hs me t o := by
  rw [val_main_v10_apply, val_main_v7_apply, val_main_v9_apply, val_main_v8_apply]
  simp only [Spec.wK, Spec.lin, W_wq, W_bq, W_wk, W_bk, W_wv, W_bv, W_wo, W_bo, W_wt, W_bt, W_wg, W_bg, W_rq, W_rqb, W_rk, W_rkb, W_rv, W_rvb, W_ro, W_rob, Ideal.addf_def]
  refine congrArg₂ (· + ·) (Finset.sum_congr rfl fun k _ => congrArg₂ (· * ·) ?_ (congrArg x4 ?_)) (congrArg x5 ?_)
  · rw [← v0_at]; exact congrArg _ (by idx_rfl)
  · idx_rfl
  · idx_rfl

/-- The keys after the head axis of size one is inserted and moved: the same numbers. -/
theorem v12_at (z : Fin 1) (t : Fin 16) (o : Fin 32) :
    val_main_v12 (F := Ideal) x0 x1 x4 x5 (ix4 B z t o) = Spec.wK W hs me t o := by
  rw [val_main_v12_apply, val_main_v11_apply, ← v10_at]
  refine congrArg _ ?_
  have := B.isLt; have := t.isLt; have := z.isLt; have := o.isLt
  refine idx3_ext _ _ ?_ ?_ ?_ <;> (dsimp only [idx_main_v11, idx_main_v12, ix4, ix3]; omega)

/-- The value projection of joined row `t`. -/
theorem v16_at (t : Fin 16) (d : Fin 512) :
    val_main_v16 (F := Ideal) x0 x1 x6 x7 (ix3 B t d) = Spec.wV W hs me t d := by
  rw [val_main_v16_apply, val_main_v13_apply, val_main_v15_apply, val_main_v14_apply]
  simp only [Spec.wV, Spec.lin, W_wq, W_bq, W_wk, W_bk, W_wv, W_bv, W_wo, W_bo, W_wt, W_bt, W_wg, W_bg, W_rq, W_rqb, W_rk, W_rkb, W_rv, W_rvb, W_ro, W_rob, Ideal.addf_def]
  refine congrArg₂ (· + ·) (Finset.sum_congr rfl fun k _ => congrArg₂ (· * ·) ?_ (congrArg x6 ?_)) (congrArg x7 ?_)
  · rw [← v0_at]; exact congrArg _ (by idx_rfl)
  · idx_rfl
  · idx_rfl

/-- The values after the head axis of size one is inserted and moved: the same numbers. -/
theorem v18_at (z : Fin 1) (t : Fin 16) (d : Fin 512) :
    val_main_v18 (F := Ideal) x0 x1 x6 x7 (ix4 B z t d) = Spec.wV W hs me t d := by
  rw [val_main_v18_apply, val_main_v17_apply, ← v16_at]
  refine congrArg _ ?_
  have := B.isLt; have := t.isLt; have := z.isLt; have := d.isLt
  refine idx3_ext _ _ ?_ ?_ ?_ <;> (dsimp only [idx_main_v17, idx_main_v18, ix4, ix3]; omega)

/-! ## Write attention: scaled scores and their softmax -/

local notation "SC" => Cert.Spec.score (Cert.Spec.wQ W me) (Cert.Spec.wK W hs me)

/-- The score of memory row `s` against joined row `t`: the sum over the 32 key coordinates of query times key, divided by `D`. -/
theorem v21_at (s : Fin 8) (t : Fin 16) :
    val_main_v21 (F := Ideal) x0 x1 x2 x3 x4 x5 (ix4 B 0 s t) = SC s t := by
  rw [val_main_v21_apply, val_main_v19_apply, val_main_v20_apply, val_main_cst_apply]
  simp only [Spec.score, Spec.D, Ideal.hostDivf_def, Ideal.ofBits_def]
  refine congrArg (Ideal.div · _) (Finset.sum_congr rfl fun k _ => congrArg₂ (· * ·) ?_ ?_)
  · rw [← v6_at (z := 0)]; exact congrArg _ (by idx_rfl)
  · rw [← v12_at (z := 0)]; exact congrArg _ (by idx_rfl)

/-- The maximum over the last axis, from `-∞`: the fold of `max` from `⊥` over the sixteen scores of row `s`. -/
theorem v22_at (s : Fin 8) :
    val_main_v22 (F := Ideal) x0 x1 x2 x3 x4 x5 (ix3 B 0 s) = Spec.rowMax (SC s) := by
  have h : S2048x1x8x16.Reduces [3] S2048x1x8 := by decide
  unfold val_main_v22
  rw [Host.reduce_eq_fold_single FloatOps.maximumf _ _ reducesTo_S2048x1x8x16_S2048x1x8_d3 h h_S_, val_main_cst_0_apply]
  simp only [Spec.rowMax, Ideal.ofBits_def, ofBits_negInf]
  refine Finset.fold_congr fun (k : Fin 16) _ => ?_
  show val_main_v21 (F := Ideal) x0 x1 x2 x3 x4 x5 (h.lift (ix3 B 0 s) k) = _
  rw [← v21_at]; exact congrArg _ (by idx_rfl)

/-- The larger of `-∞` and the row maximum is the row maximum. -/
theorem v24_at (s : Fin 8) :
    val_main_v24 (F := Ideal) x0 x1 x2 x3 x4 x5 (ix3 B 0 s) = Spec.rowMax (SC s) := by
  rw [val_main_v24_apply, val_main_v23_apply, val_main_cst_1_apply, v22_at x0 x1 x2 x3 x4 x5 x6 x7 x8 x9 x10 x11 x12 x13 x14 x15 x16 x17 x18 x19 x20 x21 B]
  simp only [Ideal.maximumf_def, Ideal.ofBits_def, ofBits_negInf, max_bot_left]

/-- The exponential of a score less its row's maximum. -/
theorem v28_at (s : Fin 8) (t : Fin 16) :
    val_main_v28 (F := Ideal) x0 x1 x2 x3 x4 x5 (ix4 B 0 s t) = Ideal.exp (SC s t - Spec.rowMax (SC s)) := by
  rw [val_main_v28_apply, val_main_v27_apply, val_main_v26_apply, val_main_v25_apply, v21_at x0 x1 x2 x3 x4 x5 x6 x7 x8 x9 x10 x11 x12 x13 x14 x15 x16 x17 x18 x19 x20 x21 B]
  have e : idx_main_v25 (idx_main_v26 (ix4 B 0 s t)) = ix3 B 0 s := by idx_rfl
  rw [e, v24_at x0 x1 x2 x3 x4 x5 x6 x7 x8 x9 x10 x11 x12 x13 x14 x15 x16 x17 x18 x19 x20 x21 B]
  simp only [Ideal.hostUnary_exp_def, Ideal.subf_def]

/-- The softmax weight: the shifted exponential divided by the row's sum of them (the sum starts from zero). -/
theorem v32_at (s : Fin 8) (t : Fin 16) :
    val_main_v32 (F := Ideal) x0 x1 x2 x3 x4 x5 (ix4 B 0 s t) = Spec.smx (SC s) t := by
  rw [val_main_v32_apply, val_main_v31_apply, val_main_v30_apply, val_main_v29_apply, val_main_cst_2_apply, v28_at x0 x1 x2 x3 x4 x5 x6 x7 x8 x9 x10 x11 x12 x13 x14 x15 x16 x17 x18 x19 x20 x21 B]
  simp only [Spec.smx, Ideal.hostDivf_def, Ideal.ofBits_def, Ideal.ofBits_zero_f32, zero_add]
  refine congrArg (Ideal.div _ ·) (Finset.sum_congr rfl fun k _ => ?_)
  rw [← v28_at]; exact congrArg _ (by idx_rfl)

/-! ## Write attention: what each memory row gathers, and the candidate -/

/-- What memory row `s` gathers: the softmax weights of its scores applied to the sixteen value rows. -/
theorem v33_at (s : Fin 8) (d : Fin 512) :
    val_main_v33 (F := Ideal) x0 x1 x2 x3 x4 x5 x6 x7 (ix4 B 0 s d) = Spec.wCtx W hs me s d := by
  rw [val_main_v33_apply]
  simp only [Spec.wCtx, Spec.attend]
  refine Finset.sum_congr rfl fun k _ => congrArg₂ (· * ·) ?_ ?_
  · rw [← v32_at]; exact congrArg _ (by idx_rfl)
  · rw [← v18_at (z := 0)]; exact congrArg _ (by idx_rfl)

/-- Moving the head axis of size one back and dropping it only renames coordinates. -/
theorem v35_at (s : Fin 8) (d : Fin 512) :
    val_main_v35 (F := Ideal) x0 x1 x2 x3 x4 x5 x6 x7 (ix3 B s d) = Spec.wCtx W hs me s d := by
  rw [val_main_v35_apply, val_main_v34_apply, ← v33_at]
  refine congrArg _ ?_
  have := B.isLt; have := s.isLt; have := d.isLt
  refine idx4_ext _ _ ?_ ?_ ?_ ?_ <;> (dsimp only [idx_main_v34, idx_main_v35, ix4, ix3]; first | rfl | omega)

/-- The candidate written to memory row `s`: the output projection of what it gathered. -/
theorem v39_at (s : Fin 8) (d : Fin 512) :
    val_main_v39 (F := Ideal) x0 x1 x2 x3 x4 x5 x6 x7 x8 x9 (ix3 B s d) = Spec.memWrite W hs me s d := by
  rw [val_main_v39_apply, val_main_v36_apply, val_main_v38_apply, val_main_v37_apply]
  simp only [Spec.memWrite, Spec.lin, W_wq, W_bq, W_wk, W_bk, W_wv, W_bv, W_wo, W_bo, W_wt, W_bt, W_wg, W_bg, W_rq, W_rqb, W_rk, W_rkb, W_rv, W_rvb, W_ro, W_rob, Ideal.addf_def]
  refine congrArg₂ (· + ·) (Finset.sum_congr rfl fun k _ => congrArg₂ (· * ·) ?_ (congrArg x8 ?_)) (congrArg x9 ?_)
  · rw [← v35_at]; exact congrArg _ (by idx_rfl)
  · idx_rfl
  · idx_rfl

end Cert.RefSide
-- ==== Proof.RefUpdate.lean ====
/-
  The reference program's gated update of the memory rows is `Cert.Spec.memNew`.

  The input rows are projected and rectified, averaged over the eight rows (their sum divided by eight), and added to
  the hyperbolic tangent of each memory row; a projection to 1024 numbers followed by the logistic function
  `1 / (1 + e^(-x))` gives the input gates (the first 512) and the forget gates (the last 512); the new memory row is
  the input gate times the hyperbolic tangent of the candidate plus the forget gate times the old row.
-/
import proofs.«133350_j9835475108028_2_alg».proof.Proof.Gen.ReferenceIdeal.Read
import proofs.«133350_j9835475108028_2_alg».proof.Proof.AttnSpec
import Idealize.ShloMosaic.Lib.IdealHost
import proofs.«133350_j9835475108028_2_alg».proof.Proof.RefWrite

noncomputable section

namespace Cert.RefSide

open Cert.ReferenceIdeal Cert.ReferenceIdeal.Gen Cert.ReferenceIdeal.Read Idealize.ShloMosaic Idealize.ShloMosaic.ValueIdx

variable (x0 : (⟨S2048x8x512, .f32⟩ : BufTy).Contents (Elt Ideal)) (x1 : (⟨S2048x8x512, .f32⟩ : BufTy).Contents (Elt Ideal)) (x2 : (⟨S32x512, .f32⟩ : BufTy).Contents (Elt Ideal)) (x3 : (⟨S32, .f32⟩ : BufTy).Contents (Elt Ideal)) (x4 : (⟨S32x512, .f32⟩ : BufTy).Contents (Elt Ideal)) (x5 : (⟨S32, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S1024x512, .f32⟩ : BufTy).Contents (Elt Ideal)) (x13 : (⟨S1024, .f32⟩ : BufTy).Contents (Elt Ideal)) (x14 : (⟨S128x512, .f32⟩ : BufTy).Contents (Elt Ideal)) (x15 : (⟨S128, .f32⟩ : BufTy).Contents (Elt Ideal)) (x16 : (⟨S128x512, .f32⟩ : BufTy).Contents (Elt Ideal)) (x17 : (⟨S128, .f32⟩ : BufTy).Contents (Elt Ideal)) (x18 : (⟨S2048x512, .f32⟩ : BufTy).Contents (Elt Ideal)) (x19 : (⟨S2048, .f32⟩ : BufTy).Contents (Elt Ideal)) (x20 : (⟨S512x2048, .f32⟩ : BufTy).Contents (Elt Ideal)) (x21 : (⟨S512, .f32⟩ : BufTy).Contents (Elt Ideal))
variable (B : Fin 2048)

local notation "W" => Cert.Spec.weightsOf x2 x3 x4 x5 x6 x7 x8 x9 x10 x11 x12 x13 x14 x15 x16 x17 x18 x19 x20 x21
local notation "hs" => Cert.Spec.rowsAt x0 B
local notation "me" => Cert.Spec.rowsAt x1 B

/-! ## The gated update -/

/-- The projection of input row `r` that the gates' input is built from. -/
theorem v43_at (r : Fin 8) (d : Fin 512) :
    val_main_v43 (F := Ideal) x0 x10 x11 (ix3 B r d) = Spec.lin (hs r) (W).wt (W).bt d := by
  rw [val_main_v43_apply, val_main_v40_apply, val_main_v42_apply, val_main_v41_apply]
  simp only [Spec.lin, W_wt, W_bt, Spec.rowsAt, Ideal.addf_def]
  refine congrArg₂ (· + ·) (Finset.sum_congr rfl fun k _ => congrArg₂ (· * ·) (congrArg x0 ?_) (congrArg x10 ?_)) (congrArg x11 ?_) <;> idx_rfl

/-- Rectified: the larger of the projection and zero. -/
theorem v44_at (r : Fin 8) (d : Fin 512) :
    val_main_v44 (F := Ideal) x0 x10 x11 (ix3 B r d) = Spec.inProj W hs r d := by
  rw [val_main_v44_apply, val_main_call0_v0_apply, val_main_call0_cst_apply, v43_at x0 x2 x3 x4 x5 x6 x7 x8 x9 x10 x11 x12 x13 x14 x15 x16 x17 x18 x19 x20 x21 B]
  simp only [Spec.inProj, Ideal.maximumf_def, Ideal.ofBits_def, Ideal.ofBits_zero_f32]

/-- The mean over the eight input rows: their sum (from zero) divided by eight. -/
theorem v48_at (d : Fin 512) :
    val_main_v48 (F := Ideal) x0 x10 x11 (ix3 B 0 d) = Spec.inMean W hs d := by
  rw [val_main_v48_apply, val_main_v46_apply, val_main_v45_apply, val_main_v47_apply, val_main_cst_4_apply, val_main_cst_3_apply]
  simp only [Spec.inMean, Spec.eight, Ideal.hostDivf_def, Ideal.ofBits_def, Ideal.ofBits_zero_f32, zero_add]
  refine congrArg (Ideal.div · _) (Finset.sum_congr rfl fun k _ => ?_)
  rw [← v44_at]; exact congrArg _ (by idx_rfl)

/-- The gates' input: the mean, the same for every memory row, plus the hyperbolic tangent of the memory row. -/
theorem v51_at (s : Fin 8) (d : Fin 512) :
    val_main_v51 (F := Ideal) x0 x1 x10 x11 (ix3 B s d) = Spec.gateIn W hs me s d := by
  rw [val_main_v51_apply, val_main_v50_apply, val_main_v49_apply]
  have e : idx_main_v50 (ix3 B s d) = ix3 B 0 d := by idx_rfl
  rw [e, v48_at x0 x2 x3 x4 x5 x6 x7 x8 x9 x10 x11 x12 x13 x14 x15 x16 x17 x18 x19 x20 x21 B]
  simp only [Spec.gateIn, Spec.rowsAt, Ideal.addf_def, Ideal.hostUnary_tanh_def]

/-- The gates before the logistic function: a projection of the gates' input to 1024 numbers. -/
theorem v55_at (s : Fin 8) (j : Fin 1024) :
    val_main_v55 (F := Ideal) x0 x1 x10 x11 x12 x13 (ix3 B s j) = Spec.lin (Spec.gateIn W hs me s) (W).wg (W).bg j := by
  rw [val_main_v55_apply, val_main_v52_apply, val_main_v54_apply, val_main_v53_apply]
  simp only [Spec.lin, W_wg, W_bg, Ideal.addf_def]
  refine congrArg₂ (· + ·) (Finset.sum_congr rfl fun k _ => congrArg₂ (· * ·) ?_ (congrArg x12 ?_)) (congrArg x13 ?_)
  · rw [← v51_at]; exact congrArg _ (by idx_rfl)
  · idx_rfl
  · idx_rfl

/-- The gates: `1 / (1 + e^(-x))` is the logistic function. -/
theorem v61_at (s : Fin 8) (j : Fin 1024) :
    val_main_v61 (F := Ideal) x0 x1 x10 x11 x12 x13 (ix3 B s j) = Spec.gate W hs me s j := by
  rw [val_main_v61_apply, val_main_v60_apply, val_main_cst_6_apply, val_main_v59_apply, val_main_v58_apply, val_main_cst_5_apply,
    val_main_v57_apply, val_main_v56_apply, v55_at x0 x1 x2 x3 x4 x5 x6 x7 x8 x9 x10 x11 x12 x13 x14 x15 x16 x17 x18 x19 x20 x21 B]
  simp only [Spec.gate, Ideal.logistic, Ideal.hostDivf_def, Ideal.ofBits_def, Ideal.ofBits_one_f32, Ideal.addf_def,
    Ideal.hostUnary_exp_def, Ideal.hostNegf_def, Ideal.negf_def]

/-- The new memory row: the first 512 gates times the hyperbolic tangent of the candidate, plus the last 512 gates times the old row. -/
theorem v67_at (s : Fin 8) (d : Fin 512) :
    val_main_v67 (F := Ideal) x0 x1 x2 x3 x4 x5 x6 x7 x8 x9 x10 x11 x12 x13 (ix3 B s d) = Spec.memNew W hs me s d := by
  rw [val_main_v67_apply, val_main_v65_apply, val_main_v66_apply, val_main_v62_apply, val_main_v63_apply, val_main_v64_apply, v39_at x0 x1 x2 x3 x4 x5 x6 x7 x8 x9 x10 x11 x12 x13 x14 x15 x16 x17 x18 x19 x20 x21 B]
  have e0 : idx_main_v62 (ix3 B s d) = ix3 B s ⟨d.val, by omega⟩ := by idx_rfl
  have e1 : idx_main_v63 (ix3 B s d) = ix3 B s ⟨512 + d.val, by omega⟩ := by idx_rfl
  rw [e0, e1, v61_at x0 x1 x2 x3 x4 x5 x6 x7 x8 x9 x10 x11 x12 x13 x14 x15 x16 x17 x18 x19 x20 x21 B, v61_at x0 x1 x2 x3 x4 x5 x6 x7 x8 x9 x10 x11 x12 x13 x14 x15 x16 x17 x18 x19 x20 x21 B]
  simp only [Spec.memNew, Spec.rowsAt, Ideal.addf_def, Ideal.mulf_def, Ideal.hostUnary_tanh_def]

/-- The reference's second result is the new memory rows. -/
theorem memNew_eq (s : Fin 8) (d : Fin 512) :
    val_main_v67 (F := Ideal) x0 x1 x2 x3 x4 x5 x6 x7 x8 x9 x10 x11 x12 x13 (ValueIdx.ix3 B s d)
      = Cert.Spec.memNew (Cert.Spec.weightsOf x2 x3 x4 x5 x6 x7 x8 x9 x10 x11 x12 x13 x14 x15 x16 x17 x18 x19 x20 x21)
          (Cert.Spec.rowsAt x0 B) (Cert.Spec.rowsAt x1 B) s d :=
  v67_at x0 x1 x2 x3 x4 x5 x6 x7 x8 x9 x10 x11 x12 x13 x14 x15 x16 x17 x18 x19 x20 x21 B s d

end Cert.RefSide
-- ==== Proof.RefRead.lean ====
/-
  The reference program's read attention and output are `Cert.Spec.hOut`.

  The input rows are projected to queries and the new memory rows to keys and values, 128 = 4 · 32 query and key
  coordinates and 2048 = 4 · 512 value coordinates; reshaping the last axis to (head, coordinate) and transposing gives
  head `h` the coordinates `32 h + o` (queries, keys) and `512 h + d` (values). Each head's scaled scores go through
  the same softmax as the write attention's; the heads' gathered values are laid side by side again (coordinate
  `j` of the 2048 comes from head `j / 512`, coordinate `j % 512`), projected, and added to the input rows.
-/
import proofs.«133350_j9835475108028_2_alg».proof.Proof.Gen.ReferenceIdeal.Read
import proofs.«133350_j9835475108028_2_alg».proof.Proof.AttnSpec
import Idealize.ShloMosaic.Lib.IdealHost
import proofs.«133350_j9835475108028_2_alg».proof.Proof.RefUpdate

noncomputable section

namespace Cert.RefSide

open Cert.ReferenceIdeal Cert.ReferenceIdeal.Gen Cert.ReferenceIdeal.Read Idealize.ShloMosaic Idealize.ShloMosaic.ValueIdx

variable (x0 : (⟨S2048x8x512, .f32⟩ : BufTy).Contents (Elt Ideal)) (x1 : (⟨S2048x8x512, .f32⟩ : BufTy).Contents (Elt Ideal)) (x2 : (⟨S32x512, .f32⟩ : BufTy).Contents (Elt Ideal)) (x3 : (⟨S32, .f32⟩ : BufTy).Contents (Elt Ideal)) (x4 : (⟨S32x512, .f32⟩ : BufTy).Contents (Elt Ideal)) (x5 : (⟨S32, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S1024x512, .f32⟩ : BufTy).Contents (Elt Ideal)) (x13 : (⟨S1024, .f32⟩ : BufTy).Contents (Elt Ideal)) (x14 : (⟨S128x512, .f32⟩ : BufTy).Contents (Elt Ideal)) (x15 : (⟨S128, .f32⟩ : BufTy).Contents (Elt Ideal)) (x16 : (⟨S128x512, .f32⟩ : BufTy).Contents (Elt Ideal)) (x17 : (⟨S128, .f32⟩ : BufTy).Contents (Elt Ideal)) (x18 : (⟨S2048x512, .f32⟩ : BufTy).Contents (Elt Ideal)) (x19 : (⟨S2048, .f32⟩ : BufTy).Contents (Elt Ideal)) (x20 : (⟨S512x2048, .f32⟩ : BufTy).Contents (Elt Ideal)) (x21 : (⟨S512, .f32⟩ : BufTy).Contents (Elt Ideal))
variable (B : Fin 2048)

local notation "W" => Cert.Spec.weightsOf x2 x3 x4 x5 x6 x7 x8 x9 x10 x11 x12 x13 x14 x15 x16 x17 x18 x19 x20 x21
local notation "hs" => Cert.Spec.rowsAt x0 B
local notation "me" => Cert.Spec.rowsAt x1 B

/-! ## Read attention: queries of the input rows, keys and values of the new memory rows, for the four heads -/

/-- The 128 query coordinates of input row `n`, the four heads side by side. -/
theorem v71_at (n : Fin 8) (j : Fin 128) :
    val_main_v71 (F := Ideal) x0 x14 x15 (ix3 B n j) = Spec.rQ W hs n j := by
  rw [val_main_v71_apply, val_main_v68_apply, val_main_v70_apply, val_main_v69_apply]
  simp only [Spec.rQ, Spec.rowsAt, Spec.lin, W_rq, W_rqb, Ideal.addf_def]
  refine congrArg₂ (· + ·) (Finset.sum_congr rfl fun k _ => congrArg₂ (· * ·) ?_ (congrArg x14 ?_)) (congrArg x15 ?_)
  · exact congrArg x0 (by idx_rfl)
  · idx_rfl
  · idx_rfl

/-- Splitting the 128 coordinates into (head, 32) and moving the head axis forward: head `h` holds coordinates `32 h + o`. -/
theorem v73_at (h : Fin 4) (n : Fin 8) (o : Fin 32) :
    val_main_v73 (F := Ideal) x0 x14 x15 (ix4 B h n o) = Spec.rQ W hs n ⟨32 * h.val + o.val, by omega⟩ := by
  rw [val_main_v73_apply, val_main_v72_apply, ← v71_at]
  refine congrArg _ ?_
  have := B.isLt; have := h.isLt; have := n.isLt; have := o.isLt
  refine idx3_ext _ _ ?_ ?_ ?_ <;> (dsimp only [idx_main_v72, idx_main_v73, ix4, ix3]; omega)

/-- The 128 key coordinates of new memory row `s`. -/
theorem v77_at (s : Fin 8) (j : Fin 128) :
    val_main_v77 (F := Ideal) x0 x1 x2 x3 x4 x5 x6 x7 x8 x9 x10 x11 x12 x13 x16 x17 (ix3 B s j) = Spec.rK W hs me s j := by
  rw [val_main_v77_apply, val_main_v74_apply, val_main_v76_apply, val_main_v75_apply]
  simp only [Spec.rK, Spec.lin, W_rk, W_rkb, Ideal.addf_def]
  refine congrArg₂ (· + ·) (Finset.sum_congr rfl fun k _ => congrArg₂ (· * ·) ?_ (congrArg x16 ?_)) (congrArg x17 ?_)
  · rw [← v67_at]; exact congrArg _ (by idx_rfl)
  · idx_rfl
  · idx_rfl

/-- Head `h`'s keys are coordinates `32 h + o`. -/
theorem v79_at (h : Fin 4) (s : Fin 8) (o : Fin 32) :
    val_main_v79 (F := Ideal) x0 x1 x2 x3 x4 x5 x6 x7 x8 x9 x10 x11 x12 x13 x16 x17 (ix4 B h s o) = Spec.rK W hs me s ⟨32 * h.val + o.val, by omega⟩ := by
  rw [val_main_v79_apply, val_main_v78_apply, ← v77_at]
  refine congrArg _ ?_
  have := B.isLt; have := h.isLt; have := s.isLt; have := o.isLt
  refine idx3_ext _ _ ?_ ?_ ?_ <;> (dsimp only [idx_main_v78, idx_main_v79, ix4, ix3]; omega)

/-- The 2048 value coordinates of new memory row `s`. -/
theorem v83_at (s : Fin 8) (j : Fin 2048) :
    val_main_v83 (F := Ideal) x0 x1 x2 x3 x4 x5 x6 x7 x8 x9 x10 x11 x12 x13 x18 x19 (ix3 B s j) = Spec.rV W hs me s j := by
  rw [val_main_v83_apply, val_main_v80_apply, val_main_v82_apply, val_main_v81_apply]
  simp only [Spec.rV, Spec.lin, W_rv, W_rvb, Ideal.addf_def]
  refine congrArg₂ (· + ·) (Finset.sum_congr rfl fun k _ => congrArg₂ (· * ·) ?_ (congrArg x18 ?_)) (congrArg x19 ?_)
  · rw [← v67_at]; exact congrArg _ (by idx_rfl)
  · idx_rfl
  · idx_rfl

/-- Head `h`'s values are coordinates `512 h + d`. -/
theorem v85_at (h : Fin 4) (s : Fin 8) (d : Fin 512) :
    val_main_v85 (F := Ideal) x0 x1 x2 x3 x4 x5 x6 x7 x8 x9 x10 x11 x12 x13 x18 x19 (ix4 B h s d) = Spec.rV W hs me s ⟨512 * h.val + d.val, by omega⟩ := by
  rw [val_main_v85_apply, val_main_v84_apply, ← v83_at]
  refine congrArg _ ?_
  have := B.isLt; have := h.isLt; have := s.isLt; have := d.isLt
  refine idx3_ext _ _ ?_ ?_ ?_ <;> (dsimp only [idx_main_v84, idx_main_v85, ix4, ix3]; omega)

/-! ## Read attention: each head's scaled scores and their softmax -/

/-- Head `h`'s score of input row `n` against memory row `s`, divided by `D`. -/
theorem v88_at (h : Fin 4) (n s : Fin 8) :
    val_main_v88 (F := Ideal) x0 x1 x2 x3 x4 x5 x6 x7 x8 x9 x10 x11 x12 x13 x14 x15 x16 x17 (ix4 B h n s) = Spec.rScore W hs me h n s := by
  rw [val_main_v88_apply, val_main_v86_apply, val_main_v87_apply, val_main_cst_7_apply]
  simp only [Spec.rScore, Spec.D, Ideal.hostDivf_def, Ideal.ofBits_def]
  refine congrArg (Ideal.div · _) (Finset.sum_congr rfl fun k _ => congrArg₂ (· * ·) ?_ ?_)
  · rw [← v73_at]; exact congrArg _ (by idx_rfl)
  · rw [← v79_at]; exact congrArg _ (by idx_rfl)

/-- The maximum over the last axis, from `-∞`: the fold of `max` from `⊥` over the eight scores of the row. -/
theorem v89_at (h : Fin 4) (n : Fin 8) :
    val_main_v89 (F := Ideal) x0 x1 x2 x3 x4 x5 x6 x7 x8 x9 x10 x11 x12 x13 x14 x15 x16 x17 (ix3 B h n) = Spec.rowMax (Spec.rScore W hs me h n) := by
  have hr : S2048x4x8x8.Reduces [3] S2048x4x8 := by decide
  unfold val_main_v89
  rw [Host.reduce_eq_fold_single FloatOps.maximumf _ _ reducesTo_S2048x4x8x8_S2048x4x8_d3 hr h_S_, val_main_cst_8_apply]
  simp only [Spec.rowMax, Ideal.ofBits_def, ofBits_negInf]
  refine Finset.fold_congr fun (k : Fin 8) _ => ?_
  show val_main_v88 (F := Ideal) x0 x1 x2 x3 x4 x5 x6 x7 x8 x9 x10 x11 x12 x13 x14 x15 x16 x17 (hr.lift (ix3 B h n) k) = _
  rw [← v88_at]; exact congrArg _ (by idx_rfl)

/-- The larger of `-∞` and the row maximum is the row maximum. -/
theorem v91_at (h : Fin 4) (n : Fin 8) :
    val_main_v91 (F := Ideal) x0 x1 x2 x3 x4 x5 x6 x7 x8 x9 x10 x11 x12 x13 x14 x15 x16 x17 (ix3 B h n) = Spec.rowMax (Spec.rScore W hs me h n) := by
  rw [val_main_v91_apply, val_main_v90_apply, val_main_cst_9_apply, v89_at x0 x1 x2 x3 x4 x5 x6 x7 x8 x9 x10 x11 x12 x13 x14 x15 x16 x17 x18 x19 x20 x21 B]
  simp only [Ideal.maximumf_def, Ideal.ofBits_def, ofBits_negInf, max_bot_left]

/-- The exponential of a score less its row's maximum. -/
theorem v95_at (h : Fin 4) (n s : Fin 8) :
    val_main_v95 (F := Ideal) x0 x1 x2 x3 x4 x5 x6 x7 x8 x9 x10 x11 x12 x13 x14 x15 x16 x17 (ix4 B h n s)
      = Ideal.exp (Spec.rScore W hs me h n s - Spec.rowMax (Spec.rScore W hs me h n)) := by
  rw [val_main_v95_apply, val_main_v94_apply, val_main_v93_apply, val_main_v92_apply, v88_at x0 x1 x2 x3 x4 x5 x6 x7 x8 x9 x10 x11 x12 x13 x14 x15 x16 x17 x18 x19 x20 x21 B]
  have e : idx_main_v92 (idx_main_v93 (ix4 B h n s)) = ix3 B h n := by idx_rfl
  rw [e, v91_at x0 x1 x2 x3 x4 x5 x6 x7 x8 x9 x10 x11 x12 x13 x14 x15 x16 x17 x18 x19 x20 x21 B]
  simp only [Ideal.hostUnary_exp_def, Ideal.subf_def]

/-- The softmax weight of head `h`, input row `n`, memory row `s`. -/
theorem v99_at (h : Fin 4) (n s : Fin 8) :
    val_main_v99 (F := Ideal) x0 x1 x2 x3 x4 x5 x6 x7 x8 x9 x10 x11 x12 x13 x14 x15 x16 x17 (ix4 B h n s) = Spec.smx (Spec.rScore W hs me h n) s := by
  rw [val_main_v99_apply, val_main_v98_apply, val_main_v97_apply, val_main_v96_apply, val_main_cst_10_apply, v95_at x0 x1 x2 x3 x4 x5 x6 x7 x8 x9 x10 x11 x12 x13 x14 x15 x16 x17 x18 x19 x20 x21 B]
  simp only [Spec.smx, Ideal.hostDivf_def, Ideal.ofBits_def, Ideal.ofBits_zero_f32, zero_add]
  refine congrArg (Ideal.div _ ·) (Finset.sum_congr rfl fun k _ => ?_)
  rw [← v95_at]; exact congrArg _ (by idx_rfl)

/-! ## Read attention: the heads' gathered values side by side, the output projection, the residual -/

/-- What input row `n` gathers in head `h`: the softmax weights applied to the head's values of the eight memory rows. -/
theorem v100_at (h : Fin 4) (n : Fin 8) (d : Fin 512) :
    val_main_v100 (F := Ideal) x0 x1 x2 x3 x4 x5 x6 x7 x8 x9 x10 x11 x12 x13 x14 x15 x16 x17 x18 x19 (ix4 B h n d) = Spec.rCtx W hs me h n d := by
  rw [val_main_v100_apply]
  simp only [Spec.rCtx]
  refine Finset.sum_congr rfl fun k _ => congrArg₂ (· * ·) ?_ ?_
  · rw [← v99_at]; exact congrArg _ (by idx_rfl)
  · rw [← v85_at]; exact congrArg _ (by idx_rfl)

/-- Moving the head axis back and merging it with the coordinate axis: coordinate `j` of 2048 is head `j / 512`, coordinate `j % 512`. -/
theorem v102_at (n : Fin 8) (j : Fin 2048) :
    val_main_v102 (F := Ideal) x0 x1 x2 x3 x4 x5 x6 x7 x8 x9 x10 x11 x12 x13 x14 x15 x16 x17 x18 x19 (ix3 B n j) = Spec.rAll W hs me n j := by
  rw [val_main_v102_apply, val_main_v101_apply]
  simp only [Spec.rAll]
  rw [← v100_at]
  refine congrArg _ ?_
  have := B.isLt; have := n.isLt; have := j.isLt
  refine idx4_ext _ _ ?_ ?_ ?_ ?_ <;> (dsimp only [idx_main_v101, idx_main_v102, ix4, ix3]; omega)

/-- The output projection of the four heads' gathered values. -/
theorem v106_at (n : Fin 8) (d : Fin 512) :
    val_main_v106 (F := Ideal) x0 x1 x2 x3 x4 x5 x6 x7 x8 x9 x10 x11 x12 x13 x14 x15 x16 x17 x18 x19 x20 x21 (ix3 B n d) = Spec.lin (Spec.rAll W hs me n) (W).ro (W).rob d := by
  rw [val_main_v106_apply, val_main_v103_apply, val_main_v105_apply, val_main_v104_apply]
  simp only [Spec.lin, W_ro, W_rob, Ideal.addf_def]
  refine congrArg₂ (· + ·) (Finset.sum_congr rfl fun k _ => congrArg₂ (· * ·) ?_ (congrArg x20 ?_)) (congrArg x21 ?_)
  · rw [← v102_at]; exact congrArg _ (by idx_rfl)
  · idx_rfl
  · idx_rfl

/-- The new input row: the old one plus the projection. -/
theorem v107_at (n : Fin 8) (d : Fin 512) :
    val_main_v107 (F := Ideal) x0 x1 x2 x3 x4 x5 x6 x7 x8 x9 x10 x11 x12 x13 x14 x15 x16 x17 x18 x19 x20 x21 (ix3 B n d) = Spec.hOut W hs me n d := by
  rw [val_main_v107_apply, v106_at x0 x1 x2 x3 x4 x5 x6 x7 x8 x9 x10 x11 x12 x13 x14 x15 x16 x17 x18 x19 x20 x21 B]
  simp only [Spec.hOut, Spec.rowsAt, Ideal.addf_def]

/-- The reference's first result is the new input rows. -/
theorem hOut_eq (n : Fin 8) (d : Fin 512) :
    val_main_v107 (F := Ideal) x0 x1 x2 x3 x4 x5 x6 x7 x8 x9 x10 x11 x12 x13 x14 x15 x16 x17 x18 x19 x20 x21 (ValueIdx.ix3 B n d)
      = Cert.Spec.hOut (Cert.Spec.weightsOf x2 x3 x4 x5 x6 x7 x8 x9 x10 x11 x12 x13 x14 x15 x16 x17 x18 x19 x20 x21)
          (Cert.Spec.rowsAt x0 B) (Cert.Spec.rowsAt x1 B) n d :=
  v107_at x0 x1 x2 x3 x4 x5 x6 x7 x8 x9 x10 x11 x12 x13 x14 x15 x16 x17 x18 x19 x20 x21 B n d

end Cert.RefSide
-- ==== Proof.lean ====
/-
  The kernel — one fused pass over blocks of 64 batch elements: write attention over the joined input and memory rows,
  a gated update of the memory rows, four heads of read attention over the new memory rows, an output projection added
  to the input rows — computes, on the extended reals, the same two arrays as the reference. Both are the functions
  `hOut` and `memNew` of Proof/AttnSpec.lean at every batch element. The two texts differ in the order and grouping
  of sums, in the tiling, in changes of float format (no change of value on the extended reals), and in the score
  scale: the kernel multiplies by a constant that its idealized text names as the exact reciprocal of the
  single-precision number the reference divides by, and dividing by a nonzero real is multiplying by its reciprocal.
  No step needs the inputs to be finite: sums are only regrouped, never distributed over.

  The three frames are the programs' own runs with the results forgotten; the idealization ledger has five entries,
  one per use of the named constant, each the statement that the name denotes 2097152/11863283.
-/
import proofs.«133350_j9835475108028_2_alg».proof.Defs
import proofs.«133350_j9835475108028_2_alg».proof.Proof.Gen.Kernel
import proofs.«133350_j9835475108028_2_alg».proof.Proof.Gen.Kernel.Skeleton
import proofs.«133350_j9835475108028_2_alg».proof.Proof.Gen.Kernel.Launch
import proofs.«133350_j9835475108028_2_alg».proof.Proof.Gen.Kernel.Points
import proofs.«133350_j9835475108028_2_alg».proof.Proof.Gen.Kernel.Frame
import proofs.«133350_j9835475108028_2_alg».proof.Proof.Gen.KernelIdeal
import proofs.«133350_j9835475108028_2_alg».proof.Proof.Gen.KernelIdeal.Skeleton
import proofs.«133350_j9835475108028_2_alg».proof.Proof.Gen.KernelIdeal.Launch
import proofs.«133350_j9835475108028_2_alg».proof.Proof.Gen.KernelIdeal.Points
import proofs.«133350_j9835475108028_2_alg».proof.Proof.Gen.KernelIdeal.Frame
import proofs.«133350_j9835475108028_2_alg».proof.Proof.Gen.ReferenceIdeal
import proofs.«133350_j9835475108028_2_alg».proof.Proof.Gen.Pre_finite_inputs
import proofs.«133350_j9835475108028_2_alg».proof.Proof.Gen.KernelIdeal.Value
import proofs.«133350_j9835475108028_2_alg».proof.Proof.Gen.ReferenceIdeal.Run
import proofs.«133350_j9835475108028_2_alg».proof.Proof.Gen.ReferenceIdeal.Read
import proofs.«133350_j9835475108028_2_alg».proof.Proof.KerBlocks
import proofs.«133350_j9835475108028_2_alg».proof.Proof.RefRead
import Idealize.ShloMosaic.Adequacy
import Idealize.ShloMosaic.Init

noncomputable section

namespace Cert.Proof

open Idealize.ShloMosaic Idealize.SL.Sem Idealize.ShloMosaic.ValueIdx

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Each use of the score scale: the name denotes the reciprocal 2097152/11863283 of the reference's divisor. -/
theorem scale_named : IdealRules.named_const.Statement Cert.KernelIdeal.κ "inv_sqrt_key" .f32 0x3E3504F3#32 ((2097152 / 11863283 : ℝ) : EReal) :=
  IdealRules.named_const.statement Cert.KernelIdeal.κ "inv_sqrt_key" .f32 0x3E3504F3#32 ((2097152 / 11863283 : ℝ) : EReal) rfl

theorem preserves : Cert.preserves_Kernel_KernelIdeal :=
  ⟨scale_named, scale_named, scale_named, scale_named, scale_named⟩

set_option maxHeartbeats 2000000 in
/-- Both programs, run from memories that agree on the arguments, end with the common value's two arrays. -/
theorem algebraic : Cert.algebraic_KernelIdeal_ReferenceIdeal := by
  intro m ρ m' ρ' _ hagree
  refine ⟨fun c => (Cert.KernelIdeal.Gen.dats m 0 c).arrAt 22 Cert.KernelIdeal.cfg0.N,
    fun c => (Cert.KernelIdeal.Gen.dats m 0 c).arrAt 23 Cert.KernelIdeal.cfg0.N, Cert.KernelIdeal.Value.run_blocks m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18, h19, h20, h21⟩ := hagree c
    refine (Cert.ReferenceIdeal.Read.val_main_v107_eq m' c).trans (Eq.trans ?_ (Cert.KerBlocks.final22 m c).symm)
    funext i
    obtain ⟨B, n, d, rfl⟩ : ∃ (B : Fin 2048) (n : Fin 8) (d : Fin 512), i = ix3 B n d := ⟨i 0, i 1, i 2, eq_ix3 i⟩
    refine (Cert.RefSide.hOut_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) B n d).trans ?_
    refine Eq.trans ?_ (Cert.KerBlocks.GOut_at (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (ix3 B n d) B n d rfl rfl rfl).symm
    rw [h0, h1, h2, h3, h4, h5, h6, h7, h8, h9, h10, h11, h12, h13, h14, h15, h16, h17, h18, h19, h20, h21]
  · obtain ⟨h0, h1, h2, h3, h4, h5, h6, h7, h8, h9, h10, h11, h12, h13, h14, h15, h16, h17, h18, h19, h20, h21⟩ := hagree c
    refine (Cert.ReferenceIdeal.Read.val_main_v67_eq m' c).trans (Eq.trans ?_ (Cert.KerBlocks.final23 m c).symm)
    funext i
    obtain ⟨B, s, d, rfl⟩ : ∃ (B : Fin 2048) (s : Fin 8) (d : Fin 512), i = ix3 B s d := ⟨i 0, i 1, i 2, eq_ix3 i⟩
    refine (Cert.RefSide.memNew_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) B s d).trans ?_
    refine Eq.trans ?_ (Cert.KerBlocks.GMem_at (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (ix3 B s d) B s d rfl rfl rfl).symm
    rw [h0, h1, h2, h3, h4, h5, h6, h7, h8, h9, h10, h11, h12, h13, h14, h15, h16, h17, h18, h19, h20, h21]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
